-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S2x1600000 : Shape := ⟨2, ![2, 1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128x128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  main_v73

def fn_part3 {F : FTy → Type} [FloatOps F] (main_arg12 : FVec F S128 .f32) (main_arg13 : FVec F S128x128 .f32) (main_arg14 : FVec F S128 .f32) (main_arg15 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : FVec F S100000x1 .f32) (main_arg2 : IVec S2x1600000 32) (main_arg3 : FVec F S128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S100000x1 : Shape := ⟨2, ![100000, 1]⟩
abbrev S2x1600000 : Shape := ⟨2, ![2, 1600000]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1x128 : Shape := ⟨2, ![1, 128]⟩
abbrev S2000x128 : Shape := ⟨2, ![2000, 128]⟩
abbrev S2000x1 : Shape := ⟨2, ![2000, 1]⟩
abbrev S100000x768 : Shape := ⟨2, ![100000, 768]⟩
abbrev S1600000x1 : Shape := ⟨2, ![1600000, 1]⟩
abbrev S1600000x128 : Shape := ⟨2, ![1600000, 128]⟩
abbrev S2000x256 : Shape := ⟨2, ![2000, 256]⟩

abbrev nBuf : Space → Nat
  | .hbm => 138
  | .vmem => 67
  | .smem => 0
  | _ => 0

abbrev hbmTy0_0 (i : Nat) : BufTy := match i % 128 with
  | 0 => ⟨S100000x128, .f32⟩
  | 1 => ⟨S100000x1, .f32⟩
  | 2 => ⟨S2x1600000, .i32⟩
  | 3 => ⟨S128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S100000x128, .f32⟩
  | 22 => ⟨S_, .f32⟩
  | 23 => ⟨S128, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S128, .f32⟩
  | 40 => ⟨S128, .f32⟩
  | 41 => ⟨S1x128, .f32⟩
  | 42 => ⟨S128, .f32⟩
  | 43 => ⟨S128, .f32⟩
  | 44 => ⟨S128, .f32⟩
  | 45 => ⟨S1x128, .f32⟩
  | 46 => ⟨S100000x128, .f32⟩
  | 47 => ⟨S_, .f32⟩
  | 48 => ⟨S100000x768, .f32⟩
  | 49 => ⟨S100000x128, .bf16⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .bf16⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S1x128, .f32⟩
  | 65 => ⟨S100000x128, .f32⟩
  | 66 => ⟨S100000x768, .f32⟩
  | 67 => ⟨S100000x128, .bf16⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .bf16⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128, .f32⟩
  | 83 => ⟨S100000x128, .f32⟩
  | 84 => ⟨S100000x768, .f32⟩
  | 85 => ⟨S100000x128, .bf16⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .bf16⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S1x128, .f32⟩
  | 101 => ⟨S100000x128, .f32⟩
  | 102 => ⟨S100000x768, .f32⟩
  | 103 => ⟨S100000x128, .bf16⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .bf16⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S1x128, .f32⟩
  | 119 => ⟨S100000x128, .f32⟩
  | 120 => ⟨S100000x768, .f32⟩
  | 121 => ⟨S100000x128, .bf16⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .bf16⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S1x128, .f32⟩
  | 9 => ⟨S100000x768, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68_0 : Ref sig .tc := ⟨.hbm, 101, rfl⟩
abbrev main_v68_1 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82_0 : Ref sig .tc := ⟨.hbm, 119, rfl⟩
abbrev main_v82_1 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg5_1 : Ref sig .tc := ⟨.vmem, 64, rfl⟩
abbrev cc5_stg6_0 : Ref sig .tc := ⟨.vmem, 65, rfl⟩
abbrev cc5_stg6_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem5_1 : DmaSem sig := 64
abbrev cc5_sem6_0 : DmaSem sig := 65
abbrev cc5_sem6_1 : DmaSem sig := 66

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c3_i32 : BitVec 32 := 3#32
  let c0_i32 : BitVec 32 := 0#32
  ![arg0.toNat, c3_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c2_i32 : BitVec 32 := 2#32
  let c0_i32 : BitVec 32 := 0#32
  ![arg0.toNat, c2_i32.toNat]

def cc5_transform_6 (i : grid5.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x768 : S_.BroadcastsInDim S100000x768 (![] : Fin 0 → Fin S100000x768.rank)
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x768.size a
  hwx1_4 : ∀ i : grid1.Coords, EltTy.bits .f32 = 32 ∨ (Rect.block (s := S100000x768) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x768.size a
  hwx1_6 : ∀ i : grid1.Coords, EltTy.bits .f32 = 32 ∨ (Rect.block (s := S100000x768) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x768.size a
  hwx2_4 : ∀ i : grid2.Coords, EltTy.bits .f32 = 32 ∨ (Rect.block (s := S100000x768) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x768.size a
  hwx2_6 : ∀ i : grid2.Coords, EltTy.bits .f32 = 32 ∨ (Rect.block (s := S100000x768) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x768.size a
  hwx3_4 : ∀ i : grid3.Coords, EltTy.bits .f32 = 32 ∨ (Rect.block (s := S100000x768) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x768.size a
  hwx3_6 : ∀ i : grid3.Coords, EltTy.bits .f32 = 32 ∨ (Rect.block (s := S100000x768) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x768.size a
  hwx4_4 : ∀ i : grid4.Coords, EltTy.bits .f32 = 32 ∨ (Rect.block (s := S100000x768) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x768.size a
  hwx4_6 : ∀ i : grid4.Coords, EltTy.bits .f32 = 32 ∨ (Rect.block (s := S100000x768) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x768.size a
  hwx5_5 : ∀ i : grid5.Coords, EltTy.bits .f32 = 32 ∨ (Rect.block (s := S100000x768) S2000x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S100000x768.size a
  hwx5_6 : ∀ i : grid5.Coords, EltTy.bits .f32 = 32 ∨ (Rect.block (s := S100000x768) S2000x256.size (cc5_transform_6 i) (hinb5_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40_1) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v54_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v54_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54_1) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v68_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v68_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68_1) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v82_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v82_1) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v82_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v82_1) S2000x256.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v96) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where
  halias1_6 : Pipeline.Aliased win1 4 6
  halias2_6 : Pipeline.Aliased win2 4 6
  halias3_6 : Pipeline.Aliased win3 4 6
  halias4_6 : Pipeline.Aliased win4 4 6
  halias5_6 : Pipeline.Aliased win5 5 6

variable [Facts]
-- ==== ReferenceIdeal.lean ====
abbrev S100000x128 : Shape := ⟨2, ![100000, 128]⟩
abbrev S100000x1 : Shape := ⟨2, ![100000, 1]⟩
abbrev S2x1600000 : Shape := ⟨2, ![2, 1600000]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1x128 : Shape := ⟨2, ![1, 128]⟩
abbrev S1600000x1 : Shape := ⟨2, ![1600000, 1]⟩
abbrev S1600000x128 : Shape := ⟨2, ![1600000, 128]⟩
abbrev S100000x768 : Shape := ⟨2, ![100000, 768]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S100000x1, .f32⟩
  | 2 => ⟨S2x1600000, .i32⟩
  | 3 => ⟨S128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S100000x128, .f32⟩
  | 22 => ⟨S_, .f32⟩
  | 23 => ⟨S128, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S100000x128, .f32⟩
  | 20 => ⟨S100000x128, .f32⟩
  | 21 => ⟨S100000x768, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_c_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_9 : Ref sig .tc := ⟨.hbm, 90, rfl⟩
abbrev main_v63 : Ref sig .tc := ⟨.hbm, 91, rfl⟩
abbrev main_v64 : Ref sig .tc := ⟨.hbm, 92, rfl⟩
abbrev main_c_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_12 : Ref sig .tc := ⟨.hbm, 109, rfl⟩
abbrev main_v79 : Ref sig .tc := ⟨.hbm, 110, rfl⟩
abbrev main_v80 : Ref sig .tc := ⟨.hbm, 111, rfl⟩
abbrev main_c_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_15 : Ref sig .tc := ⟨.hbm, 128, rfl⟩
abbrev main_v95 : Ref sig .tc := ⟨.hbm, 129, rfl⟩
abbrev main_v96 : Ref sig .tc := ⟨.hbm, 130, rfl⟩
abbrev main_c_16 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_17 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  concatenates_S100000x128_S100000x128_S100000x128_S100000x128_S100000x128_S100000x128_S100000x768_d1 : Shape.Concatenates [S100000x128, S100000x128, S100000x128, S100000x128, S100000x128, S100000x128] S100000x768 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run, with its result named. Every weakly fair execution of the program, from any
  memory with zero counters, terminates without a fault; the result buffer then holds what the last of the twelve
  segments (six stretches of host operations alternating with six grid regions) leaves in it — the contents `W12`
  that the chain of segment boundaries assigns to it — and the sixteen argument arrays are as launched.
-/
import proofs.«145996_j23708219474067_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the twelve segments from the launch memory: at the end every unscoped buffer holds the last
    boundary's contents; read at the result buffer that is `W12` there, and at an argument its launch contents. -/
theorem run_named : θ_run defs (onTc (τ := τ) (main (F := F))) ⟨m, fun _ => 0, ρ⟩ (fun r => ∀ c : Dev nD,
      r.2.mem ((c.tc : Thread nD τ).loc main_v96) = W12 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v96 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.KValue

end
-- ==== Proof.Spec.lean ====
/-
  The network as mathematics, on the extended reals, index by index.

  A node feature array has 100000 rows (nodes) and 128 columns (features). One graph-convolution update
  takes the features `h`, the neighbour sums `agg`, a 128 × 128 weight matrix `W` and a bias `b`, and gives at
  node `r` and feature `q` the hyperbolic tangent of  Σₖ (h r k + agg r k) · W k q + b q.  The closing
  projection is the same without neighbour sums and bias. The result lays six such arrays side by side:
  column `j` of the 768 is column `j mod 128` of array number `j / 128`.

  The normalisation in front works on `hp = x · importance` (the importance of a node scales its whole row):
  with `μ q` the mean of column `q` and `s q = 1 / √(variance of column q + ε)`, the normalised value is
  `((hp − μ) · s) · γ + β`; the same number can be computed as `hp · (γ · s) + (β − (μ · γ) · s)`, which is the
  form a fused multiply-add takes. The two agree whenever every quantity involved is a real number.
-/
import Idealize.ShloMosaic.PureOps.Ideal
import Idealize.ShloMosaic.Lib.ValueIdx

noncomputable section

namespace Cert.GinSpec

open Idealize.ShloMosaic Idealize.ShloMosaic.ValueIdx
open scoped BigOperators

/-- Node features: 100000 nodes by 128 features. -/
abbrev Sx : Shape := ⟨2, ![100000, 128]⟩
/-- A weight matrix. -/
abbrev Sw : Shape := ⟨2, ![128, 128]⟩
/-- One importance per node. -/
abbrev Simp : Shape := ⟨2, ![100000, 1]⟩
/-- The result: six feature arrays side by side. -/
abbrev Sout : Shape := ⟨2, ![100000, 768]⟩

/-- One update at node `i 0`, feature `i 1`: tanh of the row of `h + agg` against the column of `W`, plus the bias. -/
def layer (h agg : Sx.Idx → EReal) (W : Sw.Idx → EReal) (b : Fin 128 → EReal) : Sx.Idx → EReal :=
  fun i => Ideal.tanh ((∑ k : Fin 128, (h (ix2 (i 0) k) + agg (ix2 (i 0) k)) * W (ix2 k (i 1))) + b (i 1))

/-- The closing projection: tanh of the row of `h` against the column of `W`. -/
def proj (h : Sx.Idx → EReal) (W : Sw.Idx → EReal) : Sx.Idx → EReal :=
  fun i => Ideal.tanh (∑ k : Fin 128, h (ix2 (i 0) k) * W (ix2 k (i 1)))

/-- Six feature arrays side by side: column `j` is column `j % 128` of array `j / 128`. -/
def slab (p : Fin 6 → Sx.Idx → EReal) : Sout.Idx → EReal :=
  fun i => p ⟨(i 1).val / 128, by have := idx2_lt1 i; omega⟩
    (ix2 (i 0) ⟨(i 1).val % 128, Nat.mod_lt _ (by norm_num)⟩)

/-- Each row of `x` scaled by its node's importance. -/
def scaled (x : Sx.Idx → EReal) (imp : Simp.Idx → EReal) : Sx.Idx → EReal :=
  fun i => x i * imp (ix2 (i 0) 0)

/-- The mean of column `q`: the column's sum (started from the zero word) divided by the word for 100000. -/
def colMean (a : Sx.Idx → EReal) : Fin 128 → EReal :=
  fun q => Ideal.div (Ideal.ofBits .f32 0x00000000#32 + ∑ r : Fin 100000, a (ix2 r q)) (Ideal.ofBits .f32 0x47C35000#32)

/-- The centred array: each entry minus its column's mean. -/
def centred (a : Sx.Idx → EReal) : Sx.Idx → EReal :=
  fun i => a i - colMean a (i 1)

/-- One over the square root of (the column's variance plus ε), ε the word 0x3727C5AC. -/
def invStd (a : Sx.Idx → EReal) : Fin 128 → EReal :=
  fun q => Ideal.rsqrt (colMean (fun i => centred a i * centred a i) q + Ideal.ofBits .f32 0x3727C5AC#32)

/-- The normalisation as the textbook writes it. -/
def normalised (a : Sx.Idx → EReal) (γ β : Fin 128 → EReal) : Sx.Idx → EReal :=
  fun i => ((a i - colMean a (i 1)) * invStd a (i 1)) * γ (i 1) + β (i 1)

/-- The multiplier of the fused form. -/
def fusedScale (a : Sx.Idx → EReal) (γ : Fin 128 → EReal) : Fin 128 → EReal :=
  fun q => γ q * invStd a q

/-- The offset of the fused form. -/
def fusedShift (a : Sx.Idx → EReal) (γ β : Fin 128 → EReal) : Fin 128 → EReal :=
  fun q => β q - (colMean a q * γ q) * invStd a q

/-- The normalisation in its fused form: one multiply and one add per entry. -/
def fused (a : Sx.Idx → EReal) (sc sh : Fin 128 → EReal) : Sx.Idx → EReal :=
  fun i => a i * sc (i 1) + sh (i 1)

/-- The whole network from the normalised features `h0`, with the neighbour sum `A` left abstract:
    five updates, each feeding the next, and the projection of the last. -/
def net (A : (Sx.Idx → EReal) → (Sx.Idx → EReal)) (h0 : Sx.Idx → EReal)
    (W1 W2 W3 W4 W5 Wp : Sw.Idx → EReal) (b1 b2 b3 b4 b5 : Fin 128 → EReal) : Sout.Idx → EReal :=
  let h1 := layer h0 (A h0) W1 b1
  let h2 := layer h1 (A h1) W2 b2
  let h3 := layer h2 (A h2) W3 b3
  let h4 := layer h3 (A h3) W4 b4
  let h5 := layer h4 (A h4) W5 b5
  slab ![h1, h2, h3, h4, h5, proj h5 Wp]

end Cert.GinSpec

end
-- ==== Proof.KCarry.lean ====
/-
  Which buffers a segment of the kernel program leaves alone.

  The program is twelve segments: six stretches of host operations alternating with six grid regions. A stretch of
  host operations changes exactly the buffers its operations write; a region changes at most the arrays its windows
  are laid over. So a buffer that is neither keeps its contents across the segment. These facts let a long-lived
  buffer — the edge endpoints, a weight matrix, a bias — be followed from the launch to the segment that reads it.
-/
import proofs.«145996_j23708219474067_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.SL.Sem

variable {F : FTy → Type} [FloatOps F]

/-- The buffers the host stretch before region 0 writes. -/
def written0 : List (Ref sig .tc) := [main_v0, main_v1, main_v2, main_v3, main_v4, main_v5, main_cst, main_v6, main_cst_0, main_v7, main_v8, main_v9, main_v10, main_v11, main_v12, main_cst_1, main_v13, main_cst_2, main_v14, main_v15, main_cst_3, main_v16, main_v17, main_v18, main_v19, main_v20, main_v21, main_v22, main_v23, main_v24]

/-- A buffer that stretch does not write keeps its contents across it. -/
theorem keep0 (V : Valuation τ sig (Elt F)) (r : Ref sig .tc) (hr : r ∉ written0) :
    StableHlo.after (hostOps0 (F := F)) V (Proc.devRef .tc r) = V (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact hr (by decide))))

/-- The buffers the host stretch before region 1 writes. -/
def written1 : List (Ref sig .tc) := [main_cst_4, main_v26, main_v27, main_c, main_v28, main_v29, main_c_5, main_v30, main_v31, main_v32, main_v33, main_v34, main_v35, main_cst_6, main_v36, main_v37, main_v38, main_v39, main_v40_1]

/-- A buffer that stretch does not write keeps its contents across it. -/
theorem keep1 (V : Valuation τ sig (Elt F)) (r : Ref sig .tc) (hr : r ∉ written1) :
    StableHlo.after (hostOps1 (F := F)) V (Proc.devRef .tc r) = V (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact hr (by decide))))

/-- The buffers the host stretch before region 2 writes. -/
def written2 : List (Ref sig .tc) := [main_v41, main_c_7, main_v42, main_v43, main_c_8, main_v44, main_v45, main_v46, main_v47, main_v48, main_v49, main_cst_9, main_v50, main_v51, main_v52, main_v53, main_v54_1]

/-- A buffer that stretch does not write keeps its contents across it. -/
theorem keep2 (V : Valuation τ sig (Elt F)) (r : Ref sig .tc) (hr : r ∉ written2) :
    StableHlo.after (hostOps2 (F := F)) V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact hr (by decide))))

/-- The buffers the host stretch before region 3 writes. -/
def written3 : List (Ref sig .tc) := [main_v55, main_c_10, main_v56, main_v57, main_c_11, main_v58, main_v59, main_v60, main_v61, main_v62, main_v63, main_cst_12, main_v64, main_v65, main_v66, main_v67, main_v68_1]

/-- A buffer that stretch does not write keeps its contents across it. -/
theorem keep3 (V : Valuation τ sig (Elt F)) (r : Ref sig .tc) (hr : r ∉ written3) :
    StableHlo.after (hostOps3 (F := F)) V (Proc.devRef .tc r) = V (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact hr (by decide))))

/-- The buffers the host stretch before region 4 writes. -/
def written4 : List (Ref sig .tc) := [main_v69, main_c_13, main_v70, main_v71, main_c_14, main_v72, main_v73, main_v74, main_v75, main_v76, main_v77, main_cst_15, main_v78, main_v79, main_v80, main_v81, main_v82_1]

/-- A buffer that stretch does not write keeps its contents across it. -/
theorem keep4 (V : Valuation τ sig (Elt F)) (r : Ref sig .tc) (hr : r ∉ written4) :
    StableHlo.after (hostOps4 (F := F)) V (Proc.devRef .tc r) = V (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact hr (by decide))))

/-- The buffers the host stretch before region 5 writes. -/
def written5 : List (Ref sig .tc) := [main_v83, main_c_16, main_v84, main_v85, main_c_17, main_v86, main_v87, main_v88, main_v89, main_v90, main_v91, main_cst_18, main_v92, main_v93, main_v94, main_v95, main_v96]

/-- A buffer that stretch does not write keeps its contents across it. -/
theorem keep5 (V : Valuation τ sig (Elt F)) (r : Ref sig .tc) (hr : r ∉ written5) :
    StableHlo.after (hostOps5 (F := F)) V (Proc.devRef .tc r) = V (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact hr (by decide))))

variable (m : (ℓ : Loc nD τ sig) → Buf (Elt F) ℓ) (ρ : Dev nD → PrngReg)

/-- The arrays region 0's windows are laid over. -/
def arrays0 : List (Ref sig .tc) := [main_arg0, main_arg1, main_v20, main_v24, main_v25]

/-- A buffer that is none of them keeps its contents across region 0. -/
theorem keepRegion0 (c : Dev nD) (b : Ref sig .tc) (hb : b ∉ arrays0) :
    W2 m ρ c (Proc.devRef .tc b) = W1 m ρ c (Proc.devRef .tc b) := by
  have hall : ∀ w : Fin cfg0.W, Pipeline.arrRef spec0 w ∈ arrays0 := by decide
  exact W2_of_ne m ρ c b fun w e => hb (e ▸ hall w)

/-- The arrays region 1's windows are laid over. -/
def arrays1 : List (Ref sig .tc) := [main_v25, main_v38, main_arg5, main_v39, main_v26, main_v40_0, main_v40_1]

/-- A buffer that is none of them keeps its contents across region 1. -/
theorem keepRegion1 (c : Dev nD) (b : Ref sig .tc) (hb : b ∉ arrays1) :
    W4 m ρ c (Proc.devRef .tc b) = W3 m ρ c (Proc.devRef .tc b) := by
  have hall : ∀ w : Fin cfg1.W, Pipeline.arrRef spec1 w ∈ arrays1 := by decide
  exact W4_of_ne m ρ c b fun w e => hb (e ▸ hall w)

/-- The arrays region 2's windows are laid over. -/
def arrays2 : List (Ref sig .tc) := [main_v40_0, main_v52, main_arg7, main_v53, main_v40_1, main_v54_0, main_v54_1]

/-- A buffer that is none of them keeps its contents across region 2. -/
theorem keepRegion2 (c : Dev nD) (b : Ref sig .tc) (hb : b ∉ arrays2) :
    W6 m ρ c (Proc.devRef .tc b) = W5 m ρ c (Proc.devRef .tc b) := by
  have hall : ∀ w : Fin cfg2.W, Pipeline.arrRef spec2 w ∈ arrays2 := by decide
  exact W6_of_ne m ρ c b fun w e => hb (e ▸ hall w)

/-- The arrays region 3's windows are laid over. -/
def arrays3 : List (Ref sig .tc) := [main_v54_0, main_v66, main_arg9, main_v67, main_v54_1, main_v68_0, main_v68_1]

/-- A buffer that is none of them keeps its contents across region 3. -/
theorem keepRegion3 (c : Dev nD) (b : Ref sig .tc) (hb : b ∉ arrays3) :
    W8 m ρ c (Proc.devRef .tc b) = W7 m ρ c (Proc.devRef .tc b) := by
  have hall : ∀ w : Fin cfg3.W, Pipeline.arrRef spec3 w ∈ arrays3 := by decide
  exact W8_of_ne m ρ c b fun w e => hb (e ▸ hall w)

/-- The arrays region 4's windows are laid over. -/
def arrays4 : List (Ref sig .tc) := [main_v68_0, main_v80, main_arg11, main_v81, main_v68_1, main_v82_0, main_v82_1]

/-- A buffer that is none of them keeps its contents across region 4. -/
theorem keepRegion4 (c : Dev nD) (b : Ref sig .tc) (hb : b ∉ arrays4) :
    W10 m ρ c (Proc.devRef .tc b) = W9 m ρ c (Proc.devRef .tc b) := by
  have hall : ∀ w : Fin cfg4.W, Pipeline.arrRef spec4 w ∈ arrays4 := by decide
  exact W10_of_ne m ρ c b fun w e => hb (e ▸ hall w)

/-- The arrays region 5's windows are laid over. -/
def arrays5 : List (Ref sig .tc) := [main_v82_0, main_v94, main_arg13, main_v95, main_arg15, main_v82_1, main_v96]

/-- A buffer that is none of them keeps its contents across region 5. -/
theorem keepRegion5 (c : Dev nD) (b : Ref sig .tc) (hb : b ∉ arrays5) :
    W12 m ρ c (Proc.devRef .tc b) = W11 m ρ c (Proc.devRef .tc b) := by
  have hall : ∀ w : Fin cfg5.W, Pipeline.arrRef spec5 w ∈ arrays5 := by decide
  exact W12_of_ne m ρ c b fun w e => hb (e ▸ hall w)

end Cert.KernelIdeal.KValue

end
-- ==== Proof.KAgg.lean ====
/-
  The kernel program's neighbour sum as one function of the edge list and the node features.

  The same gather of source rows and accumulating scatter at destination rows as the reference's, except that the
  features are narrowed to bfloat16 before the gather and the gathered rows widened back to float32 after it. On
  exact extended reals a change of format changes nothing, so this is the same function; that is proved where
  the two are compared.
-/
import proofs.«145996_j23708219474067_2_alg».proof.KernelIdeal
import Idealize.ShloMosaic.PureOps.Ideal

noncomputable section

namespace Cert.KernelIdeal.KValue

open Cert.KernelIdeal Idealize.ShloMosaic

variable [Facts₀]
open Facts₀

/-- The source node numbers with Python's wrap-around: a negative number counts from the end, so 100000 is added to it;
    any other number is kept. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The neighbour sum: the zero array with, for every edge, the features' row at the edge's (wrapped) source —
    narrowed before it is fetched, widened after — added into the row of the edge's destination. -/
def aggK (src dst : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf (F := Ideal) .f32
      (Host.gather gather_S100000x128_S1600000x1_S1600000x128_1_0_n_n_0_1_1128
        (truncf (F := Ideal) .bf16 h bitsLt_bf16_f32)
        (broadcastInDim S1600000x1 ![0] bcast_S1600000_S1600000x1_0 (wrapIdx src)))
      bitsLt_bf16_f32)

end Cert.KernelIdeal.KValue

end
-- ==== Proof.KStretch.lean ====
/-
  What each stretch of host operations between the kernel program's regions computes, read at the buffers the next
  region takes: the neighbour sums of the current features, the next bias as a 1 × 128 row, and the result slab —
  all zeros before the first update, afterwards a copy of the slab the region before left. The stretch in front of the
  first region also cuts the edge list into its row of sources and its row of destinations.
-/
import proofs.«145996_j23708219474067_2_alg».proof.Proof.Gen.KernelIdeal.Frame
import proofs.«145996_j23708219474067_2_alg».proof.Proof.KAgg
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-- The edge list's first row: every edge's source node. -/
def srcOf (e : IVec S2x1600000 32) : IVec S1600000 32 :=
  shapeCast S1600000 (extractStridedSlice S1x1600000 ![0, 0] e slices_S2x1600000_S1x1600000_0_0) shapeCasts_S1x1600000_S1600000

/-- The edge list's second row: every edge's destination node. -/
def dstOf (e : IVec S2x1600000 32) : IVec S1600000 32 :=
  shapeCast S1600000 (extractStridedSlice S1x1600000 ![1, 0] e slices_S2x1600000_S1x1600000_1_0) shapeCasts_S1x1600000_S1600000

variable (V0 : Valuation τ sig (Elt Ideal))

set_option maxHeartbeats 4000000 in
/-- The first stretch leaves every edge's source node in its own row. -/
theorem stretch0_src : StableHlo.after (hostOps0 (F := Ideal)) V0 (Proc.devRef .tc main_v1)
    = srcOf (V0 (Proc.devRef .tc main_arg2)) := by
  after_results_simp
  rfl

set_option maxHeartbeats 4000000 in
/-- The first stretch leaves every edge's destination node in its own row. -/
theorem stretch0_dst : StableHlo.after (hostOps0 (F := Ideal)) V0 (Proc.devRef .tc main_v3)
    = dstOf (V0 (Proc.devRef .tc main_arg2)) := by
  after_results_simp
  rfl

set_option maxHeartbeats 4000000 in
/-- Before region 1: the neighbour sums of the features the region will update. -/
theorem stretch1_agg : StableHlo.after (hostOps1 (F := Ideal)) V0 (Proc.devRef .tc main_v38)
    = aggK (V0 (Proc.devRef .tc main_v1)) (V0 (Proc.devRef .tc main_v3)) (V0 (Proc.devRef .tc main_v25)) := by
  after_results_simp
  rfl

set_option maxHeartbeats 4000000 in
/-- Before region 1: the bias as a 1 × 128 row. -/
theorem stretch1_bias : StableHlo.after (hostOps1 (F := Ideal)) V0 (Proc.devRef .tc main_v39)
    = shapeCast S1x128 (V0 (Proc.devRef .tc main_arg6)) shapeCasts_S128_S1x128 := by
  after_results_simp
  rfl

set_option maxHeartbeats 4000000 in
/-- Before region 1 the result slab is all zeros. -/
theorem stretch1_slab : StableHlo.after (hostOps1 (F := Ideal)) V0 (Proc.devRef .tc main_v40_1)
    = broadcastInDim S100000x768 ![] bcast_S_S100000x768 (constant (F := Ideal) S_ .f32 0x00000000#32) := by
  after_results_simp
  rfl

set_option maxHeartbeats 4000000 in
/-- Before region 2: the neighbour sums of the features the region will update. -/
theorem stretch2_agg : StableHlo.after (hostOps2 (F := Ideal)) V0 (Proc.devRef .tc main_v52)
    = aggK (V0 (Proc.devRef .tc main_v1)) (V0 (Proc.devRef .tc main_v3)) (V0 (Proc.devRef .tc main_v40_0)) := by
  after_results_simp
  rfl

set_option maxHeartbeats 4000000 in
/-- Before region 2: the bias as a 1 × 128 row. -/
theorem stretch2_bias : StableHlo.after (hostOps2 (F := Ideal)) V0 (Proc.devRef .tc main_v53)
    = shapeCast S1x128 (V0 (Proc.devRef .tc main_arg8)) shapeCasts_S128_S1x128 := by
  after_results_simp
  rfl

set_option maxHeartbeats 4000000 in
/-- Before region 2 the result slab is a copy of what region 1 left. -/
theorem stretch2_slab : StableHlo.after (hostOps2 (F := Ideal)) V0 (Proc.devRef .tc main_v54_1)
    = V0 (Proc.devRef .tc main_v40_1) := by
  after_results_simp
  rfl

set_option maxHeartbeats 4000000 in
/-- Before region 3: the neighbour sums of the features the region will update. -/
theorem stretch3_agg : StableHlo.after (hostOps3 (F := Ideal)) V0 (Proc.devRef .tc main_v66)
    = aggK (V0 (Proc.devRef .tc main_v1)) (V0 (Proc.devRef .tc main_v3)) (V0 (Proc.devRef .tc main_v54_0)) := by
  after_results_simp
  rfl

set_option maxHeartbeats 4000000 in
/-- Before region 3: the bias as a 1 × 128 row. -/
theorem stretch3_bias : StableHlo.after (hostOps3 (F := Ideal)) V0 (Proc.devRef .tc main_v67)
    = shapeCast S1x128 (V0 (Proc.devRef .tc main_arg10)) shapeCasts_S128_S1x128 := by
  after_results_simp
  rfl

set_option maxHeartbeats 4000000 in
/-- Before region 3 the result slab is a copy of what region 2 left. -/
theorem stretch3_slab : StableHlo.after (hostOps3 (F := Ideal)) V0 (Proc.devRef .tc main_v68_1)
    = V0 (Proc.devRef .tc main_v54_1) := by
  after_results_simp
  rfl

set_option maxHeartbeats 4000000 in
/-- Before region 4: the neighbour sums of the features the region will update. -/
theorem stretch4_agg : StableHlo.after (hostOps4 (F := Ideal)) V0 (Proc.devRef .tc main_v80)
    = aggK (V0 (Proc.devRef .tc main_v1)) (V0 (Proc.devRef .tc main_v3)) (V0 (Proc.devRef .tc main_v68_0)) := by
  after_results_simp
  rfl

set_option maxHeartbeats 4000000 in
/-- Before region 4: the bias as a 1 × 128 row. -/
theorem stretch4_bias : StableHlo.after (hostOps4 (F := Ideal)) V0 (Proc.devRef .tc main_v81)
    = shapeCast S1x128 (V0 (Proc.devRef .tc main_arg12)) shapeCasts_S128_S1x128 := by
  after_results_simp
  rfl

set_option maxHeartbeats 4000000 in
/-- Before region 4 the result slab is a copy of what region 3 left. -/
theorem stretch4_slab : StableHlo.after (hostOps4 (F := Ideal)) V0 (Proc.devRef .tc main_v82_1)
    = V0 (Proc.devRef .tc main_v68_1) := by
  after_results_simp
  rfl

set_option maxHeartbeats 4000000 in
/-- Before region 5: the neighbour sums of the features the region will update. -/
theorem stretch5_agg : StableHlo.after (hostOps5 (F := Ideal)) V0 (Proc.devRef .tc main_v94)
    = aggK (V0 (Proc.devRef .tc main_v1)) (V0 (Proc.devRef .tc main_v3)) (V0 (Proc.devRef .tc main_v82_0)) := by
  after_results_simp
  rfl

set_option maxHeartbeats 4000000 in
/-- Before region 5: the bias as a 1 × 128 row. -/
theorem stretch5_bias : StableHlo.after (hostOps5 (F := Ideal)) V0 (Proc.devRef .tc main_v95)
    = shapeCast S1x128 (V0 (Proc.devRef .tc main_arg14)) shapeCasts_S128_S1x128 := by
  after_results_simp
  rfl

set_option maxHeartbeats 4000000 in
/-- Before region 5 the result slab is a copy of what region 4 left. -/
theorem stretch5_slab : StableHlo.after (hostOps5 (F := Ideal)) V0 (Proc.devRef .tc main_v96)
    = V0 (Proc.devRef .tc main_v82_1) := by
  after_results_simp
  rfl

end Cert.KernelIdeal.KValue

end
-- ==== Proof.NormRead.lean ====
/-
  The host operations of the batch normalisation, read index by index on the extended reals.

  Both programs compute the normalisation's ingredients with the same whole-array operations: the importance
  column is repeated along each row and multiplied into the features; a sum down the rows, started from the zero
  word and divided by the word for the number of rows, gives the column means; a vector of 128 entries is laid out
  as one row and that row repeated down all nodes before it meets the feature array; a single number is repeated
  to every entry of a vector. Read at an index, each of these is the corresponding expression of the
  specification: `scaled`, `colMean`, `centred`, `invStd`, `normalised`. The statements take the
  shape facts the operations carry (which axes are repeated, which axis is summed away) as hypotheses, so that they
  apply to either program's copy of the operations.
-/
import proofs.«145996_j23708219474067_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.GinSpec.Read

open Idealize.ShloMosaic Idealize.ShloMosaic.ValueIdx Cert.GinSpec
open scoped BigOperators

/-- A vector of 128 entries, one per feature. -/
abbrev Sv : Shape := ⟨1, ![128]⟩
/-- The same vector laid out as one row. -/
abbrev Srow : Shape := ⟨2, ![1, 128]⟩
/-- The shape of a single number. -/
abbrev S0 : Shape := ⟨0, ![]⟩

/-- The importance column broadcast along each row and multiplied in is the row scaling. -/
theorem scaled_read (hb : Simp.BroadcastsInDim Sx (![0, 1] : Fin 2 → Fin Sx.rank))
    (x : FVec Ideal Sx .f32) (imp : FVec Ideal Simp .f32) :
    mulf x (broadcastInDim Sx ![0, 1] hb imp) = scaled x imp := by
  funext i
  rw [mulf_apply, broadcastInDim_apply ![0, 1] hb imp i (ix2 (i 0) 0) (by
    intro a
    match a with
    | ⟨0, _⟩ =>
      show (i 0).val = if (100000 : ℕ) = 1 then 0 else (i 0).val
      rw [if_neg (by decide)]
    | ⟨1, _⟩ =>
      show (0 : ℕ) = if (1 : ℕ) = 1 then 0 else _
      rw [if_pos rfl])]
  rfl

/-- A host sum down the rows, at column `j`: the starting word plus the sum of the column. -/
theorem colSum_read (h' : Sx.ReducesTo [0] Sv) (hu : 0 < S0.numel) (a : FVec Ideal Sx .f32) (w : BitVec 32)
    (j : Sv.Idx) :
    Host.reduceAdd a (constant S0 .f32 w) h' hu j = Ideal.ofBits .f32 w + ∑ r : Fin 100000, a (ix2 r (j 0)) := by
  have h : Sx.Reduces [0] Sv := by decide
  rw [hostReduceAdd_apply, Ideal.hostReduceAdd_single h' h]
  refine congrArg₂ (· + ·) rfl (Finset.sum_congr rfl fun k _ => congrArg a ?_)
  funext d
  match d with
  | ⟨0, _⟩ => exact Fin.ext rfl
  | ⟨1, _⟩ => exact Fin.ext rfl

/-- The column sum from the zero word, divided by the word for the number of rows, is the column mean. -/
theorem colMean_read (h' : Sx.ReducesTo [0] Sv) (hu : 0 < S0.numel) (hb : S0.BroadcastsInDim Sv (![] : Fin 0 → Fin Sv.rank))
    (a : FVec Ideal Sx .f32) :
    Host.divf (Host.reduceAdd a (constant S0 .f32 0x00000000#32) h' hu)
        (broadcastInDim Sv ![] hb (constant S0 .f32 0x47C35000#32))
      = fun j : Sv.Idx => colMean a (j 0) := by
  funext j
  rw [hostDivf_apply, colSum_read, broadcastInDim_scalar_apply]
  rfl

/-- A vector laid out as one row and that row repeated down every node reads, at node `i 0` and feature `i 1`,
    the vector's entry `i 1`. -/
theorem rowBcast_read (h1 : Sv.BroadcastsInDim Srow (![1] : Fin 1 → Fin Srow.rank))
    (h2 : Srow.BroadcastsInDim Sx (![0, 1] : Fin 2 → Fin Sx.rank)) (v : Sv.Idx → EReal) (i : Sx.Idx) :
    broadcastInDim Sx ![0, 1] h2 (broadcastInDim Srow ![1] h1 v) i = v (ix1 (i 1 : Fin 128)) := by
  refine (broadcastInDim_apply ![0, 1] h2 (broadcastInDim Srow ![1] h1 v) i (ix2 (0 : Fin 1) (i 1 : Fin 128)) (by
    intro a
    match a with
    | ⟨0, _⟩ =>
      show (0 : ℕ) = if (1 : ℕ) = 1 then 0 else _
      rw [if_pos rfl]
    | ⟨1, _⟩ =>
      show (i 1).val = if (128 : ℕ) = 1 then 0 else (i 1).val
      rw [if_neg (by decide)])).trans ?_
  exact broadcastInDim_apply ![1] h1 v (ix2 (0 : Fin 1) (i 1 : Fin 128)) (ix1 (i 1 : Fin 128)) (by
    intro a
    match a with
    | ⟨0, _⟩ =>
      show (i 1).val = if (128 : ℕ) = 1 then 0 else (i 1).val
      rw [if_neg (by decide)])

/-- Subtracting the broadcast column means centres the array. -/
theorem centred_read (h1 : Sv.BroadcastsInDim Srow (![1] : Fin 1 → Fin Srow.rank))
    (h2 : Srow.BroadcastsInDim Sx (![0, 1] : Fin 2 → Fin Sx.rank)) (a : FVec Ideal Sx .f32) :
    subf a (broadcastInDim Sx ![0, 1] h2 (broadcastInDim Srow ![1] h1 (fun j : Sv.Idx => colMean a (j 0)))) = centred a := by
  funext i
  rw [subf_apply, rowBcast_read]
  rfl

/-- The mean of the squares of an array's entries plus the small word, under one over the square root. -/
theorem rsqrtVar_read (h' : Sx.ReducesTo [0] Sv) (hu : 0 < S0.numel) (hb : S0.BroadcastsInDim Sv (![] : Fin 0 → Fin Sv.rank))
    (d : FVec Ideal Sx .f32) :
    Host.rsqrt (addf (Host.divf (Host.reduceAdd (mulf d d) (constant S0 .f32 0x00000000#32) h' hu)
        (broadcastInDim Sv ![] hb (constant S0 .f32 0x47C35000#32)))
        (broadcastInDim Sv ![] hb (constant S0 .f32 0x3727C5AC#32)))
      = fun j : Sv.Idx => Ideal.rsqrt (colMean (fun i => d i * d i) (j 0) + Ideal.ofBits .f32 0x3727C5AC#32) := by
  rw [colMean_read]
  funext j
  show Ideal.rsqrt (colMean (mulf d d) (j 0) + broadcastInDim Sv ![] hb (constant (F := Ideal) S0 .f32 0x3727C5AC#32) j) = _
  rw [broadcastInDim_scalar_apply]
  rfl

/-- The reference's normalisation, operation by operation — scale the rows, take the column means, centre, take
    the means of the squares, add the small word, one over the square root, multiply by it, multiply by the scale
    vector, add the offset vector, each vector first laid out as a row and repeated down the nodes — is the
    textbook normalisation of the scaled features. -/
theorem normalised_read (hbi : Simp.BroadcastsInDim Sx (![0, 1] : Fin 2 → Fin Sx.rank))
    (h' : Sx.ReducesTo [0] Sv) (hu : 0 < S0.numel) (hb : S0.BroadcastsInDim Sv (![] : Fin 0 → Fin Sv.rank))
    (h1 : Sv.BroadcastsInDim Srow (![1] : Fin 1 → Fin Srow.rank))
    (h2 : Srow.BroadcastsInDim Sx (![0, 1] : Fin 2 → Fin Sx.rank))
    (x : FVec Ideal Sx .f32) (imp : FVec Ideal Simp .f32) (g b : FVec Ideal Sv .f32) :
    addf (mulf (mulf
        (subf (mulf x (broadcastInDim Sx ![0, 1] hbi imp))
          (broadcastInDim Sx ![0, 1] h2 (broadcastInDim Srow ![1] h1
            (Host.divf (Host.reduceAdd (mulf x (broadcastInDim Sx ![0, 1] hbi imp)) (constant S0 .f32 0x00000000#32) h' hu)
              (broadcastInDim Sv ![] hb (constant S0 .f32 0x47C35000#32))))))
        (broadcastInDim Sx ![0, 1] h2 (broadcastInDim Srow ![1] h1
          (Host.rsqrt (addf (Host.divf (Host.reduceAdd
            (mulf
              (subf (mulf x (broadcastInDim Sx ![0, 1] hbi imp))
                (broadcastInDim Sx ![0, 1] h2 (broadcastInDim Srow ![1] h1
                  (Host.divf (Host.reduceAdd (mulf x (broadcastInDim Sx ![0, 1] hbi imp)) (constant S0 .f32 0x00000000#32) h' hu)
                    (broadcastInDim Sv ![] hb (constant S0 .f32 0x47C35000#32))))))
              (subf (mulf x (broadcastInDim Sx ![0, 1] hbi imp))
                (broadcastInDim Sx ![0, 1] h2 (broadcastInDim Srow ![1] h1
                  (Host.divf (Host.reduceAdd (mulf x (broadcastInDim Sx ![0, 1] hbi imp)) (constant S0 .f32 0x00000000#32) h' hu)
                    (broadcastInDim Sv ![] hb (constant S0 .f32 0x47C35000#32)))))))
            (constant S0 .f32 0x00000000#32) h' hu)
            (broadcastInDim Sv ![] hb (constant S0 .f32 0x47C35000#32)))
            (broadcastInDim Sv ![] hb (constant S0 .f32 0x3727C5AC#32)))))))
        (broadcastInDim Sx ![0, 1] h2 (broadcastInDim Srow ![1] h1 g)))
      (broadcastInDim Sx ![0, 1] h2 (broadcastInDim Srow ![1] h1 b))
      = normalised (scaled x imp) (fun q => g (ix1 q)) (fun q => b (ix1 q)) := by
  rw [scaled_read hbi x imp, colMean_read h' hu hb (scaled x imp), centred_read h1 h2 (scaled x imp),
    rsqrtVar_read h' hu hb (centred (scaled x imp))]
  funext i
  rw [addf_apply, mulf_apply, mulf_apply, rowBcast_read, rowBcast_read, rowBcast_read]
  rfl

/-- One over the square root of (variance plus the small word), as the host operations compute it from the
    features and importances, is `invStd` of the scaled features. -/
theorem invStd_read (hbi : Simp.BroadcastsInDim Sx (![0, 1] : Fin 2 → Fin Sx.rank))
    (h' : Sx.ReducesTo [0] Sv) (hu : 0 < S0.numel) (hb : S0.BroadcastsInDim Sv (![] : Fin 0 → Fin Sv.rank))
    (h1 : Sv.BroadcastsInDim Srow (![1] : Fin 1 → Fin Srow.rank))
    (h2 : Srow.BroadcastsInDim Sx (![0, 1] : Fin 2 → Fin Sx.rank))
    (x : FVec Ideal Sx .f32) (imp : FVec Ideal Simp .f32) :
    Host.rsqrt (addf (Host.divf (Host.reduceAdd
            (mulf
              (subf (mulf x (broadcastInDim Sx ![0, 1] hbi imp))
                (broadcastInDim Sx ![0, 1] h2 (broadcastInDim Srow ![1] h1
                  (Host.divf (Host.reduceAdd (mulf x (broadcastInDim Sx ![0, 1] hbi imp)) (constant S0 .f32 0x00000000#32) h' hu)
                    (broadcastInDim Sv ![] hb (constant S0 .f32 0x47C35000#32))))))
              (subf (mulf x (broadcastInDim Sx ![0, 1] hbi imp))
                (broadcastInDim Sx ![0, 1] h2 (broadcastInDim Srow ![1] h1
                  (Host.divf (Host.reduceAdd (mulf x (broadcastInDim Sx ![0, 1] hbi imp)) (constant S0 .f32 0x00000000#32) h' hu)
                    (broadcastInDim Sv ![] hb (constant S0 .f32 0x47C35000#32)))))))
            (constant S0 .f32 0x00000000#32) h' hu)
            (broadcastInDim Sv ![] hb (constant S0 .f32 0x47C35000#32)))
            (broadcastInDim Sv ![] hb (constant S0 .f32 0x3727C5AC#32)))
      = fun j : Sv.Idx => invStd (scaled x imp) (j 0) := by
  rw [scaled_read hbi x imp, colMean_read h' hu hb (scaled x imp), centred_read h1 h2 (scaled x imp),
    rsqrtVar_read h' hu hb (centred (scaled x imp))]
  rfl

/-- The column means of the scaled features, as the host operations compute them. -/
theorem mean_read (hbi : Simp.BroadcastsInDim Sx (![0, 1] : Fin 2 → Fin Sx.rank))
    (h' : Sx.ReducesTo [0] Sv) (hu : 0 < S0.numel) (hb : S0.BroadcastsInDim Sv (![] : Fin 0 → Fin Sv.rank))
    (x : FVec Ideal Sx .f32) (imp : FVec Ideal Simp .f32) :
    Host.divf (Host.reduceAdd (mulf x (broadcastInDim Sx ![0, 1] hbi imp)) (constant S0 .f32 0x00000000#32) h' hu)
        (broadcastInDim Sv ![] hb (constant S0 .f32 0x47C35000#32))
      = fun j : Sv.Idx => colMean (scaled x imp) (j 0) := by
  rw [scaled_read hbi x imp, colMean_read h' hu hb (scaled x imp)]

/-- A vector of 128 entries recast as one row reads, at `(u, t)`, the vector's entry `t`. -/
theorem asRow_read (hc : Sv.ShapeCasts Srow) (v : Sv.Idx → EReal) (j : Srow.Idx) :
    shapeCast Srow v hc j = v (ix1 (j 1 : Fin 128)) := by
  obtain ⟨u, t, rfl⟩ : ∃ (u : Fin 1) (t : Fin 128), j = ix2 u t := ⟨j 0, j 1, eq_ix2 j⟩
  exact shapeCast_a_1a_apply v hc u t

end Cert.GinSpec.Read

end
-- ==== Proof.KHostNorm.lean ====
/-
  The two vectors the kernel's first region takes from the host: the multiplier and the offset of the fused
  normalisation.

  Before its first region the kernel's program computes, with whole-array host operations, the scaled features
  `hp = x · importance`, their column means `μ`, one over the square root of the column variances plus the small
  word, `s`, and from these `γ · s` and `β − (μ · γ) · s`, each recast from 128 entries to one row of 128. Read at an
  index these rows are `fusedScale` and `fusedShift` of the specification.
-/
import proofs.«145996_j23708219474067_2_alg».proof.Proof.Gen.KernelIdeal.Launch
import proofs.«145996_j23708219474067_2_alg».proof.Proof.Spec
import proofs.«145996_j23708219474067_2_alg».proof.Proof.NormRead
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostValue

open Cert.KernelIdeal Idealize.ShloMosaic Idealize.ShloMosaic.ValueIdx Idealize.ShloMosaic.TcCoe
  Idealize.SL.Sem Idealize.ShloMosaic.StableHlo

set_option maxHeartbeats 4000000 in
set_option maxRecDepth 8192 in
/-- The multiplier row: at column `j 1` it is `γ · s`. -/
theorem scale_eq (V0 : Valuation τ sig (Elt Ideal)) :
    StableHlo.after (Gen.hostOps0 (F := Ideal)) V0 (Proc.devRef .tc main_v20)
      = fun j => Cert.GinSpec.fusedScale
          (Cert.GinSpec.scaled (V0 (Proc.devRef .tc main_arg0)) (V0 (Proc.devRef .tc main_arg1)))
          (fun q => V0 (Proc.devRef .tc main_arg3) (ix1 q)) (j 1) := by
  after_results_simp
  funext j
  refine (Cert.GinSpec.Read.asRow_read _ _ j).trans ?_
  rw [mulf_apply, Cert.GinSpec.Read.invStd_read]
  rfl

set_option maxHeartbeats 4000000 in
set_option maxRecDepth 8192 in
/-- The offset row: at column `j 1` it is `β − (μ · γ) · s`. -/
theorem shift_eq (V0 : Valuation τ sig (Elt Ideal)) :
    StableHlo.after (Gen.hostOps0 (F := Ideal)) V0 (Proc.devRef .tc main_v24)
      = fun j => Cert.GinSpec.fusedShift
          (Cert.GinSpec.scaled (V0 (Proc.devRef .tc main_arg0)) (V0 (Proc.devRef .tc main_arg1)))
          (fun q => V0 (Proc.devRef .tc main_arg3) (ix1 q)) (fun q => V0 (Proc.devRef .tc main_arg4) (ix1 q)) (j 1) := by
  after_results_simp
  funext j
  refine (Cert.GinSpec.Read.asRow_read _ _ j).trans ?_
  rw [subf_apply, mulf_apply, mulf_apply, Cert.GinSpec.Read.invStd_read, Cert.GinSpec.Read.mean_read]
  rfl

end Cert.KernelIdeal.HostValue

end
-- ==== Proof.KRegion0.lean ====
/-
  What the normalisation region leaves in its result array, as a function of the arrays it finds.

  The region runs one body at each of 50 grid points. Point `t` loads rows `2000 t … 2000 t + 1999` of the features `x`
  and of the one-column importance array, together with the whole multiplier row and the whole offset row, and stores
  at row `p`, column `q` of the block  (x p q · importance p) · multiplier q + offset q  — the importance laid along
  the columns, the two rows laid along the rows. Row `p` of block `t` is row `2000 t + p` of the whole array, and the
  50 row blocks tile the 100000 × 128 result, so it ends holding the fused multiply-add of the whole arrays: the
  features scaled by their rows' importance, times the column's multiplier, plus the column's offset.
-/
import proofs.«145996_j23708219474067_2_alg».proof.Proof.Gen.KernelIdeal.Frame
import proofs.«145996_j23708219474067_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)

/-- Zero offsets, however they are spelt. -/
theorem zeroOffsets0 : (![0, 0] : Fin 2 → Nat) = fun _ => 0 := funext fun a => by fin_cases a <;> rfl

/-- One column laid along every column: an `[a, 1]` array broadcast to `[a, b]` reads, at `(p, c)`, its row `p`. -/
theorem columnBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The normalisation's payload at row p and column q of a block: the entry times its row's importance, times the
    column's multiplier, plus the column's offset. -/
theorem k0_pay_apply (x0 : Vec Ideal S2000x128 .f32) (x1 : Vec Ideal S2000x1 .f32) (x2 x3 : Vec Ideal S1x128 .f32)
    (p : Fin 2000) (q : Fin 128) :
    Gen.k0_pay1 x0 x1 x2 x3 (ix2 p q)
      = (x0 (ix2 p q) * x1 (ix2 p (0 : Fin 1))) * x2 (ix2 (0 : Fin 1) q) + x3 (ix2 (0 : Fin 1) q) := by
  unfold Gen.k0_pay1
  show ((x0 (ix2 p q) * (broadcastTo S2000x128 x1 _ (ix2 p q) : EReal)) * (broadcastTo S2000x128 _ _ (ix2 p q) : EReal))
      + (broadcastTo S2000x128 _ _ (ix2 p q) : EReal) = _
  refine congrArg₂ (· + ·) (congrArg₂ (· * ·) (congrArg₂ (· * ·) rfl (columnBroadcast_apply _ _ p q))
    ((broadcastTo_1b_ab_apply _ _ p q).trans ?_)) ((broadcastTo_1b_ab_apply _ _ p q).trans ?_)
  · rw [shapeCast_self]
  · rw [shapeCast_self]

/-- A block of the normalisation is the normalisation's block: with the feature block rows `2000 s …` of `x`, the
    importance block the same rows of `imp`, and the multiplier and offset rows whole, the payload at block position
    `j` is the fused multiply-add of the whole arrays at the array position `i` that `j` stands for. -/
theorem k0_pay_eq (x : S100000x128.Idx → EReal) (imp : S100000x1.Idx → EReal) (sc sh : S1x128.Idx → EReal)
    (x0 : Vec Ideal S2000x128 .f32) (x1 : Vec Ideal S2000x1 .f32) (x2 x3 : Vec Ideal S1x128 .f32) (s : Nat)
    (h0 : ∀ (p : Fin 2000) (k : Fin 128) (r : Fin 100000), r.val = 2000 * s + p.val → x0 (ix2 p k) = x (ix2 r k))
    (h1 : ∀ (p : Fin 2000) (r : Fin 100000), r.val = 2000 * s + p.val → x1 (ix2 p (0 : Fin 1)) = imp (ix2 r (0 : Fin 1)))
    (h2 : ∀ q : Fin 128, x2 (ix2 (0 : Fin 1) q) = sc (ix2 (0 : Fin 1) q))
    (h3 : ∀ q : Fin 128, x3 (ix2 (0 : Fin 1) q) = sh (ix2 (0 : Fin 1) q))
    (j : S2000x128.Idx) (i : S100000x128.Idx) (hi0 : (i 0).val = 2000 * s + (j 0).val) (hi1 : (i 1).val = (j 1).val) :
    Gen.k0_pay1 x0 x1 x2 x3 j
      = (x i * imp (ix2 (i 0) (0 : Fin 1))) * sc (ix2 (0 : Fin 1) (i 1)) + sh (ix2 (0 : Fin 1) (i 1)) := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = 2000 * s + p.val := hi0
  obtain rfl : q' = q := Fin.ext hi1
  rw [k0_pay_apply, h0 p q' r hr, h1 p r hr, h2, h3]

variable (V : (c : Dev nD) → (b : Ref sig .tc) → Buf (Elt Ideal) ((c : Thread nD τ).loc b))

/-- Where the blocks sit, decided over the 50 grid points: at point `t` the feature block, the importance block and the
    result block are block row `t`; the multiplier and offset rows are their whole arrays. -/
theorem blockIndex0 : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature block at point `t` is rows `2000 t … 2000 t + 1999` of the feature array. -/
theorem featureRows0 (c : Dev nD) (t : Fin cfg0.N) (p : Fin 2000) (k : Fin 128) (r : Fin 100000)
    (hr : r.val = 2000 * t.val + p.val) :
    (Gen.iblk0 V c 0 t : Vec Ideal S2000x128 .f32) (ix2 p k) = (V c main_arg0 : S100000x128.Idx → EReal) (ix2 r k) := by
  obtain ⟨-, e0, e1, -⟩ := blockIndex0 t
  show (V c main_arg0 : S100000x128.Idx → EReal) (((cfg0.win 0).blk t).view.emb (ix2 p k)) = _
  refine congrArg (V c main_arg0 : S100000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The importance block at point `t` is the same rows of the importance column. -/
theorem importanceRows0 (c : Dev nD) (t : Fin cfg0.N) (p : Fin 2000) (r : Fin 100000)
    (hr : r.val = 2000 * t.val + p.val) :
    (Gen.iblk0 V c 1 t : Vec Ideal S2000x1 .f32) (ix2 p (0 : Fin 1)) = (V c main_arg1 : S100000x1.Idx → EReal) (ix2 r (0 : Fin 1)) := by
  obtain ⟨-, -, -, e0, e1, -⟩ := blockIndex0 t
  show (V c main_arg1 : S100000x1.Idx → EReal) (((cfg0.win 1).blk t).view.emb (ix2 p (0 : Fin 1))) = _
  refine congrArg (V c main_arg1 : S100000x1.Idx → EReal) (funext fun a => Fin.ext ?_)
  match a with
  | ⟨0, _⟩ => show win0_1.index t (0 : Fin 2) * 2000 + 1 * p.val = r.val; omega
  | ⟨1, _⟩ => show win0_1.index t (1 : Fin 2) * 1 + 1 * 0 = 0; omega

/-- The multiplier block is the whole multiplier row at every point. -/
theorem scaleWhole0 (c : Dev nD) (t : Fin cfg0.N) (q : Fin 128) :
    (Gen.iblk0 V c 2 t : Vec Ideal S1x128 .f32) (ix2 (0 : Fin 1) q) = (V c main_v20 : S1x128.Idx → EReal) (ix2 (0 : Fin 1) q) := by
  obtain ⟨-, -, -, -, -, e0, e1, -⟩ := blockIndex0 t
  show (V c main_v20 : S1x128.Idx → EReal) (((cfg0.win 2).blk t).view.emb (ix2 (0 : Fin 1) q)) = _
  refine congrArg (V c main_v20 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The offset block is the whole offset row at every point. -/
theorem shiftWhole0 (c : Dev nD) (t : Fin cfg0.N) (q : Fin 128) :
    (Gen.iblk0 V c 3 t : Vec Ideal S1x128 .f32) (ix2 (0 : Fin 1) q) = (V c main_v24 : S1x128.Idx → EReal) (ix2 (0 : Fin 1) q) := by
  obtain ⟨-, -, -, -, -, -, -, e0, e1, -⟩ := blockIndex0 t
  show (V c main_v24 : S1x128.Idx → EReal) (((cfg0.win 3).blk t).view.emb (ix2 (0 : Fin 1) q)) = _
  refine congrArg (V c main_v24 : S1x128.Idx → EReal) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The one store of the body, through the whole staging buffer, leaves its payload there. -/
theorem stored0_4 (x0 : Vec Ideal S2000x128 .f32) (x1 : Vec Ideal S2000x1 .f32) (x2 x3 : Vec Ideal S1x128 .f32) :
    Gen.out0_4 x0 x1 x2 x3 = Gen.k0_pay1 x0 x1 x2 x3 := by
  unfold Gen.out0_4
  rw [View.canon_unit_zero zeroOffsets0]
  simp only [View.ld_unit_zero (S := S2000x128) zeroOffsets0, View.ld_unit_zero (S := S2000x1) zeroOffsets0,
    View.ld_unit_zero (S := S1x128) zeroOffsets0]

/-- The fused multiply-add of the whole arrays as the region finds them: at row `r`, column `q` it is
    `(x r q · importance r) · multiplier q + offset q`. -/
abbrev fusedWhole0 (c : Dev nD) : S100000x128.Idx → EReal :=
  Cert.GinSpec.fused (Cert.GinSpec.scaled (V c main_arg0) (V c main_arg1))
      (fun q => V c main_v20 (ix2 (0 : Fin 1) q)) (fun q => V c main_v24 (ix2 (0 : Fin 1) q))

/-- What point `t` writes back is block `t` of the fused multiply-add of the whole arrays. -/
theorem flushed0_4 (c : Dev nD) (t : Fin cfg0.N) :
    (Gen.dat0 (F := Ideal) V c).flushed 4 t = ((cfg0.win 4).blk t).view.read (Elt Ideal) (fusedWhole0 V c) := by
  show (cfg0.win 4).cut (grid0.coords t) ((Gen.dat0 (F := Ideal) V c).after 4 t) = _
  rw [Gen.after0_4, stored0_4]
  obtain ⟨-, -, -, -, -, -, -, -, -, e0, e1⟩ := blockIndex0 t
  funext j
  show Gen.k0_pay1 (Gen.iblk0 V c 0 t) (Gen.iblk0 V c 1 t) (Gen.iblk0 V c 2 t) (Gen.iblk0 V c 3 t) j
    = fusedWhole0 V c (((cfg0.win 4).blk t).view.emb j)
  refine k0_pay_eq (V c main_arg0) (V c main_arg1) (V c main_v20) (V c main_v24)
    (Gen.iblk0 V c 0 t) (Gen.iblk0 V c 1 t) (Gen.iblk0 V c 2 t) (Gen.iblk0 V c 3 t) t.val
    (featureRows0 V c t) (importanceRows0 V c t) (scaleWhole0 V c t) (shiftWhole0 V c t) j
    (((cfg0.win 4).blk t).view.emb j) ?_ ?_
  · show win0_4.index t (0 : Fin 2) * 2000 + 1 * (j 0).val = 2000 * t.val + (j 0).val; omega
  · show win0_4.index t (1 : Fin 2) * 128 + 1 * (j 1).val = (j 1).val; omega

/-- An index of the result is in point `t`'s block iff each coordinate is in the block's range on its axis. -/
theorem inBlock0_4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v25).slice (win0_4.rect t)).set ↔ _
  rw [View.set_slice_whole, Rect.mem_set_unit]
  exact Iff.rfl

/-- Row `r` of the result is in the block of point `r / 2000`: the 50 blocks tile the array. -/
theorem tiles0_4 (i : S100000x128.Idx) :
    ∃ t : Fin cfg0.N, (cfg0.win 4).flush t = true ∧ i ∈ ((cfg0.win 4).blk t).view.set := by
  have hi0 : (i 0).val < 100000 := idx2_lt0 i
  have hi1 : (i 1).val < 128 := idx2_lt1 i
  obtain ⟨t, ht⟩ : ∃ t : Fin cfg0.N, t.val = (i 0).val / 2000 :=
    ⟨⟨(i 0).val / 2000, by show (i 0).val / 2000 < 50; omega⟩, rfl⟩
  obtain ⟨-, -, -, -, -, -, -, -, -, e0, e1⟩ := blockIndex0 t
  refine ⟨t, Gen.flush0_4 t, ?_⟩
  rw [inBlock0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE NORMALISED FEATURES after region 0: each entry times its row's importance, times its column's multiplier, plus
    its column's offset, of the arrays the region found. -/
theorem arr0_4 (c : Dev nD) :
    (Gen.dat0 (F := Ideal) V c).arrAt 4 cfg0.N
      = Cert.GinSpec.fused (Cert.GinSpec.scaled (V c main_arg0) (V c main_arg1))
      (fun q => V c main_v20 (ix2 (0 : Fin 1) q)) (fun q => V c main_v24 (ix2 (0 : Fin 1) q)) :=
  (Gen.dat0 (F := Ideal) V c).arrAt_eq_of_cover 4 (fusedWhole0 V c) (fun t _ => flushed0_4 V c t) tiles0_4

end Cert.KernelIdeal.RegionValue

end
-- ==== Proof.KLayerPayload.lean ====
/-
  One graph-convolution update inside a block of 2000 rows.

  The update's body takes a block `x0` of the features, the matching block `x1` of the neighbour sums, the whole
  128 × 128 weight matrix `x2` and the bias row `x3`, and stores at row `p`, column `q` of the block
      tanh ( Σₖ (x0 p k + x1 p k) · x2 k q  +  x3 0 q ).
  On the extended reals the narrowing of the two product operands to a shorter float format is the identity, the
  product into a zero accumulator is the plain sum over the contracted axis, and the bias row laid along every row
  reads its one row. Since row `p` of block number `s` is row `2000 s + p` of the whole array, the stored value is the
  update of the whole arrays at that row: a block of the update is the update's block.
-/
import proofs.«145996_j23708219474067_2_alg».proof.Proof.Gen.KernelIdeal.Skeleton
import proofs.«145996_j23708219474067_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx
open scoped BigOperators

/-- The dimension numbers of the block product: rows of the left operand against columns of the right. -/
abbrev blockDot : DotDims S2000x128 S128x128 S2000x128 := dot_S2000x128_S128x128_S2000x128_1_0_0_1_n_n

theorem lhs_row (i : S2000x128.Idx) (q : blockDot.contr.Idx) : (blockDot.lhsIdx i q 0).val = (i 0).val := by
  unfold DotDims.lhsIdx
  rw [dif_neg (show ¬(0 : Fin S2000x128.rank) ∈ blockDot.lhsBatch by decide), dif_pos (show (0 : Fin S2000x128.rank) ∈ blockDot.lhsNonContracting by decide)]
  rfl

theorem lhs_col (i : S2000x128.Idx) (q : blockDot.contr.Idx) : (blockDot.lhsIdx i q 1).val = (q ⟨0, by decide⟩).val :=
  blockDot.lhsIdx_val_of_single rfl i q

theorem rhs_row (i : S2000x128.Idx) (q : blockDot.contr.Idx) : (blockDot.rhsIdx i q 0).val = (q ⟨0, by decide⟩).val :=
  blockDot.rhsIdx_val_of_single rfl i q

theorem rhs_col (i : S2000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The block product into a zero accumulator, at row p and column q: the row of the left operand against the column of the right. -/
theorem blockProduct_apply (a : FVec Ideal S2000x128 .bf16) (w : FVec Ideal S128x128 .bf16) (p : Fin 2000) (q : Fin 128) :
    matmul blockDot none a w (constant S2000x128 .f32 0x00000000#32) (ix2 p q) = ∑ k : Fin 128, a (ix2 p k) * w (ix2 k q) := by
  show FloatOps.matmul blockDot none a w (constant S2000x128 .f32 0x00000000#32) (ix2 p q) = _
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- One update's payload at row p and column q of a block: tanh of the row of the summed features against the column
    of the weights, plus the bias of that column. -/
theorem k1_pay_apply (x0 x1 : Vec Ideal S2000x128 .f32) (x2 : Vec Ideal S128x128 .f32) (x3 : Vec Ideal S1x128 .f32)
    (p : Fin 2000) (q : Fin 128) :
    Gen.k1_pay1 x0 x1 x2 x3 (ix2 p q)
      = Ideal.tanh ((∑ k : Fin 128, (x0 (ix2 p k) + x1 (ix2 p k)) * x2 (ix2 k q)) + x3 (ix2 (0 : Fin 1) q)) := by
  unfold Gen.k1_pay1
  show Ideal.tanh ((matmul (F := Ideal) blockDot none _ _ (constant S2000x128 .f32 0x00000000#32) (ix2 p q) : EReal) + (broadcastTo S2000x128 _ _ (ix2 p q) : EReal)) = _
  refine congrArg Ideal.tanh ?_
  refine congrArg₂ (· + ·) ((blockProduct_apply _ _ p q).trans ?_) ((broadcastTo_1b_ab_apply _ _ p q).trans ?_)
  · refine Finset.sum_congr rfl fun k _ => ?_
    rw [shapeCast_self, shapeCast_self]
    rfl
  · rw [shapeCast_self]

/-- The four update regions run one body: their payloads are the same term. -/
theorem k2_pay_apply (x0 x1 : Vec Ideal S2000x128 .f32) (x2 : Vec Ideal S128x128 .f32) (x3 : Vec Ideal S1x128 .f32)
    (p : Fin 2000) (q : Fin 128) :
    Gen.k2_pay1 x0 x1 x2 x3 (ix2 p q)
      = Ideal.tanh ((∑ k : Fin 128, (x0 (ix2 p k) + x1 (ix2 p k)) * x2 (ix2 k q)) + x3 (ix2 (0 : Fin 1) q)) :=
  k1_pay_apply x0 x1 x2 x3 p q

theorem k3_pay_apply (x0 x1 : Vec Ideal S2000x128 .f32) (x2 : Vec Ideal S128x128 .f32) (x3 : Vec Ideal S1x128 .f32)
    (p : Fin 2000) (q : Fin 128) :
    Gen.k3_pay1 x0 x1 x2 x3 (ix2 p q)
      = Ideal.tanh ((∑ k : Fin 128, (x0 (ix2 p k) + x1 (ix2 p k)) * x2 (ix2 k q)) + x3 (ix2 (0 : Fin 1) q)) :=
  k1_pay_apply x0 x1 x2 x3 p q

theorem k4_pay_apply (x0 x1 : Vec Ideal S2000x128 .f32) (x2 : Vec Ideal S128x128 .f32) (x3 : Vec Ideal S1x128 .f32)
    (p : Fin 2000) (q : Fin 128) :
    Gen.k4_pay1 x0 x1 x2 x3 (ix2 p q)
      = Ideal.tanh ((∑ k : Fin 128, (x0 (ix2 p k) + x1 (ix2 p k)) * x2 (ix2 k q)) + x3 (ix2 (0 : Fin 1) q)) :=
  k1_pay_apply x0 x1 x2 x3 p q

/-- A block of one update is a block of the whole update. If the two feature blocks are rows 2000 s … 2000 s + 1999 of the
    feature arrays `h` and `agg`, and the weight and bias blocks are the whole of `W` and `b`, then the payload at
    block position `j` is the update of the whole arrays at the array position `i` that `j` stands for. -/
theorem k1_pay_eq_layer (h agg : Cert.GinSpec.Sx.Idx → EReal) (W : Cert.GinSpec.Sw.Idx → EReal) (b : S1x128.Idx → EReal)
    (x0 x1 : Vec Ideal S2000x128 .f32) (x2 : Vec Ideal S128x128 .f32) (x3 : Vec Ideal S1x128 .f32) (s : Nat)
    (h0 : ∀ (p : Fin 2000) (k : Fin 128) (r : Fin 100000), r.val = 2000 * s + p.val → x0 (ix2 p k) = h (ix2 r k))
    (h1 : ∀ (p : Fin 2000) (k : Fin 128) (r : Fin 100000), r.val = 2000 * s + p.val → x1 (ix2 p k) = agg (ix2 r k))
    (h2 : ∀ (k q : Fin 128), x2 (ix2 k q) = W (ix2 k q)) (h3 : ∀ q : Fin 128, x3 (ix2 (0 : Fin 1) q) = b (ix2 (0 : Fin 1) q))
    (j : S2000x128.Idx) (i : Cert.GinSpec.Sx.Idx) (hi0 : (i 0).val = 2000 * s + (j 0).val) (hi1 : (i 1).val = (j 1).val) :
    Gen.k1_pay1 x0 x1 x2 x3 j = Cert.GinSpec.layer h agg W (fun q => b (ix2 (0 : Fin 1) q)) i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = 2000 * s + p.val := hi0
  obtain rfl : q' = q := Fin.ext hi1
  rw [k1_pay_apply]
  show Ideal.tanh (_ + x3 (ix2 (0 : Fin 1) q')) = Ideal.tanh ((∑ k : Fin 128, (h (ix2 r k) + agg (ix2 r k)) * W (ix2 k q')) + b (ix2 (0 : Fin 1) q'))
  rw [h3]
  refine congrArg Ideal.tanh (congrArg (· + _) (Finset.sum_congr rfl fun k _ => ?_))
  rw [h0 p k r hr, h1 p k r hr, h2]

theorem k2_pay_eq_layer (h agg : Cert.GinSpec.Sx.Idx → EReal) (W : Cert.GinSpec.Sw.Idx → EReal) (b : S1x128.Idx → EReal)
    (x0 x1 : Vec Ideal S2000x128 .f32) (x2 : Vec Ideal S128x128 .f32) (x3 : Vec Ideal S1x128 .f32) (s : Nat)
    (h0 : ∀ (p : Fin 2000) (k : Fin 128) (r : Fin 100000), r.val = 2000 * s + p.val → x0 (ix2 p k) = h (ix2 r k))
    (h1 : ∀ (p : Fin 2000) (k : Fin 128) (r : Fin 100000), r.val = 2000 * s + p.val → x1 (ix2 p k) = agg (ix2 r k))
    (h2 : ∀ (k q : Fin 128), x2 (ix2 k q) = W (ix2 k q)) (h3 : ∀ q : Fin 128, x3 (ix2 (0 : Fin 1) q) = b (ix2 (0 : Fin 1) q))
    (j : S2000x128.Idx) (i : Cert.GinSpec.Sx.Idx) (hi0 : (i 0).val = 2000 * s + (j 0).val) (hi1 : (i 1).val = (j 1).val) :
    Gen.k2_pay1 x0 x1 x2 x3 j = Cert.GinSpec.layer h agg W (fun q => b (ix2 (0 : Fin 1) q)) i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = 2000 * s + p.val := hi0
  obtain rfl : q' = q := Fin.ext hi1
  rw [k2_pay_apply]
  show Ideal.tanh (_ + x3 (ix2 (0 : Fin 1) q')) = Ideal.tanh ((∑ k : Fin 128, (h (ix2 r k) + agg (ix2 r k)) * W (ix2 k q')) + b (ix2 (0 : Fin 1) q'))
  rw [h3]
  refine congrArg Ideal.tanh (congrArg (· + _) (Finset.sum_congr rfl fun k _ => ?_))
  rw [h0 p k r hr, h1 p k r hr, h2]

theorem k3_pay_eq_layer (h agg : Cert.GinSpec.Sx.Idx → EReal) (W : Cert.GinSpec.Sw.Idx → EReal) (b : S1x128.Idx → EReal)
    (x0 x1 : Vec Ideal S2000x128 .f32) (x2 : Vec Ideal S128x128 .f32) (x3 : Vec Ideal S1x128 .f32) (s : Nat)
    (h0 : ∀ (p : Fin 2000) (k : Fin 128) (r : Fin 100000), r.val = 2000 * s + p.val → x0 (ix2 p k) = h (ix2 r k))
    (h1 : ∀ (p : Fin 2000) (k : Fin 128) (r : Fin 100000), r.val = 2000 * s + p.val → x1 (ix2 p k) = agg (ix2 r k))
    (h2 : ∀ (k q : Fin 128), x2 (ix2 k q) = W (ix2 k q)) (h3 : ∀ q : Fin 128, x3 (ix2 (0 : Fin 1) q) = b (ix2 (0 : Fin 1) q))
    (j : S2000x128.Idx) (i : Cert.GinSpec.Sx.Idx) (hi0 : (i 0).val = 2000 * s + (j 0).val) (hi1 : (i 1).val = (j 1).val) :
    Gen.k3_pay1 x0 x1 x2 x3 j = Cert.GinSpec.layer h agg W (fun q => b (ix2 (0 : Fin 1) q)) i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = 2000 * s + p.val := hi0
  obtain rfl : q' = q := Fin.ext hi1
  rw [k3_pay_apply]
  show Ideal.tanh (_ + x3 (ix2 (0 : Fin 1) q')) = Ideal.tanh ((∑ k : Fin 128, (h (ix2 r k) + agg (ix2 r k)) * W (ix2 k q')) + b (ix2 (0 : Fin 1) q'))
  rw [h3]
  refine congrArg Ideal.tanh (congrArg (· + _) (Finset.sum_congr rfl fun k _ => ?_))
  rw [h0 p k r hr, h1 p k r hr, h2]

theorem k4_pay_eq_layer (h agg : Cert.GinSpec.Sx.Idx → EReal) (W : Cert.GinSpec.Sw.Idx → EReal) (b : S1x128.Idx → EReal)
    (x0 x1 : Vec Ideal S2000x128 .f32) (x2 : Vec Ideal S128x128 .f32) (x3 : Vec Ideal S1x128 .f32) (s : Nat)
    (h0 : ∀ (p : Fin 2000) (k : Fin 128) (r : Fin 100000), r.val = 2000 * s + p.val → x0 (ix2 p k) = h (ix2 r k))
    (h1 : ∀ (p : Fin 2000) (k : Fin 128) (r : Fin 100000), r.val = 2000 * s + p.val → x1 (ix2 p k) = agg (ix2 r k))
    (h2 : ∀ (k q : Fin 128), x2 (ix2 k q) = W (ix2 k q)) (h3 : ∀ q : Fin 128, x3 (ix2 (0 : Fin 1) q) = b (ix2 (0 : Fin 1) q))
    (j : S2000x128.Idx) (i : Cert.GinSpec.Sx.Idx) (hi0 : (i 0).val = 2000 * s + (j 0).val) (hi1 : (i 1).val = (j 1).val) :
    Gen.k4_pay1 x0 x1 x2 x3 j = Cert.GinSpec.layer h agg W (fun q => b (ix2 (0 : Fin 1) q)) i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = 2000 * s + p.val := hi0
  obtain rfl : q' = q := Fin.ext hi1
  rw [k4_pay_apply]
  show Ideal.tanh (_ + x3 (ix2 (0 : Fin 1) q')) = Ideal.tanh ((∑ k : Fin 128, (h (ix2 r k) + agg (ix2 r k)) * W (ix2 k q')) + b (ix2 (0 : Fin 1) q'))
  rw [h3]
  refine congrArg Ideal.tanh (congrArg (· + _) (Finset.sum_congr rfl fun k _ => ?_))
  rw [h0 p k r hr, h1 p k r hr, h2]

/-- Zero offsets, however they are spelt. -/
theorem zeroOffsets : (![0, 0] : Fin 2 → Nat) = fun _ => 0 := funext fun a => by fin_cases a <;> rfl

end Cert.KernelIdeal.RegionValue

end
-- ==== Proof.KRegion1.lean ====
/-
  What graph-convolution region 1 leaves in its two result arrays, as functions of the arrays it finds.

  The region runs one body at each of 50 grid points. Point `t` loads rows `2000 t … 2000 t + 1999` of the features and of
  the neighbour sums together with the whole weight matrix and bias row, computes one update of those rows, and writes
  the block twice: to the same rows of a 100000 × 128 feature array, and to the same rows of column block 0
  (columns 0 … 127) of the 100000 × 768 slab. The 50 row blocks tile the feature array, so it ends holding the update of
  the whole arrays; in the slab they fill exactly column block 0, and every other column keeps what the region found.
-/
import proofs.«145996_j23708219474067_2_alg».proof.Proof.Gen.KernelIdeal.Frame
import proofs.«145996_j23708219474067_2_alg».proof.Proof.Spec
import proofs.«145996_j23708219474067_2_alg».proof.Proof.KLayerPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the blocks sit, decided over the 50 grid points: at point `t` the two feature blocks and the two result blocks
    are block row `t`; the weights and the bias are their whole arrays; the slab's block is in column block 0. -/
theorem blockIndex1 : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The feature block at point `t` is rows `2000 t … 2000 t + 1999` of the feature array. -/
theorem featureRows1 (c : Dev nD) (t : Fin cfg1.N) (p : Fin 2000) (k : Fin 128) (r : Fin 100000)
    (hr : r.val = 2000 * t.val + p.val) :
    (Gen.iblk1 V c 0 t : Vec Ideal S2000x128 .f32) (ix2 p k) = (V c main_v25 : S100000x128.Idx → EReal) (ix2 r k) := by
  obtain ⟨-, e0, e1, -⟩ := blockIndex1 t
  show (V c main_v25 : S100000x128.Idx → EReal) (((cfg1.win 0).blk t).view.emb (ix2 p k)) = _
  refine congrArg (V c main_v25 : S100000x128.Idx → EReal) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The neighbour-sum block at point `t` is the same rows of the neighbour-sum array. -/
theorem neighbourRows1 (c : Dev nD) (t : Fin cfg1.N) (p : Fin 2000) (k : Fin 128) (r : Fin 100000)
    (hr : r.val = 2000 * t.val + p.val) :
    (Gen.iblk1 V c 1 t : Vec Ideal S2000x128 .f32) (ix2 p k) = (V c main_v38 : S100000x128.Idx → EReal) (ix2 r k) := by
  obtain ⟨-, -, -, e0, e1, -⟩ := blockIndex1 t
  show (V c main_v38 : S100000x128.Idx → EReal) (((cfg1.win 1).blk t).view.emb (ix2 p k)) = _
  refine congrArg (V c main_v38 : S100000x128.Idx → EReal) (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- The weight block is the whole weight matrix at every point. -/
theorem weightsWhole1 (c : Dev nD) (t : Fin cfg1.N) (k q : Fin 128) :
    (Gen.iblk1 V c 2 t : Vec Ideal S128x128 .f32) (ix2 k q) = (V c main_arg5 : S128x128.Idx → EReal) (ix2 k q) := by
  obtain ⟨-, -, -, -, -, e0, e1, -⟩ := blockIndex1 t
  show (V c main_arg5 : S128x128.Idx → EReal) (((cfg1.win 2).blk t).view.emb (ix2 k q)) = _
  refine congrArg (V c main_arg5 : S128x128.Idx → EReal) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias block is the whole bias row at every point. -/
theorem biasWhole1 (c : Dev nD) (t : Fin cfg1.N) (q : Fin 128) :
    (Gen.iblk1 V c 3 t : Vec Ideal S1x128 .f32) (ix2 (0 : Fin 1) q) = (V c main_v39 : S1x128.Idx → EReal) (ix2 (0 : Fin 1) q) := by
  obtain ⟨-, -, -, -, -, -, -, e0, e1, -⟩ := blockIndex1 t
  show (V c main_v39 : S1x128.Idx → EReal) (((cfg1.win 3).blk t).view.emb (ix2 (0 : Fin 1) q)) = _
  refine congrArg (V c main_v39 : S1x128.Idx → EReal) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The one store of the body, through the whole staging buffer, leaves its payload there: the features' result. -/
theorem stored1_5 (x0 x1 : Vec Ideal S2000x128 .f32) (x2 : Vec Ideal S128x128 .f32) (x3 : Vec Ideal S1x128 .f32)
    (x4 : Vec Ideal S2000x128 .f32) : Gen.out1_5 x0 x1 x2 x3 x4 = Gen.k1_pay1 x0 x1 x2 x3 := by
  unfold Gen.out1_5
  rw [View.canon_unit_zero zeroOffsets]
  simp only [View.ld_unit_zero (S := S2000x128) zeroOffsets, View.ld_unit_zero (S := S128x128) zeroOffsets,
    View.ld_unit_zero (S := S1x128) zeroOffsets]

/-- The same payload goes to the slab's staging buffer. -/
theorem stored1_6 (x0 x1 : Vec Ideal S2000x128 .f32) (x2 : Vec Ideal S128x128 .f32) (x3 : Vec Ideal S1x128 .f32)
    (x4 : Vec Ideal S2000x128 .f32) : Gen.out1_6 x0 x1 x2 x3 x4 = Gen.k1_pay1 x0 x1 x2 x3 := by
  unfold Gen.out1_6
  rw [View.canon_unit_zero zeroOffsets]
  simp only [View.ld_unit_zero (S := S2000x128) zeroOffsets, View.ld_unit_zero (S := S128x128) zeroOffsets,
    View.ld_unit_zero (S := S1x128) zeroOffsets]

/-- The update of the whole arrays as the region finds them. -/
abbrev update1 (c : Dev nD) : Cert.GinSpec.Sx.Idx → EReal :=
  Cert.GinSpec.layer (V c main_v25) (V c main_v38) (V c main_arg5) (fun q => V c main_v39 (ix2 (0 : Fin 1) q))

/-- The update laid into the slab: column `j` of the 768 reads column `j mod 128`. -/
abbrev updateInSlab1 (c : Dev nD) : S100000x768.Idx → EReal :=
  fun i => update1 V c (ix2 (i 0) ⟨(i 1).val % 128, Nat.mod_lt _ (by norm_num)⟩)

/-- What point `t` writes back to the feature result is block `t` of the update of the whole arrays. -/
theorem flushed1_5 (c : Dev nD) (t : Fin cfg1.N) :
    (Gen.dat1 (F := Ideal) V c).flushed 5 t = ((cfg1.win 5).blk t).view.read (Elt Ideal) (update1 V c) := by
  show (cfg1.win 5).cut (grid1.coords t) ((Gen.dat1 (F := Ideal) V c).after 5 t) = _
  rw [Gen.after1_5, stored1_5]
  obtain ⟨-, -, -, -, -, -, -, -, -, e0, e1, -⟩ := blockIndex1 t
  funext j
  show Gen.k1_pay1 (Gen.iblk1 V c 0 t) (Gen.iblk1 V c 1 t) (Gen.iblk1 V c 2 t) (Gen.iblk1 V c 3 t) j
    = update1 V c (((cfg1.win 5).blk t).view.emb j)
  refine k1_pay_eq_layer (V c main_v25) (V c main_v38) (V c main_arg5) (V c main_v39)
    (Gen.iblk1 V c 0 t) (Gen.iblk1 V c 1 t) (Gen.iblk1 V c 2 t) (Gen.iblk1 V c 3 t) t.val
    (featureRows1 V c t) (neighbourRows1 V c t) (weightsWhole1 V c t) (biasWhole1 V c t) j
    (((cfg1.win 5).blk t).view.emb j) ?_ ?_
  · show win1_5.index t (0 : Fin 2) * 2000 + 1 * (j 0).val = 2000 * t.val + (j 0).val; omega
  · show win1_5.index t (1 : Fin 2) * 128 + 1 * (j 1).val = (j 1).val; omega

/-- What point `t` writes back to the slab is block `t` of the update laid into the slab. -/
theorem flushed1_6 (c : Dev nD) (t : Fin cfg1.N) :
    (Gen.dat1 (F := Ideal) V c).flushed 6 t = ((cfg1.win 6).blk t).view.read (Elt Ideal) (updateInSlab1 V c) := by
  show (cfg1.win 6).cut (grid1.coords t) ((Gen.dat1 (F := Ideal) V c).after 6 t) = _
  rw [Gen.after1_6, stored1_6]
  obtain ⟨-, -, -, -, -, -, -, -, -, -, -, e0, e1⟩ := blockIndex1 t
  funext j
  have hj : (j 1).val < 128 := (j 1).isLt
  show Gen.k1_pay1 (Gen.iblk1 V c 0 t) (Gen.iblk1 V c 1 t) (Gen.iblk1 V c 2 t) (Gen.iblk1 V c 3 t) j
    = updateInSlab1 V c (((cfg1.win 6).blk t).view.emb j)
  refine k1_pay_eq_layer (V c main_v25) (V c main_v38) (V c main_arg5) (V c main_v39)
    (Gen.iblk1 V c 0 t) (Gen.iblk1 V c 1 t) (Gen.iblk1 V c 2 t) (Gen.iblk1 V c 3 t) t.val
    (featureRows1 V c t) (neighbourRows1 V c t) (weightsWhole1 V c t) (biasWhole1 V c t) j _ ?_ ?_
  · show win1_6.index t (0 : Fin 2) * 2000 + 1 * (j 0).val = 2000 * t.val + (j 0).val; omega
  · show (win1_6.index t (1 : Fin 2) * 128 + 1 * (j 1).val) % 128 = (j 1).val; omega

/-- An index of the feature result is in point `t`'s block iff each coordinate is in the block's range on its axis. -/
theorem inBlock1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v40_0).slice (win1_5.rect t)).set ↔ _
  rw [View.set_slice_whole, Rect.mem_set_unit]
  exact Iff.rfl

/-- The same for the slab. -/
theorem inBlock1_6 (t : Fin cfg1.N) (i : S100000x768.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v40_1).slice (win1_6.rect t)).set ↔ _
  rw [View.set_slice_whole, Rect.mem_set_unit]
  exact Iff.rfl

/-- Row `r` of the feature result is in the block of point `r / 2000`: the 50 blocks tile the array. -/
theorem tiles1_5 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 2000 :=
    ⟨⟨(i 0).val / 2000, by show (i 0).val / 2000 < 50; omega⟩, rfl⟩
  obtain ⟨-, -, -, -, -, -, -, -, -, e0, e1, -⟩ := blockIndex1 t
  refine ⟨t, Gen.flush1_5 t, ?_⟩
  rw [inBlock1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The slab's covered indices: those of column block 0. -/
theorem covered1_6 (i : S100000x768.Idx) :
    (∃ t : Fin cfg1.N, (cfg1.win 6).flush t = true ∧ i ∈ ((cfg1.win 6).blk t).view.set) ↔ (i 1).val / 128 = 0 := by
  have hi0 : (i 0).val < 100000 := idx2_lt0 i
  have hi1 : (i 1).val < 768 := idx2_lt1 i
  constructor
  · rintro ⟨t, -, hi⟩
    rw [inBlock1_6] at hi
    have b1 : win1_6.index t (1 : Fin 2) * 128 ≤ (i 1).val ∧ (i 1).val < win1_6.index t (1 : Fin 2) * 128 + 128 := hi 1
    obtain ⟨-, -, -, -, -, -, -, -, -, -, -, e0, e1⟩ := blockIndex1 t
    omega
  · intro h
    obtain ⟨t, ht⟩ : ∃ t : Fin cfg1.N, t.val = (i 0).val / 2000 :=
      ⟨⟨(i 0).val / 2000, by show (i 0).val / 2000 < 50; omega⟩, rfl⟩
    obtain ⟨-, -, -, -, -, -, -, -, -, -, -, e0, e1⟩ := blockIndex1 t
    refine ⟨t, Gen.flush1_6 t, ?_⟩
    rw [inBlock1_6]
    intro a
    match a with
    | ⟨0, _⟩ => show win1_6.index t (0 : Fin 2) * 2000 ≤ (i 0).val ∧ (i 0).val < win1_6.index t (0 : Fin 2) * 2000 + 2000; omega
    | ⟨1, _⟩ => show win1_6.index t (1 : Fin 2) * 128 ≤ (i 1).val ∧ (i 1).val < win1_6.index t (1 : Fin 2) * 128 + 128; omega

/-- THE FEATURE RESULT after region 1: the update of the arrays the region found. -/
theorem arr1_5 (c : Dev nD) :
    (Gen.dat1 (F := Ideal) V c).arrAt 5 cfg1.N
      = Cert.GinSpec.layer (V c main_v25) (V c main_v38) (V c main_arg5) (fun q => V c main_v39 (ix2 (0 : Fin 1) q)) :=
  (Gen.dat1 (F := Ideal) V c).arrAt_eq_of_cover 5 (update1 V c) (fun t _ => flushed1_5 V c t) tiles1_5

/-- THE SLAB after region 1: the update in column block 0, what the region found elsewhere. -/
theorem arr1_6 (c : Dev nD) (i : S100000x768.Idx) :
    (Gen.dat1 (F := Ideal) V c).arrAt 6 cfg1.N i
      = if (i 1).val / 128 = 0 then
          Cert.GinSpec.layer (V c main_v25) (V c main_v38) (V c main_arg5) (fun q => V c main_v39 (ix2 (0 : Fin 1) q))
            (ix2 (i 0) ⟨(i 1).val % 128, Nat.mod_lt _ (by norm_num)⟩)
        else V c main_v40_1 i := by
  rw [(Gen.dat1 (F := Ideal) V c).arrAt_eq_piecewise 6 (updateInSlab1 V c) (fun t _ => flushed1_6 V c t) i, Gen.A_eq1]
  exact if_congr (covered1_6 i) rfl rfl

end Cert.KernelIdeal.RegionValue

end
-- ==== Proof.KRegion2.lean ====
/-
  What graph-convolution region 2 leaves in its two result arrays, as functions of the arrays it finds.

  The region runs one body at each of 50 grid points. Point `t` loads rows `2000 t … 2000 t + 1999` of the features and of
  the neighbour sums together with the whole weight matrix and bias row, computes one update of those rows, and writes
  the block twice: to the same rows of a 100000 × 128 feature array, and to the same rows of column block 1
  (columns 128 … 255) of the 100000 × 768 slab. The 50 row blocks tile the feature array, so it ends holding the update of
  the whole arrays; in the slab they fill exactly column block 1, and every other column keeps what the region found.
-/
import proofs.«145996_j23708219474067_2_alg».proof.Proof.Gen.KernelIdeal.Frame
import proofs.«145996_j23708219474067_2_alg».proof.Proof.Spec
import proofs.«145996_j23708219474067_2_alg».proof.Proof.KLayerPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the blocks sit, decided over the 50 grid points: at point `t` the two feature blocks and the two result blocks
    are block row `t`; the weights and the bias are their whole arrays; the slab's block is in column block 1. -/
theorem blockIndex2 : ∀ t : Fin cfg2.N, t.val < 50
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_5.index t (0 : Fin 2) = t.val ∧ win2_5.index t (1 : Fin 2) = 0
    ∧ win2_6.index t (0 : Fin 2) = t.val ∧ win2_6.index t (1 : Fin 2) = 1 :=
  (by decide +kernel : ∀ t : Fin grid2.N, _)

/-- The feature block at point `t` is rows `2000 t … 2000 t + 1999` of the feature array. -/
theorem featureRows2 (c : Dev nD) (t : Fin cfg2.N) (p : Fin 2000) (k : Fin 128) (r : Fin 100000)
    (hr : r.val = 2000 * t.val + p.val) :
    (Gen.iblk2 V c 0 t : Vec Ideal S2000x128 .f32) (ix2 p k) = (V c main_v40_0 : S100000x128.Idx → EReal) (ix2 r k) := by
  obtain ⟨-, e0, e1, -⟩ := blockIndex2 t
  show (V c main_v40_0 : S100000x128.Idx → EReal) (((cfg2.win 0).blk t).view.emb (ix2 p k)) = _
  refine congrArg (V c main_v40_0 : S100000x128.Idx → EReal) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The neighbour-sum block at point `t` is the same rows of the neighbour-sum array. -/
theorem neighbourRows2 (c : Dev nD) (t : Fin cfg2.N) (p : Fin 2000) (k : Fin 128) (r : Fin 100000)
    (hr : r.val = 2000 * t.val + p.val) :
    (Gen.iblk2 V c 1 t : Vec Ideal S2000x128 .f32) (ix2 p k) = (V c main_v52 : S100000x128.Idx → EReal) (ix2 r k) := by
  obtain ⟨-, -, -, e0, e1, -⟩ := blockIndex2 t
  show (V c main_v52 : S100000x128.Idx → EReal) (((cfg2.win 1).blk t).view.emb (ix2 p k)) = _
  refine congrArg (V c main_v52 : S100000x128.Idx → EReal) (funext fun a => Fin.ext ?_)
  match a with
  | ⟨0, _⟩ => show win2_1.index t (0 : Fin 2) * 2000 + 1 * p.val = r.val; omega
  | ⟨1, _⟩ => show win2_1.index t (1 : Fin 2) * 128 + 1 * k.val = k.val; omega

/-- The weight block is the whole weight matrix at every point. -/
theorem weightsWhole2 (c : Dev nD) (t : Fin cfg2.N) (k q : Fin 128) :
    (Gen.iblk2 V c 2 t : Vec Ideal S128x128 .f32) (ix2 k q) = (V c main_arg7 : S128x128.Idx → EReal) (ix2 k q) := by
  obtain ⟨-, -, -, -, -, e0, e1, -⟩ := blockIndex2 t
  show (V c main_arg7 : S128x128.Idx → EReal) (((cfg2.win 2).blk t).view.emb (ix2 k q)) = _
  refine congrArg (V c main_arg7 : S128x128.Idx → EReal) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias block is the whole bias row at every point. -/
theorem biasWhole2 (c : Dev nD) (t : Fin cfg2.N) (q : Fin 128) :
    (Gen.iblk2 V c 3 t : Vec Ideal S1x128 .f32) (ix2 (0 : Fin 1) q) = (V c main_v53 : S1x128.Idx → EReal) (ix2 (0 : Fin 1) q) := by
  obtain ⟨-, -, -, -, -, -, -, e0, e1, -⟩ := blockIndex2 t
  show (V c main_v53 : S1x128.Idx → EReal) (((cfg2.win 3).blk t).view.emb (ix2 (0 : Fin 1) q)) = _
  refine congrArg (V c main_v53 : S1x128.Idx → EReal) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The one store of the body, through the whole staging buffer, leaves its payload there: the features' result. -/
theorem stored2_5 (x0 x1 : Vec Ideal S2000x128 .f32) (x2 : Vec Ideal S128x128 .f32) (x3 : Vec Ideal S1x128 .f32)
    (x4 : Vec Ideal S2000x128 .f32) : Gen.out2_5 x0 x1 x2 x3 x4 = Gen.k2_pay1 x0 x1 x2 x3 := by
  unfold Gen.out2_5
  rw [View.canon_unit_zero zeroOffsets]
  simp only [View.ld_unit_zero (S := S2000x128) zeroOffsets, View.ld_unit_zero (S := S128x128) zeroOffsets,
    View.ld_unit_zero (S := S1x128) zeroOffsets]

/-- The same payload goes to the slab's staging buffer. -/
theorem stored2_6 (x0 x1 : Vec Ideal S2000x128 .f32) (x2 : Vec Ideal S128x128 .f32) (x3 : Vec Ideal S1x128 .f32)
    (x4 : Vec Ideal S2000x128 .f32) : Gen.out2_6 x0 x1 x2 x3 x4 = Gen.k2_pay1 x0 x1 x2 x3 := by
  unfold Gen.out2_6
  rw [View.canon_unit_zero zeroOffsets]
  simp only [View.ld_unit_zero (S := S2000x128) zeroOffsets, View.ld_unit_zero (S := S128x128) zeroOffsets,
    View.ld_unit_zero (S := S1x128) zeroOffsets]

/-- The update of the whole arrays as the region finds them. -/
abbrev update2 (c : Dev nD) : Cert.GinSpec.Sx.Idx → EReal :=
  Cert.GinSpec.layer (V c main_v40_0) (V c main_v52) (V c main_arg7) (fun q => V c main_v53 (ix2 (0 : Fin 1) q))

/-- The update laid into the slab: column `j` of the 768 reads column `j mod 128`. -/
abbrev updateInSlab2 (c : Dev nD) : S100000x768.Idx → EReal :=
  fun i => update2 V c (ix2 (i 0) ⟨(i 1).val % 128, Nat.mod_lt _ (by norm_num)⟩)

/-- What point `t` writes back to the feature result is block `t` of the update of the whole arrays. -/
theorem flushed2_5 (c : Dev nD) (t : Fin cfg2.N) :
    (Gen.dat2 (F := Ideal) V c).flushed 5 t = ((cfg2.win 5).blk t).view.read (Elt Ideal) (update2 V c) := by
  show (cfg2.win 5).cut (grid2.coords t) ((Gen.dat2 (F := Ideal) V c).after 5 t) = _
  rw [Gen.after2_5, stored2_5]
  obtain ⟨-, -, -, -, -, -, -, -, -, e0, e1, -⟩ := blockIndex2 t
  funext j
  show Gen.k2_pay1 (Gen.iblk2 V c 0 t) (Gen.iblk2 V c 1 t) (Gen.iblk2 V c 2 t) (Gen.iblk2 V c 3 t) j
    = update2 V c (((cfg2.win 5).blk t).view.emb j)
  refine k2_pay_eq_layer (V c main_v40_0) (V c main_v52) (V c main_arg7) (V c main_v53)
    (Gen.iblk2 V c 0 t) (Gen.iblk2 V c 1 t) (Gen.iblk2 V c 2 t) (Gen.iblk2 V c 3 t) t.val
    (featureRows2 V c t) (neighbourRows2 V c t) (weightsWhole2 V c t) (biasWhole2 V c t) j
    (((cfg2.win 5).blk t).view.emb j) ?_ ?_
  · show win2_5.index t (0 : Fin 2) * 2000 + 1 * (j 0).val = 2000 * t.val + (j 0).val; omega
  · show win2_5.index t (1 : Fin 2) * 128 + 1 * (j 1).val = (j 1).val; omega

/-- What point `t` writes back to the slab is block `t` of the update laid into the slab. -/
theorem flushed2_6 (c : Dev nD) (t : Fin cfg2.N) :
    (Gen.dat2 (F := Ideal) V c).flushed 6 t = ((cfg2.win 6).blk t).view.read (Elt Ideal) (updateInSlab2 V c) := by
  show (cfg2.win 6).cut (grid2.coords t) ((Gen.dat2 (F := Ideal) V c).after 6 t) = _
  rw [Gen.after2_6, stored2_6]
  obtain ⟨-, -, -, -, -, -, -, -, -, -, -, e0, e1⟩ := blockIndex2 t
  funext j
  have hj : (j 1).val < 128 := (j 1).isLt
  show Gen.k2_pay1 (Gen.iblk2 V c 0 t) (Gen.iblk2 V c 1 t) (Gen.iblk2 V c 2 t) (Gen.iblk2 V c 3 t) j
    = updateInSlab2 V c (((cfg2.win 6).blk t).view.emb j)
  refine k2_pay_eq_layer (V c main_v40_0) (V c main_v52) (V c main_arg7) (V c main_v53)
    (Gen.iblk2 V c 0 t) (Gen.iblk2 V c 1 t) (Gen.iblk2 V c 2 t) (Gen.iblk2 V c 3 t) t.val
    (featureRows2 V c t) (neighbourRows2 V c t) (weightsWhole2 V c t) (biasWhole2 V c t) j _ ?_ ?_
  · show win2_6.index t (0 : Fin 2) * 2000 + 1 * (j 0).val = 2000 * t.val + (j 0).val; omega
  · show (win2_6.index t (1 : Fin 2) * 128 + 1 * (j 1).val) % 128 = (j 1).val; omega

/-- An index of the feature result is in point `t`'s block iff each coordinate is in the block's range on its axis. -/
theorem inBlock2_5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v54_0).slice (win2_5.rect t)).set ↔ _
  rw [View.set_slice_whole, Rect.mem_set_unit]
  exact Iff.rfl

/-- The same for the slab. -/
theorem inBlock2_6 (t : Fin cfg2.N) (i : S100000x768.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v54_1).slice (win2_6.rect t)).set ↔ _
  rw [View.set_slice_whole, Rect.mem_set_unit]
  exact Iff.rfl

/-- Row `r` of the feature result is in the block of point `r / 2000`: the 50 blocks tile the array. -/
theorem tiles2_5 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  obtain ⟨t, ht⟩ : ∃ t : Fin cfg2.N, t.val = (i 0).val / 2000 :=
    ⟨⟨(i 0).val / 2000, by show (i 0).val / 2000 < 50; omega⟩, rfl⟩
  obtain ⟨-, -, -, -, -, -, -, -, -, e0, e1, -⟩ := blockIndex2 t
  refine ⟨t, Gen.flush2_5 t, ?_⟩
  rw [inBlock2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The slab's covered indices: those of column block 1. -/
theorem covered2_6 (i : S100000x768.Idx) :
    (∃ t : Fin cfg2.N, (cfg2.win 6).flush t = true ∧ i ∈ ((cfg2.win 6).blk t).view.set) ↔ (i 1).val / 128 = 1 := by
  have hi0 : (i 0).val < 100000 := idx2_lt0 i
  have hi1 : (i 1).val < 768 := idx2_lt1 i
  constructor
  · rintro ⟨t, -, hi⟩
    rw [inBlock2_6] at hi
    have b1 : win2_6.index t (1 : Fin 2) * 128 ≤ (i 1).val ∧ (i 1).val < win2_6.index t (1 : Fin 2) * 128 + 128 := hi 1
    obtain ⟨-, -, -, -, -, -, -, -, -, -, -, e0, e1⟩ := blockIndex2 t
    omega
  · intro h
    obtain ⟨t, ht⟩ : ∃ t : Fin cfg2.N, t.val = (i 0).val / 2000 :=
      ⟨⟨(i 0).val / 2000, by show (i 0).val / 2000 < 50; omega⟩, rfl⟩
    obtain ⟨-, -, -, -, -, -, -, -, -, -, -, e0, e1⟩ := blockIndex2 t
    refine ⟨t, Gen.flush2_6 t, ?_⟩
    rw [inBlock2_6]
    intro a
    match a with
    | ⟨0, _⟩ => show win2_6.index t (0 : Fin 2) * 2000 ≤ (i 0).val ∧ (i 0).val < win2_6.index t (0 : Fin 2) * 2000 + 2000; omega
    | ⟨1, _⟩ => show win2_6.index t (1 : Fin 2) * 128 ≤ (i 1).val ∧ (i 1).val < win2_6.index t (1 : Fin 2) * 128 + 128; omega

/-- THE FEATURE RESULT after region 2: the update of the arrays the region found. -/
theorem arr2_5 (c : Dev nD) :
    (Gen.dat2 (F := Ideal) V c).arrAt 5 cfg2.N
      = Cert.GinSpec.layer (V c main_v40_0) (V c main_v52) (V c main_arg7) (fun q => V c main_v53 (ix2 (0 : Fin 1) q)) :=
  (Gen.dat2 (F := Ideal) V c).arrAt_eq_of_cover 5 (update2 V c) (fun t _ => flushed2_5 V c t) tiles2_5

/-- THE SLAB after region 2: the update in column block 1, what the region found elsewhere. -/
theorem arr2_6 (c : Dev nD) (i : S100000x768.Idx) :
    (Gen.dat2 (F := Ideal) V c).arrAt 6 cfg2.N i
      = if (i 1).val / 128 = 1 then
          Cert.GinSpec.layer (V c main_v40_0) (V c main_v52) (V c main_arg7) (fun q => V c main_v53 (ix2 (0 : Fin 1) q))
            (ix2 (i 0) ⟨(i 1).val % 128, Nat.mod_lt _ (by norm_num)⟩)
        else V c main_v54_1 i := by
  rw [(Gen.dat2 (F := Ideal) V c).arrAt_eq_piecewise 6 (updateInSlab2 V c) (fun t _ => flushed2_6 V c t) i, Gen.A_eq2]
  exact if_congr (covered2_6 i) rfl rfl

end Cert.KernelIdeal.RegionValue

end
-- ==== Proof.KRegion3.lean ====
/-
  What graph-convolution region 3 leaves in its two result arrays, as functions of the arrays it finds.

  The region runs one body at each of 50 grid points. Point `t` loads rows `2000 t … 2000 t + 1999` of the features and of
  the neighbour sums together with the whole weight matrix and bias row, computes one update of those rows, and writes
  the block twice: to the same rows of a 100000 × 128 feature array, and to the same rows of column block 2
  (columns 256 … 383) of the 100000 × 768 slab. The 50 row blocks tile the feature array, so it ends holding the update of
  the whole arrays; in the slab they fill exactly column block 2, and every other column keeps what the region found.
-/
import proofs.«145996_j23708219474067_2_alg».proof.Proof.Gen.KernelIdeal.Frame
import proofs.«145996_j23708219474067_2_alg».proof.Proof.Spec
import proofs.«145996_j23708219474067_2_alg».proof.Proof.KLayerPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the blocks sit, decided over the 50 grid points: at point `t` the two feature blocks and the two result blocks
    are block row `t`; the weights and the bias are their whole arrays; the slab's block is in column block 2. -/
theorem blockIndex3 : ∀ t : Fin cfg3.N, t.val < 50
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_5.index t (0 : Fin 2) = t.val ∧ win3_5.index t (1 : Fin 2) = 0
    ∧ win3_6.index t (0 : Fin 2) = t.val ∧ win3_6.index t (1 : Fin 2) = 2 :=
  (by decide +kernel : ∀ t : Fin grid3.N, _)

/-- The feature block at point `t` is rows `2000 t … 2000 t + 1999` of the feature array. -/
theorem featureRows3 (c : Dev nD) (t : Fin cfg3.N) (p : Fin 2000) (k : Fin 128) (r : Fin 100000)
    (hr : r.val = 2000 * t.val + p.val) :
    (Gen.iblk3 V c 0 t : Vec Ideal S2000x128 .f32) (ix2 p k) = (V c main_v54_0 : S100000x128.Idx → EReal) (ix2 r k) := by
  obtain ⟨-, e0, e1, -⟩ := blockIndex3 t
  show (V c main_v54_0 : S100000x128.Idx → EReal) (((cfg3.win 0).blk t).view.emb (ix2 p k)) = _
  refine congrArg (V c main_v54_0 : S100000x128.Idx → EReal) (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- The neighbour-sum block at point `t` is the same rows of the neighbour-sum array. -/
theorem neighbourRows3 (c : Dev nD) (t : Fin cfg3.N) (p : Fin 2000) (k : Fin 128) (r : Fin 100000)
    (hr : r.val = 2000 * t.val + p.val) :
    (Gen.iblk3 V c 1 t : Vec Ideal S2000x128 .f32) (ix2 p k) = (V c main_v66 : S100000x128.Idx → EReal) (ix2 r k) := by
  obtain ⟨-, -, -, e0, e1, -⟩ := blockIndex3 t
  show (V c main_v66 : S100000x128.Idx → EReal) (((cfg3.win 1).blk t).view.emb (ix2 p k)) = _
  refine congrArg (V c main_v66 : S100000x128.Idx → EReal) (funext fun a => Fin.ext ?_)
  match a with
  | ⟨0, _⟩ => show win3_1.index t (0 : Fin 2) * 2000 + 1 * p.val = r.val; omega
  | ⟨1, _⟩ => show win3_1.index t (1 : Fin 2) * 128 + 1 * k.val = k.val; omega

/-- The weight block is the whole weight matrix at every point. -/
theorem weightsWhole3 (c : Dev nD) (t : Fin cfg3.N) (k q : Fin 128) :
    (Gen.iblk3 V c 2 t : Vec Ideal S128x128 .f32) (ix2 k q) = (V c main_arg9 : S128x128.Idx → EReal) (ix2 k q) := by
  obtain ⟨-, -, -, -, -, e0, e1, -⟩ := blockIndex3 t
  show (V c main_arg9 : S128x128.Idx → EReal) (((cfg3.win 2).blk t).view.emb (ix2 k q)) = _
  refine congrArg (V c main_arg9 : S128x128.Idx → EReal) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The bias block is the whole bias row at every point. -/
theorem biasWhole3 (c : Dev nD) (t : Fin cfg3.N) (q : Fin 128) :
    (Gen.iblk3 V c 3 t : Vec Ideal S1x128 .f32) (ix2 (0 : Fin 1) q) = (V c main_v67 : S1x128.Idx → EReal) (ix2 (0 : Fin 1) q) := by
  obtain ⟨-, -, -, -, -, -, -, e0, e1, -⟩ := blockIndex3 t
  show (V c main_v67 : S1x128.Idx → EReal) (((cfg3.win 3).blk t).view.emb (ix2 (0 : Fin 1) q)) = _
  refine congrArg (V c main_v67 : S1x128.Idx → EReal) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The one store of the body, through the whole staging buffer, leaves its payload there: the features' result. -/
theorem stored3_5 (x0 x1 : Vec Ideal S2000x128 .f32) (x2 : Vec Ideal S128x128 .f32) (x3 : Vec Ideal S1x128 .f32)
    (x4 : Vec Ideal S2000x128 .f32) : Gen.out3_5 x0 x1 x2 x3 x4 = Gen.k3_pay1 x0 x1 x2 x3 := by
  unfold Gen.out3_5
  rw [View.canon_unit_zero zeroOffsets]
  simp only [View.ld_unit_zero (S := S2000x128) zeroOffsets, View.ld_unit_zero (S := S128x128) zeroOffsets,
    View.ld_unit_zero (S := S1x128) zeroOffsets]

/-- The same payload goes to the slab's staging buffer. -/
theorem stored3_6 (x0 x1 : Vec Ideal S2000x128 .f32) (x2 : Vec Ideal S128x128 .f32) (x3 : Vec Ideal S1x128 .f32)
    (x4 : Vec Ideal S2000x128 .f32) : Gen.out3_6 x0 x1 x2 x3 x4 = Gen.k3_pay1 x0 x1 x2 x3 := by
  unfold Gen.out3_6
  rw [View.canon_unit_zero zeroOffsets]
  simp only [View.ld_unit_zero (S := S2000x128) zeroOffsets, View.ld_unit_zero (S := S128x128) zeroOffsets,
    View.ld_unit_zero (S := S1x128) zeroOffsets]

/-- The update of the whole arrays as the region finds them. -/
abbrev update3 (c : Dev nD) : Cert.GinSpec.Sx.Idx → EReal :=
  Cert.GinSpec.layer (V c main_v54_0) (V c main_v66) (V c main_arg9) (fun q => V c main_v67 (ix2 (0 : Fin 1) q))

/-- The update laid into the slab: column `j` of the 768 reads column `j mod 128`. -/
abbrev updateInSlab3 (c : Dev nD) : S100000x768.Idx → EReal :=
  fun i => update3 V c (ix2 (i 0) ⟨(i 1).val % 128, Nat.mod_lt _ (by norm_num)⟩)

/-- What point `t` writes back to the feature result is block `t` of the update of the whole arrays. -/
theorem flushed3_5 (c : Dev nD) (t : Fin cfg3.N) :
    (Gen.dat3 (F := Ideal) V c).flushed 5 t = ((cfg3.win 5).blk t).view.read (Elt Ideal) (update3 V c) := by
  show (cfg3.win 5).cut (grid3.coords t) ((Gen.dat3 (F := Ideal) V c).after 5 t) = _
  rw [Gen.after3_5, stored3_5]
  obtain ⟨-, -, -, -, -, -, -, -, -, e0, e1, -⟩ := blockIndex3 t
  funext j
  show Gen.k3_pay1 (Gen.iblk3 V c 0 t) (Gen.iblk3 V c 1 t) (Gen.iblk3 V c 2 t) (Gen.iblk3 V c 3 t) j
    = update3 V c (((cfg3.win 5).blk t).view.emb j)
  refine k3_pay_eq_layer (V c main_v54_0) (V c main_v66) (V c main_arg9) (V c main_v67)
    (Gen.iblk3 V c 0 t) (Gen.iblk3 V c 1 t) (Gen.iblk3 V c 2 t) (Gen.iblk3 V c 3 t) t.val
    (featureRows3 V c t) (neighbourRows3 V c t) (weightsWhole3 V c t) (biasWhole3 V c t) j
    (((cfg3.win 5).blk t).view.emb j) ?_ ?_
  · show win3_5.index t (0 : Fin 2) * 2000 + 1 * (j 0).val = 2000 * t.val + (j 0).val; omega
  · show win3_5.index t (1 : Fin 2) * 128 + 1 * (j 1).val = (j 1).val; omega

/-- What point `t` writes back to the slab is block `t` of the update laid into the slab. -/
theorem flushed3_6 (c : Dev nD) (t : Fin cfg3.N) :
    (Gen.dat3 (F := Ideal) V c).flushed 6 t = ((cfg3.win 6).blk t).view.read (Elt Ideal) (updateInSlab3 V c) := by
  show (cfg3.win 6).cut (grid3.coords t) ((Gen.dat3 (F := Ideal) V c).after 6 t) = _
  rw [Gen.after3_6, stored3_6]
  obtain ⟨-, -, -, -, -, -, -, -, -, -, -, e0, e1⟩ := blockIndex3 t
  funext j
  have hj : (j 1).val < 128 := (j 1).isLt
  show Gen.k3_pay1 (Gen.iblk3 V c 0 t) (Gen.iblk3 V c 1 t) (Gen.iblk3 V c 2 t) (Gen.iblk3 V c 3 t) j
    = updateInSlab3 V c (((cfg3.win 6).blk t).view.emb j)
  refine k3_pay_eq_layer (V c main_v54_0) (V c main_v66) (V c main_arg9) (V c main_v67)
    (Gen.iblk3 V c 0 t) (Gen.iblk3 V c 1 t) (Gen.iblk3 V c 2 t) (Gen.iblk3 V c 3 t) t.val
    (featureRows3 V c t) (neighbourRows3 V c t) (weightsWhole3 V c t) (biasWhole3 V c t) j _ ?_ ?_
  · show win3_6.index t (0 : Fin 2) * 2000 + 1 * (j 0).val = 2000 * t.val + (j 0).val; omega
  · show (win3_6.index t (1 : Fin 2) * 128 + 1 * (j 1).val) % 128 = (j 1).val; omega

/-- An index of the feature result is in point `t`'s block iff each coordinate is in the block's range on its axis. -/
theorem inBlock3_5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v68_0).slice (win3_5.rect t)).set ↔ _
  rw [View.set_slice_whole, Rect.mem_set_unit]
  exact Iff.rfl

/-- The same for the slab. -/
theorem inBlock3_6 (t : Fin cfg3.N) (i : S100000x768.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v68_1).slice (win3_6.rect t)).set ↔ _
  rw [View.set_slice_whole, Rect.mem_set_unit]
  exact Iff.rfl

/-- Row `r` of the feature result is in the block of point `r / 2000`: the 50 blocks tile the array. -/
theorem tiles3_5 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  obtain ⟨t, ht⟩ : ∃ t : Fin cfg3.N, t.val = (i 0).val / 2000 :=
    ⟨⟨(i 0).val / 2000, by show (i 0).val / 2000 < 50; omega⟩, rfl⟩
  obtain ⟨-, -, -, -, -, -, -, -, -, e0, e1, -⟩ := blockIndex3 t
  refine ⟨t, Gen.flush3_5 t, ?_⟩
  rw [inBlock3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The slab's covered indices: those of column block 2. -/
theorem covered3_6 (i : S100000x768.Idx) :
    (∃ t : Fin cfg3.N, (cfg3.win 6).flush t = true ∧ i ∈ ((cfg3.win 6).blk t).view.set) ↔ (i 1).val / 128 = 2 := by
  have hi0 : (i 0).val < 100000 := idx2_lt0 i
  have hi1 : (i 1).val < 768 := idx2_lt1 i
  constructor
  · rintro ⟨t, -, hi⟩
    rw [inBlock3_6] at hi
    have b1 : win3_6.index t (1 : Fin 2) * 128 ≤ (i 1).val ∧ (i 1).val < win3_6.index t (1 : Fin 2) * 128 + 128 := hi 1
    obtain ⟨-, -, -, -, -, -, -, -, -, -, -, e0, e1⟩ := blockIndex3 t
    omega
  · intro h
    obtain ⟨t, ht⟩ : ∃ t : Fin cfg3.N, t.val = (i 0).val / 2000 :=
      ⟨⟨(i 0).val / 2000, by show (i 0).val / 2000 < 50; omega⟩, rfl⟩
    obtain ⟨-, -, -, -, -, -, -, -, -, -, -, e0, e1⟩ := blockIndex3 t
    refine ⟨t, Gen.flush3_6 t, ?_⟩
    rw [inBlock3_6]
    intro a
    match a with
    | ⟨0, _⟩ => show win3_6.index t (0 : Fin 2) * 2000 ≤ (i 0).val ∧ (i 0).val < win3_6.index t (0 : Fin 2) * 2000 + 2000; omega
    | ⟨1, _⟩ => show win3_6.index t (1 : Fin 2) * 128 ≤ (i 1).val ∧ (i 1).val < win3_6.index t (1 : Fin 2) * 128 + 128; omega

/-- THE FEATURE RESULT after region 3: the update of the arrays the region found. -/
theorem arr3_5 (c : Dev nD) :
    (Gen.dat3 (F := Ideal) V c).arrAt 5 cfg3.N
      = Cert.GinSpec.layer (V c main_v54_0) (V c main_v66) (V c main_arg9) (fun q => V c main_v67 (ix2 (0 : Fin 1) q)) :=
  (Gen.dat3 (F := Ideal) V c).arrAt_eq_of_cover 5 (update3 V c) (fun t _ => flushed3_5 V c t) tiles3_5

/-- THE SLAB after region 3: the update in column block 2, what the region found elsewhere. -/
theorem arr3_6 (c : Dev nD) (i : S100000x768.Idx) :
    (Gen.dat3 (F := Ideal) V c).arrAt 6 cfg3.N i
      = if (i 1).val / 128 = 2 then
          Cert.GinSpec.layer (V c main_v54_0) (V c main_v66) (V c main_arg9) (fun q => V c main_v67 (ix2 (0 : Fin 1) q))
            (ix2 (i 0) ⟨(i 1).val % 128, Nat.mod_lt _ (by norm_num)⟩)
        else V c main_v68_1 i := by
  rw [(Gen.dat3 (F := Ideal) V c).arrAt_eq_piecewise 6 (updateInSlab3 V c) (fun t _ => flushed3_6 V c t) i, Gen.A_eq3]
  exact if_congr (covered3_6 i) rfl rfl

end Cert.KernelIdeal.RegionValue

end
-- ==== Proof.KRegion4.lean ====
/-
  What graph-convolution region 4 leaves in its two result arrays, as functions of the arrays it finds.

  The region runs one body at each of 50 grid points. Point `t` loads rows `2000 t … 2000 t + 1999` of the features and of
  the neighbour sums together with the whole weight matrix and bias row, computes one update of those rows, and writes
  the block twice: to the same rows of a 100000 × 128 feature array, and to the same rows of column block 3
  (columns 384 … 511) of the 100000 × 768 slab. The 50 row blocks tile the feature array, so it ends holding the update of
  the whole arrays; in the slab they fill exactly column block 3, and every other column keeps what the region found.
-/
import proofs.«145996_j23708219474067_2_alg».proof.Proof.Gen.KernelIdeal.Frame
import proofs.«145996_j23708219474067_2_alg».proof.Proof.Spec
import proofs.«145996_j23708219474067_2_alg».proof.Proof.KLayerPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the blocks sit, decided over the 50 grid points: at point `t` the two feature blocks and the two result blocks
    are block row `t`; the weights and the bias are their whole arrays; the slab's block is in column block 3. -/
theorem blockIndex4 : ∀ t : Fin cfg4.N, t.val < 50
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_5.index t (0 : Fin 2) = t.val ∧ win4_5.index t (1 : Fin 2) = 0
    ∧ win4_6.index t (0 : Fin 2) = t.val ∧ win4_6.index t (1 : Fin 2) = 3 :=
  (by decide +kernel : ∀ t : Fin grid4.N, _)

/-- The feature block at point `t` is rows `2000 t … 2000 t + 1999` of the feature array. -/
theorem featureRows4 (c : Dev nD) (t : Fin cfg4.N) (p : Fin 2000) (k : Fin 128) (r : Fin 100000)
    (hr : r.val = 2000 * t.val + p.val) :
    (Gen.iblk4 V c 0 t : Vec Ideal S2000x128 .f32) (ix2 p k) = (V c main_v68_0 : S100000x128.Idx → EReal) (ix2 r k) := by
  obtain ⟨-, e0, e1, -⟩ := blockIndex4 t
  show (V c main_v68_0 : S100000x128.Idx → EReal) (((cfg4.win 0).blk t).view.emb (ix2 p k)) = _
  refine congrArg (V c main_v68_0 : S100000x128.Idx → EReal) (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- The neighbour-sum block at point `t` is the same rows of the neighbour-sum array. -/
theorem neighbourRows4 (c : Dev nD) (t : Fin cfg4.N) (p : Fin 2000) (k : Fin 128) (r : Fin 100000)
    (hr : r.val = 2000 * t.val + p.val) :
    (Gen.iblk4 V c 1 t : Vec Ideal S2000x128 .f32) (ix2 p k) = (V c main_v80 : S100000x128.Idx → EReal) (ix2 r k) := by
  obtain ⟨-, -, -, e0, e1, -⟩ := blockIndex4 t
  show (V c main_v80 : S100000x128.Idx → EReal) (((cfg4.win 1).blk t).view.emb (ix2 p k)) = _
  refine congrArg (V c main_v80 : S100000x128.Idx → EReal) (funext fun a => Fin.ext ?_)
  match a with
  | ⟨0, _⟩ => show win4_1.index t (0 : Fin 2) * 2000 + 1 * p.val = r.val; omega
  | ⟨1, _⟩ => show win4_1.index t (1 : Fin 2) * 128 + 1 * k.val = k.val; omega

/-- The weight block is the whole weight matrix at every point. -/
theorem weightsWhole4 (c : Dev nD) (t : Fin cfg4.N) (k q : Fin 128) :
    (Gen.iblk4 V c 2 t : Vec Ideal S128x128 .f32) (ix2 k q) = (V c main_arg11 : S128x128.Idx → EReal) (ix2 k q) := by
  obtain ⟨-, -, -, -, -, e0, e1, -⟩ := blockIndex4 t
  show (V c main_arg11 : S128x128.Idx → EReal) (((cfg4.win 2).blk t).view.emb (ix2 k q)) = _
  refine congrArg (V c main_arg11 : S128x128.Idx → EReal) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- The bias block is the whole bias row at every point. -/
theorem biasWhole4 (c : Dev nD) (t : Fin cfg4.N) (q : Fin 128) :
    (Gen.iblk4 V c 3 t : Vec Ideal S1x128 .f32) (ix2 (0 : Fin 1) q) = (V c main_v81 : S1x128.Idx → EReal) (ix2 (0 : Fin 1) q) := by
  obtain ⟨-, -, -, -, -, -, -, e0, e1, -⟩ := blockIndex4 t
  show (V c main_v81 : S1x128.Idx → EReal) (((cfg4.win 3).blk t).view.emb (ix2 (0 : Fin 1) q)) = _
  refine congrArg (V c main_v81 : S1x128.Idx → EReal) (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- The one store of the body, through the whole staging buffer, leaves its payload there: the features' result. -/
theorem stored4_5 (x0 x1 : Vec Ideal S2000x128 .f32) (x2 : Vec Ideal S128x128 .f32) (x3 : Vec Ideal S1x128 .f32)
    (x4 : Vec Ideal S2000x128 .f32) : Gen.out4_5 x0 x1 x2 x3 x4 = Gen.k4_pay1 x0 x1 x2 x3 := by
  unfold Gen.out4_5
  rw [View.canon_unit_zero zeroOffsets]
  simp only [View.ld_unit_zero (S := S2000x128) zeroOffsets, View.ld_unit_zero (S := S128x128) zeroOffsets,
    View.ld_unit_zero (S := S1x128) zeroOffsets]

/-- The same payload goes to the slab's staging buffer. -/
theorem stored4_6 (x0 x1 : Vec Ideal S2000x128 .f32) (x2 : Vec Ideal S128x128 .f32) (x3 : Vec Ideal S1x128 .f32)
    (x4 : Vec Ideal S2000x128 .f32) : Gen.out4_6 x0 x1 x2 x3 x4 = Gen.k4_pay1 x0 x1 x2 x3 := by
  unfold Gen.out4_6
  rw [View.canon_unit_zero zeroOffsets]
  simp only [View.ld_unit_zero (S := S2000x128) zeroOffsets, View.ld_unit_zero (S := S128x128) zeroOffsets,
    View.ld_unit_zero (S := S1x128) zeroOffsets]

/-- The update of the whole arrays as the region finds them. -/
abbrev update4 (c : Dev nD) : Cert.GinSpec.Sx.Idx → EReal :=
  Cert.GinSpec.layer (V c main_v68_0) (V c main_v80) (V c main_arg11) (fun q => V c main_v81 (ix2 (0 : Fin 1) q))

/-- The update laid into the slab: column `j` of the 768 reads column `j mod 128`. -/
abbrev updateInSlab4 (c : Dev nD) : S100000x768.Idx → EReal :=
  fun i => update4 V c (ix2 (i 0) ⟨(i 1).val % 128, Nat.mod_lt _ (by norm_num)⟩)

/-- What point `t` writes back to the feature result is block `t` of the update of the whole arrays. -/
theorem flushed4_5 (c : Dev nD) (t : Fin cfg4.N) :
    (Gen.dat4 (F := Ideal) V c).flushed 5 t = ((cfg4.win 5).blk t).view.read (Elt Ideal) (update4 V c) := by
  show (cfg4.win 5).cut (grid4.coords t) ((Gen.dat4 (F := Ideal) V c).after 5 t) = _
  rw [Gen.after4_5, stored4_5]
  obtain ⟨-, -, -, -, -, -, -, -, -, e0, e1, -⟩ := blockIndex4 t
  funext j
  show Gen.k4_pay1 (Gen.iblk4 V c 0 t) (Gen.iblk4 V c 1 t) (Gen.iblk4 V c 2 t) (Gen.iblk4 V c 3 t) j
    = update4 V c (((cfg4.win 5).blk t).view.emb j)
  refine k4_pay_eq_layer (V c main_v68_0) (V c main_v80) (V c main_arg11) (V c main_v81)
    (Gen.iblk4 V c 0 t) (Gen.iblk4 V c 1 t) (Gen.iblk4 V c 2 t) (Gen.iblk4 V c 3 t) t.val
    (featureRows4 V c t) (neighbourRows4 V c t) (weightsWhole4 V c t) (biasWhole4 V c t) j
    (((cfg4.win 5).blk t).view.emb j) ?_ ?_
  · show win4_5.index t (0 : Fin 2) * 2000 + 1 * (j 0).val = 2000 * t.val + (j 0).val; omega
  · show win4_5.index t (1 : Fin 2) * 128 + 1 * (j 1).val = (j 1).val; omega

/-- What point `t` writes back to the slab is block `t` of the update laid into the slab. -/
theorem flushed4_6 (c : Dev nD) (t : Fin cfg4.N) :
    (Gen.dat4 (F := Ideal) V c).flushed 6 t = ((cfg4.win 6).blk t).view.read (Elt Ideal) (updateInSlab4 V c) := by
  show (cfg4.win 6).cut (grid4.coords t) ((Gen.dat4 (F := Ideal) V c).after 6 t) = _
  rw [Gen.after4_6, stored4_6]
  obtain ⟨-, -, -, -, -, -, -, -, -, -, -, e0, e1⟩ := blockIndex4 t
  funext j
  have hj : (j 1).val < 128 := (j 1).isLt
  show Gen.k4_pay1 (Gen.iblk4 V c 0 t) (Gen.iblk4 V c 1 t) (Gen.iblk4 V c 2 t) (Gen.iblk4 V c 3 t) j
    = updateInSlab4 V c (((cfg4.win 6).blk t).view.emb j)
  refine k4_pay_eq_layer (V c main_v68_0) (V c main_v80) (V c main_arg11) (V c main_v81)
    (Gen.iblk4 V c 0 t) (Gen.iblk4 V c 1 t) (Gen.iblk4 V c 2 t) (Gen.iblk4 V c 3 t) t.val
    (featureRows4 V c t) (neighbourRows4 V c t) (weightsWhole4 V c t) (biasWhole4 V c t) j _ ?_ ?_
  · show win4_6.index t (0 : Fin 2) * 2000 + 1 * (j 0).val = 2000 * t.val + (j 0).val; omega
  · show (win4_6.index t (1 : Fin 2) * 128 + 1 * (j 1).val) % 128 = (j 1).val; omega

/-- An index of the feature result is in point `t`'s block iff each coordinate is in the block's range on its axis. -/
theorem inBlock4_5 (t : Fin cfg4.N) (i : S100000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v82_0).slice (win4_5.rect t)).set ↔ _
  rw [View.set_slice_whole, Rect.mem_set_unit]
  exact Iff.rfl

/-- The same for the slab. -/
theorem inBlock4_6 (t : Fin cfg4.N) (i : S100000x768.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v82_1).slice (win4_6.rect t)).set ↔ _
  rw [View.set_slice_whole, Rect.mem_set_unit]
  exact Iff.rfl

/-- Row `r` of the feature result is in the block of point `r / 2000`: the 50 blocks tile the array. -/
theorem tiles4_5 (i : S100000x128.Idx) :
    ∃ t : Fin cfg4.N, (cfg4.win 5).flush t = true ∧ i ∈ ((cfg4.win 5).blk t).view.set := by
  have hi0 : (i 0).val < 100000 := idx2_lt0 i
  have hi1 : (i 1).val < 128 := idx2_lt1 i
  obtain ⟨t, ht⟩ : ∃ t : Fin cfg4.N, t.val = (i 0).val / 2000 :=
    ⟨⟨(i 0).val / 2000, by show (i 0).val / 2000 < 50; omega⟩, rfl⟩
  obtain ⟨-, -, -, -, -, -, -, -, -, e0, e1, -⟩ := blockIndex4 t
  refine ⟨t, Gen.flush4_5 t, ?_⟩
  rw [inBlock4_5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- The slab's covered indices: those of column block 3. -/
theorem covered4_6 (i : S100000x768.Idx) :
    (∃ t : Fin cfg4.N, (cfg4.win 6).flush t = true ∧ i ∈ ((cfg4.win 6).blk t).view.set) ↔ (i 1).val / 128 = 3 := by
  have hi0 : (i 0).val < 100000 := idx2_lt0 i
  have hi1 : (i 1).val < 768 := idx2_lt1 i
  constructor
  · rintro ⟨t, -, hi⟩
    rw [inBlock4_6] at hi
    have b1 : win4_6.index t (1 : Fin 2) * 128 ≤ (i 1).val ∧ (i 1).val < win4_6.index t (1 : Fin 2) * 128 + 128 := hi 1
    obtain ⟨-, -, -, -, -, -, -, -, -, -, -, e0, e1⟩ := blockIndex4 t
    omega
  · intro h
    obtain ⟨t, ht⟩ : ∃ t : Fin cfg4.N, t.val = (i 0).val / 2000 :=
      ⟨⟨(i 0).val / 2000, by show (i 0).val / 2000 < 50; omega⟩, rfl⟩
    obtain ⟨-, -, -, -, -, -, -, -, -, -, -, e0, e1⟩ := blockIndex4 t
    refine ⟨t, Gen.flush4_6 t, ?_⟩
    rw [inBlock4_6]
    intro a
    match a with
    | ⟨0, _⟩ => show win4_6.index t (0 : Fin 2) * 2000 ≤ (i 0).val ∧ (i 0).val < win4_6.index t (0 : Fin 2) * 2000 + 2000; omega
    | ⟨1, _⟩ => show win4_6.index t (1 : Fin 2) * 128 ≤ (i 1).val ∧ (i 1).val < win4_6.index t (1 : Fin 2) * 128 + 128; omega

/-- THE FEATURE RESULT after region 4: the update of the arrays the region found. -/
theorem arr4_5 (c : Dev nD) :
    (Gen.dat4 (F := Ideal) V c).arrAt 5 cfg4.N
      = Cert.GinSpec.layer (V c main_v68_0) (V c main_v80) (V c main_arg11) (fun q => V c main_v81 (ix2 (0 : Fin 1) q)) :=
  (Gen.dat4 (F := Ideal) V c).arrAt_eq_of_cover 5 (update4 V c) (fun t _ => flushed4_5 V c t) tiles4_5

/-- THE SLAB after region 4: the update in column block 3, what the region found elsewhere. -/
theorem arr4_6 (c : Dev nD) (i : S100000x768.Idx) :
    (Gen.dat4 (F := Ideal) V c).arrAt 6 cfg4.N i
      = if (i 1).val / 128 = 3 then
          Cert.GinSpec.layer (V c main_v68_0) (V c main_v80) (V c main_arg11) (fun q => V c main_v81 (ix2 (0 : Fin 1) q))
            (ix2 (i 0) ⟨(i 1).val % 128, Nat.mod_lt _ (by norm_num)⟩)
        else V c main_v82_1 i := by
  rw [(Gen.dat4 (F := Ideal) V c).arrAt_eq_piecewise 6 (updateInSlab4 V c) (fun t _ => flushed4_6 V c t) i, Gen.A_eq4]
  exact if_congr (covered4_6 i) rfl rfl

end Cert.KernelIdeal.RegionValue

end
-- ==== Proof.KRegion5Payload.lean ====
/-
  What the body of the last dense region computes from the blocks it loads, element by element, on the
  extended reals.

  The body loads a 2000 × 128 block of node features `h`, the matching block of neighbour sums `agg`, a
  128 × 128 weight matrix `W`, a bias row `b` (as 1 × 128) and a second 128 × 128 matrix `Wp`. Its first
  stored value is the update  tanh((h + agg) · W + b);  its second is  tanh(update · Wp).  A change of float
  format is the identity on the extended reals, the matrix product into a zero accumulator is the textbook
  sum over the 128 contracted positions, and the bias row is copied down the 2000 rows.
-/
import proofs.«145996_j23708219474067_2_alg».proof.Proof.Gen.KernelIdeal.Frame
import proofs.«145996_j23708219474067_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region5

open Cert.KernelIdeal Cert.KernelIdeal.Gen Idealize.ShloMosaic Idealize.ShloMosaic.ValueIdx
open scoped BigOperators

/-- The left operand's row is the output's row, whatever the contracted position. -/
theorem dot_lhs_row (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl

/-- The right operand's column is the output's column, whatever the contracted position. -/
theorem dot_rhs_col (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- A 2000 × 128 block times a 128 × 128 matrix, accumulated from zero, at row `p` and column `q`: the sum over
    the contracted position `k` of (row `p`, position `k`) times (position `k`, column `q`). -/
theorem blockDot_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hl : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact dot_lhs_row (ix2 p q) _
    | ⟨1, _⟩ =>
      exact (DotDims.lhsIdx_val_of_single (d := dot_S2000x128_S128x128_S2000x128_1_0_0_1_n_n) (cl := 1) rfl (ix2 p q) _).trans
        (contrEquiv1_symm_val dot_S2000x128_S128x128_S2000x128_1_0_0_1_n_n 128 rfl rfl k)
  have hr : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ =>
      exact (DotDims.rhsIdx_val_of_single (d := dot_S2000x128_S128x128_S2000x128_1_0_0_1_n_n) (cr := 0) rfl (ix2 p q) _).trans
        (contrEquiv1_symm_val dot_S2000x128_S128x128_S2000x128_1_0_0_1_n_n 128 rfl rfl k)
    | ⟨1, _⟩ => exact dot_rhs_col (ix2 p q) _
  rw [hl, hr]

/-- The first stored value at row `p`, column `q` of the block: tanh of row `p` of `h + agg` against column `q`
    of `W`, plus entry `q` of the bias row. -/
theorem update_apply (v0 v2 : Vec Ideal S2000x128 .f32) (v6 : Vec Ideal S128x128 .f32) (v9 : Vec Ideal S1x128 .f32)
    (p : Fin 2000) (q : Fin 128) :
    k5_pay1 v0 v2 v6 v9 (ix2 p q)
      = Ideal.tanh ((∑ k : Fin 128, (v0 (ix2 p k) + v2 (ix2 p k)) * v6 (ix2 k q)) + v9 (ix2 (0 : Fin 1) q)) := by
  unfold k5_pay1
  show Ideal.tanh (matmul (F := Ideal) dot_S2000x128_S128x128_S2000x128_1_0_0_1_n_n none _ _ _ (ix2 p q)
    + broadcastTo S2000x128 (shapeCast S1x128 v9 shapeCasts_S1x128_S1x128) broadcasts_S1x128_S2000x128 (ix2 p q)) = _
  rw [blockDot_apply, broadcastTo_1b_ab_apply, shapeCast_self]
  simp only [truncf_apply, addf_apply, shapeCast_self]

/-- The second stored value at row `p`, column `q`: tanh of row `p` of the first stored value against column `q`
    of `Wp`. -/
theorem projection_apply (v0 v2 : Vec Ideal S2000x128 .f32) (v6 : Vec Ideal S128x128 .f32) (v9 : Vec Ideal S1x128 .f32)
    (v15 : Vec Ideal S128x128 .f32) (p : Fin 2000) (q : Fin 128) :
    k5_pay2 v0 v2 v6 v9 v15 (ix2 p q)
      = Ideal.tanh (∑ k : Fin 128, k5_pay1 v0 v2 v6 v9 (ix2 p k) * v15 (ix2 k q)) := by
  unfold k5_pay2
  show Ideal.tanh (matmul (F := Ideal) dot_S2000x128_S128x128_S2000x128_1_0_0_1_n_n none _ _ _ (ix2 p q)) = _
  rw [blockDot_apply]
  simp only [truncf_apply]

end Cert.KernelIdeal.Region5

end
-- ==== Proof.KRegion5.lean ====
/-
  What the last dense region leaves in the result slab.

  The region's output window walks the 100000 × 768 slab in blocks of 2000 rows by 256 columns, always in the
  third column block: grid point `t` writes rows 2000·t … 2000·t + 1999, columns 512 … 767. The left half of a
  block (its columns 0 … 127, the slab's 512 … 639) receives the fifth update of the block's rows; the right half
  (its columns 128 … 255, the slab's 640 … 767) the closing projection of that update. An update at a row reads
  only that row of the features and of the neighbour sums, and the projection at a row only that row of the
  update, so every block is the matching part of ONE function of the slab's index. The fifty blocks cover
  exactly the columns from 512 on; the columns below 512 keep what the region found there.
-/
import proofs.«145996_j23708219474067_2_alg».proof.Proof.KRegion5Payload

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

theorem hz : (![0, 0] : Fin 2 → Nat) = fun _ => 0 := funext fun a => by fin_cases a <;> rfl

/-! ## The two functions: of the slab's index, and of a block's coordinates -/

/-- Columns 512 … 767 of the slab as one function of its index: in column block 4 the update of `h` with
    neighbour sums `agg`, weights `W` and bias `b`; in column block 5 the projection of that update by `Wp`. -/
def tail (h agg : Cert.GinSpec.Sx.Idx → EReal) (W : Cert.GinSpec.Sw.Idx → EReal) (b : Fin 128 → EReal)
    (Wp : Cert.GinSpec.Sw.Idx → EReal) : Cert.GinSpec.Sout.Idx → EReal := fun i =>
  if (i 1).val / 128 = 4 then
    Cert.GinSpec.layer h agg W b (ix2 (i 0) ⟨(i 1).val % 128, Nat.mod_lt _ (by norm_num)⟩)
  else
    Cert.GinSpec.proj (Cert.GinSpec.layer h agg W b) Wp (ix2 (i 0) ⟨(i 1).val % 128, Nat.mod_lt _ (by norm_num)⟩)

/-- What the body leaves at row `p`, column `q` of its 2000 × 256 output block: the first stored value in the
    left 128 columns, the second in the right 128. -/
def blockAt (x0 x1 : Vec Ideal S2000x128 .f32) (x2 : Vec Ideal S128x128 .f32) (x3 : Vec Ideal S1x128 .f32)
    (x4 : Vec Ideal S128x128 .f32) (p : Fin 2000) (q : Fin 256) : EReal :=
  if h : q.val < 128 then k5_pay1 x0 x1 x2 x3 (ix2 p ⟨q.val, h⟩)
  else k5_pay2 x0 x1 x2 x3 x4 (ix2 p ⟨q.val - 128, by have := q.isLt; omega⟩)

/-! ## The output block after the body -/

/-- The two stores' rectangles split the block's columns at 128, and each store's value is its half of ONE
    function of the block's coordinates: under the later store (columns 128 … 255) the second value at the column
    less 128, under the earlier one (columns 0 … 127) the first value. So the block after the body is that
    function wherever a store reaches, which is everywhere. -/
theorem out_apply (x0 x1 : Vec Ideal S2000x128 .f32) (x2 : Vec Ideal S128x128 .f32) (x3 : Vec Ideal S1x128 .f32)
    (x4 : Vec Ideal S128x128 .f32) (x5 : Vec Ideal S2000x256 .f32) (p : Fin 2000) (q : Fin 256) :
    out5_6 x0 x1 x2 x3 x4 x5 (ix2 p q) = blockAt x0 x1 x2 x3 x4 p q := by
  unfold out5_6
  simp only [View.ld_unit_zero (S := S2000x128) hz, View.ld_unit_zero (S := S128x128) hz,
    View.ld_unit_zero (S := S1x128) hz]
  refine (View.canon_apply_of_pieces
    (fun y : S2000x256.Idx => blockAt x0 x1 x2 x3 x4 ⟨(y 0).val, idx2_lt0 y⟩ ⟨(y 1).val, idx2_lt1 y⟩) _ ?_ (ix2 p q)
    (cover5_6 (F := Ideal) _ _ (ix2 p q))).trans rfl
  intro pc hpc x
  rcases List.mem_cons.mp hpc with rfl | hpc
  · show k5_pay2 x0 x1 x2 x3 x4 x = blockAt x0 x1 x2 x3 x4 ⟨0 + 1 * (x 0).val, _⟩ ⟨128 + 1 * (x 1).val, _⟩
    unfold blockAt
    split
    · rename_i h; exfalso
      have h' : 128 + 1 * (x 1).val < 128 := h
      omega
    · refine congrArg (k5_pay2 x0 x1 x2 x3 x4) (funext fun a => Fin.ext ?_)
      match a with
      | ⟨0, _⟩ => show (x 0).val = 0 + 1 * (x 0).val; omega
      | ⟨1, _⟩ => show (x 1).val = 128 + 1 * (x 1).val - 128; omega
  · obtain rfl := List.mem_singleton.mp hpc
    show k5_pay1 x0 x1 x2 x3 x = blockAt x0 x1 x2 x3 x4 ⟨0 + 1 * (x 0).val, _⟩ ⟨0 + 1 * (x 1).val, _⟩
    unfold blockAt
    split
    · refine congrArg (k5_pay1 x0 x1 x2 x3) (funext fun a => Fin.ext ?_)
      match a with
      | ⟨0, _⟩ => show (x 0).val = 0 + 1 * (x 0).val; omega
      | ⟨1, _⟩ => show (x 1).val = 0 + 1 * (x 1).val; omega
    · rename_i h; exfalso
      have hx : (x 1).val < 128 := (x 1).isLt
      have h' : ¬ (0 + 1 * (x 1).val < 128) := h
      omega

/-! ## A block is its part of the slab's function -/

/-- If the loaded blocks are rows 2000·t … of `h` and `agg`, and the matrices and the bias row are `W`, `b`,
    `Wp`, then row `p`, column `q` of the output block is the slab's function at row 2000·t + p, column 512 + q. -/
theorem blockAt_eq_tail (x0 x1 : Vec Ideal S2000x128 .f32) (x2 : Vec Ideal S128x128 .f32) (x3 : Vec Ideal S1x128 .f32)
    (x4 : Vec Ideal S128x128 .f32)
    (h agg : Cert.GinSpec.Sx.Idx → EReal) (W : Cert.GinSpec.Sw.Idx → EReal) (b : Fin 128 → EReal)
    (Wp : Cert.GinSpec.Sw.Idx → EReal) (t : ℕ)
    (e0 : ∀ (p : Fin 2000) (k : Fin 128) (r : Fin 100000), r.val = 2000 * t + p.val → x0 (ix2 p k) = h (ix2 r k))
    (e1 : ∀ (p : Fin 2000) (k : Fin 128) (r : Fin 100000), r.val = 2000 * t + p.val → x1 (ix2 p k) = agg (ix2 r k))
    (e2 : ∀ (k q : Fin 128), x2 (ix2 k q) = W (ix2 k q))
    (e3 : ∀ q : Fin 128, x3 (ix2 (0 : Fin 1) q) = b q)
    (e4 : ∀ (k q : Fin 128), x4 (ix2 k q) = Wp (ix2 k q))
    (p : Fin 2000) (q : Fin 256) (r : Fin 100000) (s : Fin 768)
    (hr : r.val = 2000 * t + p.val) (hs : s.val = 512 + q.val) :
    blockAt x0 x1 x2 x3 x4 p q = tail h agg W b Wp (ix2 r s) := by
  have upd : ∀ q' : Fin 128, k5_pay1 x0 x1 x2 x3 (ix2 p q') = Cert.GinSpec.layer h agg W b (ix2 r q') := by
    intro q'
    rw [update_apply]
    show _ = Ideal.tanh ((∑ k : Fin 128, (h (ix2 r k) + agg (ix2 r k)) * W (ix2 k q')) + b q')
    refine congrArg Ideal.tanh (congrArg₂ (· + ·) (Finset.sum_congr rfl fun k _ => ?_) (e3 q'))
    rw [e0 p k r hr, e1 p k r hr, e2 k q']
  unfold blockAt
  show _ = (if s.val / 128 = 4 then
      Cert.GinSpec.layer h agg W b (ix2 r ⟨s.val % 128, Nat.mod_lt _ (by norm_num)⟩)
    else Cert.GinSpec.proj (Cert.GinSpec.layer h agg W b) Wp (ix2 r ⟨s.val % 128, Nat.mod_lt _ (by norm_num)⟩))
  by_cases hq : q.val < 128
  · rw [dif_pos hq, if_pos (by omega), upd]
    exact congrArg (Cert.GinSpec.layer h agg W b) (congrArg (ix2 r) (Fin.ext (by show q.val = s.val % 128; omega)))
  · rw [dif_neg hq, if_neg (by omega), projection_apply]
    show _ = Ideal.tanh (∑ k : Fin 128, Cert.GinSpec.layer h agg W b (ix2 r k)
      * Wp (ix2 k ⟨s.val % 128, Nat.mod_lt _ (by norm_num)⟩))
    refine congrArg Ideal.tanh (Finset.sum_congr rfl fun k _ => ?_)
    rw [upd k, e4]
    exact congrArg (fun c : Fin 128 => Cert.GinSpec.layer h agg W b (ix2 r k) * Wp (ix2 k c))
      (Fin.ext (by show q.val - 128 = s.val % 128; omega))

/-! ## The windows' blocks at a grid point -/

variable (V : (c : Dev nD) → (b : Ref sig .tc) → Buf (Elt Ideal) ((c : Thread nD τ).loc b))

/-- The printed index maps, decided over the fifty grid points: the two row-blocked inputs and the output sit at
    block row `t`; the output in block column 2; the matrices and the bias row at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_6.index t (0 : Fin 2) = t.val ∧ win5_6.index t (1 : Fin 2) = 2 :=
  (by decide +kernel : ∀ t : Fin grid5.N, _)

theorem t_lt (t : Fin cfg5.N) : t.val < 50 := by
  have h := t.isLt
  have hN : cfg5.N = 50 := N_5
  omega

/-- The feature block at point `t` is rows 2000·t … 2000·t + 1999 of the feature array. -/
theorem iblk0_apply (c : Dev nD) (t : Fin cfg5.N) (p : Fin 2000) (k : Fin 128) (r : Fin 100000)
    (hr : r.val = 2000 * t.val + p.val) :
    (iblk5 V c 0 t : Vec Ideal S2000x128 .f32) (ix2 p k) = (V c main_v82_0 : S100000x128.Idx → EReal) (ix2 r k) := by
  obtain ⟨a0, a1, -⟩ := idx_facts t
  unfold iblk5
  rw [View.read_apply]
  show V c main_v82_0 _ = V c main_v82_0 _
  congr 1
  funext a; apply Fin.ext
  match a with
  | ⟨0, _⟩ => show win5_0.index t (0 : Fin 2) * 2000 + 1 * p.val = r.val; rw [a0, hr]; omega
  | ⟨1, _⟩ => show win5_0.index t (1 : Fin 2) * 128 + 1 * k.val = k.val; rw [a1]; omega

/-- The neighbour-sum block at point `t` is the same rows of the neighbour-sum array. -/
theorem iblk1_apply (c : Dev nD) (t : Fin cfg5.N) (p : Fin 2000) (k : Fin 128) (r : Fin 100000)
    (hr : r.val = 2000 * t.val + p.val) :
    (iblk5 V c 1 t : Vec Ideal S2000x128 .f32) (ix2 p k) = (V c main_v94 : S100000x128.Idx → EReal) (ix2 r k) := by
  obtain ⟨-, -, a0, a1, -⟩ := idx_facts t
  unfold iblk5
  rw [View.read_apply]
  show V c main_v94 _ = V c main_v94 _
  congr 1
  funext a; apply Fin.ext
  match a with
  | ⟨0, _⟩ => show win5_1.index t (0 : Fin 2) * 2000 + 1 * p.val = r.val; rw [a0, hr]; omega
  | ⟨1, _⟩ => show win5_1.index t (1 : Fin 2) * 128 + 1 * k.val = k.val; rw [a1]; omega

/-- The update's weight block at every point is the whole weight matrix. -/
theorem iblk2_apply (c : Dev nD) (t : Fin cfg5.N) (k q : Fin 128) :
    (iblk5 V c 2 t : Vec Ideal S128x128 .f32) (ix2 k q) = (V c main_arg13 : S128x128.Idx → EReal) (ix2 k q) := by
  obtain ⟨-, -, -, -, a0, a1, -⟩ := idx_facts t
  unfold iblk5
  rw [View.read_apply]
  show V c main_arg13 _ = V c main_arg13 _
  congr 1
  funext a; apply Fin.ext
  match a with
  | ⟨0, _⟩ => show win5_2.index t (0 : Fin 2) * 128 + 1 * k.val = k.val; rw [a0]; omega
  | ⟨1, _⟩ => show win5_2.index t (1 : Fin 2) * 128 + 1 * q.val = q.val; rw [a1]; omega

/-- The bias block at every point is the whole bias row. -/
theorem iblk3_apply (c : Dev nD) (t : Fin cfg5.N) (q : Fin 128) :
    (iblk5 V c 3 t : Vec Ideal S1x128 .f32) (ix2 (0 : Fin 1) q) = (V c main_v95 : S1x128.Idx → EReal) (ix2 (0 : Fin 1) q) := by
  obtain ⟨-, -, -, -, -, -, a0, a1, -⟩ := idx_facts t
  unfold iblk5
  rw [View.read_apply]
  show V c main_v95 _ = V c main_v95 _
  congr 1
  funext a; apply Fin.ext
  match a with
  | ⟨0, _⟩ => show win5_3.index t (0 : Fin 2) * 1 + 1 * 0 = 0; rw [a0]
  | ⟨1, _⟩ => show win5_3.index t (1 : Fin 2) * 128 + 1 * q.val = q.val; rw [a1]; omega

/-- The projection's weight block at every point is the whole projection matrix. -/
theorem iblk4_apply (c : Dev nD) (t : Fin cfg5.N) (k q : Fin 128) :
    (iblk5 V c 4 t : Vec Ideal S128x128 .f32) (ix2 k q) = (V c main_arg15 : S128x128.Idx → EReal) (ix2 k q) := by
  obtain ⟨-, -, -, -, -, -, -, -, a0, a1, -⟩ := idx_facts t
  unfold iblk5
  rw [View.read_apply]
  show V c main_arg15 _ = V c main_arg15 _
  congr 1
  funext a; apply Fin.ext
  match a with
  | ⟨0, _⟩ => show win5_4.index t (0 : Fin 2) * 128 + 1 * k.val = k.val; rw [a0]; omega
  | ⟨1, _⟩ => show win5_4.index t (1 : Fin 2) * 128 + 1 * q.val = q.val; rw [a1]; omega

/-! ## From blocks to the slab -/

/-- The slab's columns 512 … 767 as the region's inputs give them. -/
abbrev tailOf (c : Dev nD) : S100000x768.Idx → EReal :=
  tail (V c main_v82_0 : S100000x128.Idx → EReal) (V c main_v94 : S100000x128.Idx → EReal)
    (V c main_arg13 : S128x128.Idx → EReal) (fun q => (V c main_v95 : S1x128.Idx → EReal) (ix2 (0 : Fin 1) q))
    (V c main_arg15 : S128x128.Idx → EReal)

/-- What point `t` writes back is block `t` of the slab's function. -/
theorem flushed_eq (c : Dev nD) (t : Fin cfg5.N) :
    (dat5 V c).flushed 6 t = ((cfg5.win 6).blk t).view.read (Elt Ideal) (tailOf V c) := by
  show (cfg5.win 6).cut (grid5.coords t) ((dat5 V c).after 6 t) = _
  rw [after5_6]
  obtain ⟨-, -, -, -, -, -, -, -, -, -, a0, a1⟩ := idx_facts t
  funext j
  obtain ⟨p, q, rfl⟩ : ∃ (p : Fin 2000) (q : Fin 256), j = ix2 p q := ⟨j 0, j 1, eq_ix2 j⟩
  have hr : 2000 * t.val + p.val < 100000 := by have := t_lt t; have := p.isLt; omega
  have hs : 512 + q.val < 768 := by have := q.isLt; omega
  show out5_6 (iblk5 V c 0 t) (iblk5 V c 1 t) (iblk5 V c 2 t) (iblk5 V c 3 t) (iblk5 V c 4 t) (iblk5 V c 5 t) (ix2 p q)
    = tailOf V c (((cfg5.win 6).blk t).view.emb (ix2 p q))
  have e : ((cfg5.win 6).blk t).view.emb (ix2 p q)
      = (ix2 (⟨2000 * t.val + p.val, hr⟩ : Fin 100000) (⟨512 + q.val, hs⟩ : Fin 768) : S100000x768.Idx) := by
    funext a; apply Fin.ext
    match a with
    | ⟨0, _⟩ => show win5_6.index t (0 : Fin 2) * 2000 + 1 * p.val = 2000 * t.val + p.val; rw [a0]; omega
    | ⟨1, _⟩ => show win5_6.index t (1 : Fin 2) * 256 + 1 * q.val = 512 + q.val; rw [a1]; omega
  rw [e]
  refine (out_apply (iblk5 V c 0 t) (iblk5 V c 1 t) (iblk5 V c 2 t) (iblk5 V c 3 t) (iblk5 V c 4 t) (iblk5 V c 5 t) p q).trans ?_
  exact blockAt_eq_tail (iblk5 V c 0 t) (iblk5 V c 1 t) (iblk5 V c 2 t) (iblk5 V c 3 t) (iblk5 V c 4 t)
    _ _ _ _ _ t.val
    (fun p k r hr => iblk0_apply V c t p k r hr) (fun p k r hr => iblk1_apply V c t p k r hr)
    (fun k q => iblk2_apply V c t k q) (fun q => iblk3_apply V c t q) (fun k q => iblk4_apply V c t k q)
    p q ⟨2000 * t.val + p.val, hr⟩ ⟨512 + q.val, hs⟩ rfl rfl

/-- An index of the slab is in point `t`'s block iff each coordinate is in the block's range on its axis. -/
theorem mem_blk (t : Fin cfg5.N) (i : S100000x768.Idx) :
    i ∈ ((cfg5.win 6).blk t).view.set ↔ ∀ a : Fin 2, win5_6.index t a * S2000x256.size a ≤ (i a).val
      ∧ (i a).val < win5_6.index t a * S2000x256.size a + S2000x256.size a := by
  show i ∈ ((View.whole main_v96).slice (win5_6.rect t)).set ↔ _
  rw [View.set_slice_whole, Rect.mem_set_unit]
  exact Iff.rfl

/-- The covered indices: in some point's block iff the column is 512 or more (column block 4 or 5). -/
theorem covered_iff (i : S100000x768.Idx) :
    (∃ t : Fin cfg5.N, (cfg5.win 6).flush t = true ∧ i ∈ ((cfg5.win 6).blk t).view.set) ↔ 4 ≤ (i 1).val / 128 := by
  have hi0 : (i 0).val < 100000 := idx2_lt0 i
  have hi1 : (i 1).val < 768 := idx2_lt1 i
  constructor
  · rintro ⟨t, -, hi⟩
    rw [mem_blk] at hi
    have b1 : win5_6.index t (1 : Fin 2) * 256 ≤ (i 1).val
        ∧ (i 1).val < win5_6.index t (1 : Fin 2) * 256 + 256 := hi 1
    obtain ⟨-, -, -, -, -, -, -, -, -, -, -, a1⟩ := idx_facts t
    omega
  · intro h
    have hN : cfg5.N = 50 := N_5
    obtain ⟨-, -, -, -, -, -, -, -, -, -, a0, a1⟩ := idx_facts ⟨(i 0).val / 2000, by omega⟩
    refine ⟨⟨(i 0).val / 2000, by omega⟩, flush5_6 _, ?_⟩
    rw [mem_blk]
    intro a
    match a with
    | ⟨0, _⟩ =>
      show win5_6.index ⟨(i 0).val / 2000, _⟩ (0 : Fin 2) * 2000 ≤ (i 0).val
        ∧ (i 0).val < win5_6.index ⟨(i 0).val / 2000, _⟩ (0 : Fin 2) * 2000 + 2000
      rw [a0]; show (i 0).val / 2000 * 2000 ≤ (i 0).val ∧ (i 0).val < (i 0).val / 2000 * 2000 + 2000; omega
    | ⟨1, _⟩ =>
      show win5_6.index ⟨(i 0).val / 2000, _⟩ (1 : Fin 2) * 256 ≤ (i 1).val
        ∧ (i 1).val < win5_6.index ⟨(i 0).val / 2000, _⟩ (1 : Fin 2) * 256 + 256
      rw [a1]; omega

end Cert.KernelIdeal.Region5

namespace Cert.KernelIdeal.RegionValue

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-- THE SLAB after the last dense region: from column 512 on, the fifth update (column block 4) and its projection
    (column block 5) of the arrays the region finds; below column 512, what the region found. -/
theorem arr5_6 (c : Dev nD) (i : S100000x768.Idx) :
    (dat5 (F := Ideal) V c).arrAt 6 cfg5.N i
      = if 4 ≤ (i 1).val / 128 then
          (if (i 1).val / 128 = 4 then
            Cert.GinSpec.layer (V c main_v82_0) (V c main_v94) (V c main_arg13) (fun q => V c main_v95 (ix2 0 q))
              (ix2 (i 0) ⟨(i 1).val % 128, Nat.mod_lt _ (by norm_num)⟩)
          else
            Cert.GinSpec.proj
              (Cert.GinSpec.layer (V c main_v82_0) (V c main_v94) (V c main_arg13) (fun q => V c main_v95 (ix2 0 q)))
              (V c main_arg15) (ix2 (i 0) ⟨(i 1).val % 128, Nat.mod_lt _ (by norm_num)⟩))
        else V c main_v96 i := by
  rw [(dat5 V c).arrAt_eq_piecewise 6 (Region5.tailOf V c) (fun t _ => Region5.flushed_eq V c t) i, A_eq5]
  exact if_congr (Region5.covered_iff i) rfl rfl

end Cert.KernelIdeal.RegionValue

end
-- ==== Proof.SlabCases.lean ====
/-
  The slab read by column blocks.

  Column `j` of the 768 lies in block `j / 128`, one of 0 … 5, at position `j mod 128` inside it. A slab given
  block by block — the last two blocks first, then blocks 3, 2, 1, 0 in turn, with anything at all for a block
  number that cannot occur — is the six arrays laid side by side.
-/
import proofs.«145996_j23708219474067_2_alg».proof.Proof.Spec
import Idealize.ShloMosaic.Lib.ValueIdx

noncomputable section

namespace Cert.GinSpec

open Idealize.ShloMosaic Idealize.ShloMosaic.ValueIdx

/-- The index inside its column block: same row, column taken modulo 128. -/
abbrev colOf (i : Sout.Idx) : Sx.Idx := ix2 (i 0) ⟨(i 1).val % 128, Nat.mod_lt _ (by norm_num)⟩

/-- The nest of cases on the block number is the side-by-side layout: the block number is below 6 because the
    column is below 768, and in each of the six cases both sides read the same array at the same index. -/
theorem slab_of_cases (h1 h2 h3 h4 h5 p : Sx.Idx → EReal) (z : Sout.Idx → EReal) (i : Sout.Idx) :
    (if 4 ≤ (i 1).val / 128 then (if (i 1).val / 128 = 4 then h5 (colOf i) else p (colOf i))
     else if (i 1).val / 128 = 3 then h4 (colOf i)
     else if (i 1).val / 128 = 2 then h3 (colOf i)
     else if (i 1).val / 128 = 1 then h2 (colOf i)
     else if (i 1).val / 128 = 0 then h1 (colOf i)
     else z i) = slab ![h1, h2, h3, h4, h5, p] i := by
  have hlt : (i 1).val < 768 := idx2_lt1 i
  obtain ⟨b, hb⟩ : ∃ b : Fin 6, b.val = (i 1).val / 128 := ⟨⟨(i 1).val / 128, by omega⟩, rfl⟩
  show _ = (![h1, h2, h3, h4, h5, p] : Fin 6 → Sx.Idx → EReal) ⟨(i 1).val / 128, _⟩ (colOf i)
  rw [show (⟨(i 1).val / 128, by omega⟩ : Fin 6) = b from Fin.ext hb.symm, ← hb]
  generalize colOf i = x
  fin_cases b <;> rfl

end Cert.GinSpec

end
-- ==== Proof.KChain.lean ====
/-
  The kernel program's result, followed through its twelve segments.

  Notation: x, imp, e, γ, β, W₁ … W₅, b₁ … b₅, Wp are the launch contents of the sixteen arguments. The stretch before
  region 0 cuts the edge list `e` into sources and destinations and computes the fused normalisation's multiplier and
  offset; region 0 applies them: the features `h₀`. Then, five times: a stretch computes the neighbour sums of the
  current features `hₖ₋₁` and reshapes the bias, and a region writes `hₖ = update hₖ₋₁` (regions 1–4: into a feature
  array AND into column block k−1 of the result slab; region 5: `h₅` into column block 4 and its projection into
  column block 5). Every other buffer a segment leaves alone, so the edge endpoints and the weights reach the segment
  that reads them unchanged, and the slab's earlier column blocks survive the later regions.
-/
import proofs.«145996_j23708219474067_2_alg».proof.Proof.Gen.KernelIdeal.Frame
import proofs.«145996_j23708219474067_2_alg».proof.Proof.Spec
import proofs.«145996_j23708219474067_2_alg».proof.Proof.KCarry
import proofs.«145996_j23708219474067_2_alg».proof.Proof.KStretch
import proofs.«145996_j23708219474067_2_alg».proof.Proof.KHostNorm
import proofs.«145996_j23708219474067_2_alg».proof.Proof.KRegion0
import proofs.«145996_j23708219474067_2_alg».proof.Proof.KRegion1
import proofs.«145996_j23708219474067_2_alg».proof.Proof.KRegion2
import proofs.«145996_j23708219474067_2_alg».proof.Proof.KRegion3
import proofs.«145996_j23708219474067_2_alg».proof.Proof.KRegion4
import proofs.«145996_j23708219474067_2_alg».proof.Proof.KRegion5
import proofs.«145996_j23708219474067_2_alg».proof.Proof.SlabCases
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Cert.GinSpec (Sx Sw Simp Sout layer proj slab net fused scaled fusedScale fusedShift)

variable (m : (ℓ : Loc nD τ sig) → Buf (Elt Ideal) ℓ) (ρ : Dev nD → PrngReg) (c : Dev nD)

/-! ## A buffer no segment up to a boundary touches holds there what it held after the first stretch -/

theorem carryTo2 (b : Ref sig .tc) (h : b ∉ arrays0) :
    W2 m ρ c (Proc.devRef .tc b) = W1 m ρ c (Proc.devRef .tc b) := keepRegion0 m ρ c b h

theorem carryTo3 (b : Ref sig .tc) (h : b ∉ (arrays0) ++ written1) :
    W3 m ρ c (Proc.devRef .tc b) = W1 m ρ c (Proc.devRef .tc b) :=
  (keep1 (W2 m ρ c) b (fun hm => h (List.mem_append_right _ hm))).trans
    (carryTo2 m ρ c b (fun hm => h (List.mem_append_left _ hm)))

theorem carryTo4 (b : Ref sig .tc) (h : b ∉ ((arrays0) ++ written1) ++ arrays1) :
    W4 m ρ c (Proc.devRef .tc b) = W1 m ρ c (Proc.devRef .tc b) :=
  (keepRegion1 m ρ c b (fun hm => h (List.mem_append_right _ hm))).trans
    (carryTo3 m ρ c b (fun hm => h (List.mem_append_left _ hm)))

theorem carryTo5 (b : Ref sig .tc) (h : b ∉ (((arrays0) ++ written1) ++ arrays1) ++ written2) :
    W5 m ρ c (Proc.devRef .tc b) = W1 m ρ c (Proc.devRef .tc b) :=
  (keep2 (W4 m ρ c) b (fun hm => h (List.mem_append_right _ hm))).trans
    (carryTo4 m ρ c b (fun hm => h (List.mem_append_left _ hm)))

theorem carryTo6 (b : Ref sig .tc) (h : b ∉ ((((arrays0) ++ written1) ++ arrays1) ++ written2) ++ arrays2) :
    W6 m ρ c (Proc.devRef .tc b) = W1 m ρ c (Proc.devRef .tc b) :=
  (keepRegion2 m ρ c b (fun hm => h (List.mem_append_right _ hm))).trans
    (carryTo5 m ρ c b (fun hm => h (List.mem_append_left _ hm)))

theorem carryTo7 (b : Ref sig .tc) (h : b ∉ (((((arrays0) ++ written1) ++ arrays1) ++ written2) ++ arrays2) ++ written3) :
    W7 m ρ c (Proc.devRef .tc b) = W1 m ρ c (Proc.devRef .tc b) :=
  (keep3 (W6 m ρ c) b (fun hm => h (List.mem_append_right _ hm))).trans
    (carryTo6 m ρ c b (fun hm => h (List.mem_append_left _ hm)))

theorem carryTo8 (b : Ref sig .tc) (h : b ∉ ((((((arrays0) ++ written1) ++ arrays1) ++ written2) ++ arrays2) ++ written3) ++ arrays3) :
    W8 m ρ c (Proc.devRef .tc b) = W1 m ρ c (Proc.devRef .tc b) :=
  (keepRegion3 m ρ c b (fun hm => h (List.mem_append_right _ hm))).trans
    (carryTo7 m ρ c b (fun hm => h (List.mem_append_left _ hm)))

theorem carryTo9 (b : Ref sig .tc) (h : b ∉ (((((((arrays0) ++ written1) ++ arrays1) ++ written2) ++ arrays2) ++ written3) ++ arrays3) ++ written4) :
    W9 m ρ c (Proc.devRef .tc b) = W1 m ρ c (Proc.devRef .tc b) :=
  (keep4 (W8 m ρ c) b (fun hm => h (List.mem_append_right _ hm))).trans
    (carryTo8 m ρ c b (fun hm => h (List.mem_append_left _ hm)))

theorem carryTo10 (b : Ref sig .tc) (h : b ∉ ((((((((arrays0) ++ written1) ++ arrays1) ++ written2) ++ arrays2) ++ written3) ++ arrays3) ++ written4) ++ arrays4) :
    W10 m ρ c (Proc.devRef .tc b) = W1 m ρ c (Proc.devRef .tc b) :=
  (keepRegion4 m ρ c b (fun hm => h (List.mem_append_right _ hm))).trans
    (carryTo9 m ρ c b (fun hm => h (List.mem_append_left _ hm)))

theorem carryTo11 (b : Ref sig .tc) (h : b ∉ (((((((((arrays0) ++ written1) ++ arrays1) ++ written2) ++ arrays2) ++ written3) ++ arrays3) ++ written4) ++ arrays4) ++ written5) :
    W11 m ρ c (Proc.devRef .tc b) = W1 m ρ c (Proc.devRef .tc b) :=
  (keep5 (W10 m ρ c) b (fun hm => h (List.mem_append_right _ hm))).trans
    (carryTo10 m ρ c b (fun hm => h (List.mem_append_left _ hm)))

/-- An argument no host operation writes is, after the first stretch, as launched. -/
theorem atLaunch (b : Ref sig .tc) (h : b ∉ written0) :
    W1 m ρ c (Proc.devRef .tc b) = m ((c : Thread nD τ).loc b) := keep0 (W0 m ρ c) b h

/-! ## The mathematics' ingredients, from the launch contents -/

/-- The rows of `x` scaled by the nodes' importances. -/
def scaledX : Sx.Idx → EReal := scaled (m ((c : Thread nD τ).loc main_arg0)) (m ((c : Thread nD τ).loc main_arg1))
/-- The normalisation's learned scale and shift, as functions of the feature number. -/
def gam : Fin 128 → EReal := fun q => m ((c : Thread nD τ).loc main_arg3) (ix1 q)
def bet : Fin 128 → EReal := fun q => m ((c : Thread nD τ).loc main_arg4) (ix1 q)
/-- The neighbour sum over the launched edge list. -/
def nbr : (Sx.Idx → EReal) → (Sx.Idx → EReal) :=
  aggK (srcOf (m ((c : Thread nD τ).loc main_arg2))) (dstOf (m ((c : Thread nD τ).loc main_arg2)))
/-- The normalised features, in the fused form the kernel computes them. -/
def feat0 : Sx.Idx → EReal :=
  fused (scaledX m c) (fusedScale (scaledX m c) (gam m c)) (fusedShift (scaledX m c) (gam m c) (bet m c))
/-- The features after update 1. -/
def feat1 : Sx.Idx → EReal :=
  layer (feat0 m c) (nbr m c (feat0 m c)) (m ((c : Thread nD τ).loc main_arg5)) (fun q => m ((c : Thread nD τ).loc main_arg6) (ix1 q))
/-- The features after update 2. -/
def feat2 : Sx.Idx → EReal :=
  layer (feat1 m c) (nbr m c (feat1 m c)) (m ((c : Thread nD τ).loc main_arg7)) (fun q => m ((c : Thread nD τ).loc main_arg8) (ix1 q))
/-- The features after update 3. -/
def feat3 : Sx.Idx → EReal :=
  layer (feat2 m c) (nbr m c (feat2 m c)) (m ((c : Thread nD τ).loc main_arg9)) (fun q => m ((c : Thread nD τ).loc main_arg10) (ix1 q))
/-- The features after update 4. -/
def feat4 : Sx.Idx → EReal :=
  layer (feat3 m c) (nbr m c (feat3 m c)) (m ((c : Thread nD τ).loc main_arg11)) (fun q => m ((c : Thread nD τ).loc main_arg12) (ix1 q))
/-- The features after update 5. -/
def feat5 : Sx.Idx → EReal :=
  layer (feat4 m c) (nbr m c (feat4 m c)) (m ((c : Thread nD τ).loc main_arg13)) (fun q => m ((c : Thread nD τ).loc main_arg14) (ix1 q))

/-! ## After the first stretch -/

theorem at1_x : W1 m ρ c (Proc.devRef .tc main_arg0) = m ((c : Thread nD τ).loc main_arg0) := atLaunch m ρ c main_arg0 (by decide)
theorem at1_imp : W1 m ρ c (Proc.devRef .tc main_arg1) = m ((c : Thread nD τ).loc main_arg1) := atLaunch m ρ c main_arg1 (by decide)
theorem at1_scale : W1 m ρ c (Proc.devRef .tc main_v20) = fun j => fusedScale (scaledX m c) (gam m c) (j 1) :=
  HostValue.scale_eq (W0 m ρ c)
theorem at1_shift : W1 m ρ c (Proc.devRef .tc main_v24) = fun j => fusedShift (scaledX m c) (gam m c) (bet m c) (j 1) :=
  HostValue.shift_eq (W0 m ρ c)
theorem at1_src : W1 m ρ c (Proc.devRef .tc main_v1) = srcOf (m ((c : Thread nD τ).loc main_arg2)) := stretch0_src (W0 m ρ c)
theorem at1_dst : W1 m ρ c (Proc.devRef .tc main_v3) = dstOf (m ((c : Thread nD τ).loc main_arg2)) := stretch0_dst (W0 m ρ c)

/-! ## Region 0: the normalised features -/

theorem at2_feat : W2 m ρ c (Proc.devRef .tc main_v25) = feat0 m c := by
  refine (W2_arr m ρ c 4).trans ((RegionValue.arr0_4 (V1 m ρ) c).trans ?_)
  show fused (scaled (W1 m ρ c (Proc.devRef .tc main_arg0)) (W1 m ρ c (Proc.devRef .tc main_arg1)))
      (fun q => W1 m ρ c (Proc.devRef .tc main_v20) (ix2 (0 : Fin 1) q)) (fun q => W1 m ρ c (Proc.devRef .tc main_v24) (ix2 (0 : Fin 1) q)) = _
  rw [at1_x, at1_imp, at1_scale, at1_shift]
  rfl

theorem src_at2 : W2 m ρ c (Proc.devRef .tc main_v1) = srcOf (m ((c : Thread nD τ).loc main_arg2)) := (carryTo2 m ρ c main_v1 (by decide)).trans (at1_src m ρ c)
theorem dst_at2 : W2 m ρ c (Proc.devRef .tc main_v3) = dstOf (m ((c : Thread nD τ).loc main_arg2)) := (carryTo2 m ρ c main_v3 (by decide)).trans (at1_dst m ρ c)
theorem src_at4 : W4 m ρ c (Proc.devRef .tc main_v1) = srcOf (m ((c : Thread nD τ).loc main_arg2)) := (carryTo4 m ρ c main_v1 (by decide)).trans (at1_src m ρ c)
theorem dst_at4 : W4 m ρ c (Proc.devRef .tc main_v3) = dstOf (m ((c : Thread nD τ).loc main_arg2)) := (carryTo4 m ρ c main_v3 (by decide)).trans (at1_dst m ρ c)
theorem src_at6 : W6 m ρ c (Proc.devRef .tc main_v1) = srcOf (m ((c : Thread nD τ).loc main_arg2)) := (carryTo6 m ρ c main_v1 (by decide)).trans (at1_src m ρ c)
theorem dst_at6 : W6 m ρ c (Proc.devRef .tc main_v3) = dstOf (m ((c : Thread nD τ).loc main_arg2)) := (carryTo6 m ρ c main_v3 (by decide)).trans (at1_dst m ρ c)
theorem src_at8 : W8 m ρ c (Proc.devRef .tc main_v1) = srcOf (m ((c : Thread nD τ).loc main_arg2)) := (carryTo8 m ρ c main_v1 (by decide)).trans (at1_src m ρ c)
theorem dst_at8 : W8 m ρ c (Proc.devRef .tc main_v3) = dstOf (m ((c : Thread nD τ).loc main_arg2)) := (carryTo8 m ρ c main_v3 (by decide)).trans (at1_dst m ρ c)
theorem src_at10 : W10 m ρ c (Proc.devRef .tc main_v1) = srcOf (m ((c : Thread nD τ).loc main_arg2)) := (carryTo10 m ρ c main_v1 (by decide)).trans (at1_src m ρ c)
theorem dst_at10 : W10 m ρ c (Proc.devRef .tc main_v3) = dstOf (m ((c : Thread nD τ).loc main_arg2)) := (carryTo10 m ρ c main_v3 (by decide)).trans (at1_dst m ρ c)

/-- A bias launched as a 128-vector and reshaped to a 1 × 128 row reads, in column `q`, entry `q`. -/
theorem biasRow (b : S128.Idx → EReal) : (fun q : Fin 128 => shapeCast S1x128 b shapeCasts_S128_S1x128 (ix2 (0 : Fin 1) q)) = fun q => b (ix1 q) :=
  funext fun q => shapeCast_a_1a_apply b shapeCasts_S128_S1x128 0 q

/-! ## Region 1 -/

theorem in1_feat : W3 m ρ c (Proc.devRef .tc main_v25) = feat0 m c :=
  (keep1 (W2 m ρ c) main_v25 (by decide)).trans (at2_feat m ρ c)
theorem in1_agg : W3 m ρ c (Proc.devRef .tc main_v38) = nbr m c (feat0 m c) := by
  refine (stretch1_agg (W2 m ρ c)).trans ?_
  rw [src_at2, dst_at2, at2_feat]
  rfl
theorem in1_w : W3 m ρ c (Proc.devRef .tc main_arg5) = m ((c : Thread nD τ).loc main_arg5) :=
  (carryTo3 m ρ c main_arg5 (by decide)).trans (atLaunch m ρ c main_arg5 (by decide))
theorem in1_bias : (fun q : Fin 128 => W3 m ρ c (Proc.devRef .tc main_v39) (ix2 (0 : Fin 1) q)) = fun q => m ((c : Thread nD τ).loc main_arg6) (ix1 q) := by
  have hb : W2 m ρ c (Proc.devRef .tc main_arg6) = m ((c : Thread nD τ).loc main_arg6) :=
    (carryTo2 m ρ c main_arg6 (by decide)).trans (atLaunch m ρ c main_arg6 (by decide))
  have hs : W3 m ρ c (Proc.devRef .tc main_v39) = shapeCast S1x128 (m ((c : Thread nD τ).loc main_arg6)) shapeCasts_S128_S1x128 := by
    refine (stretch1_bias (W2 m ρ c)).trans ?_
    rw [hb]
  rw [hs]
  exact biasRow _
theorem at4_feat : W4 m ρ c (Proc.devRef .tc main_v40_0) = feat1 m c := by
  refine (W4_arr m ρ c 5).trans ((RegionValue.arr1_5 (V3 m ρ) c).trans ?_)
  show layer (W3 m ρ c (Proc.devRef .tc main_v25)) (W3 m ρ c (Proc.devRef .tc main_v38)) (W3 m ρ c (Proc.devRef .tc main_arg5))
      (fun q => W3 m ρ c (Proc.devRef .tc main_v39) (ix2 (0 : Fin 1) q)) = _
  rw [in1_feat, in1_agg, in1_w, in1_bias]
  rfl
theorem at4_slab (i : S100000x768.Idx) : W4 m ρ c (Proc.devRef .tc main_v40_1) i
    = if (i 1).val / 128 = 0 then feat1 m c (ix2 (i 0) ⟨(i 1).val % 128, Nat.mod_lt _ (by norm_num)⟩)
      else W3 m ρ c (Proc.devRef .tc main_v40_1) i := by
  refine (congrFun (W4_arr m ρ c 6) i).trans ((RegionValue.arr1_6 (V3 m ρ) c i).trans ?_)
  show (if (i 1).val / 128 = 0 then layer (W3 m ρ c (Proc.devRef .tc main_v25)) (W3 m ρ c (Proc.devRef .tc main_v38)) (W3 m ρ c (Proc.devRef .tc main_arg5))
      (fun q => W3 m ρ c (Proc.devRef .tc main_v39) (ix2 (0 : Fin 1) q)) (ix2 (i 0) ⟨(i 1).val % 128, Nat.mod_lt _ (by norm_num)⟩)
      else W3 m ρ c (Proc.devRef .tc main_v40_1) i) = _
  rw [in1_feat, in1_agg, in1_w, in1_bias]
  rfl

/-! ## Region 2 -/

theorem in2_feat : W5 m ρ c (Proc.devRef .tc main_v40_0) = feat1 m c :=
  (keep2 (W4 m ρ c) main_v40_0 (by decide)).trans (at4_feat m ρ c)
theorem in2_agg : W5 m ρ c (Proc.devRef .tc main_v52) = nbr m c (feat1 m c) := by
  refine (stretch2_agg (W4 m ρ c)).trans ?_
  rw [src_at4, dst_at4, at4_feat]
  rfl
theorem in2_w : W5 m ρ c (Proc.devRef .tc main_arg7) = m ((c : Thread nD τ).loc main_arg7) :=
  (carryTo5 m ρ c main_arg7 (by decide)).trans (atLaunch m ρ c main_arg7 (by decide))
theorem in2_bias : (fun q : Fin 128 => W5 m ρ c (Proc.devRef .tc main_v53) (ix2 (0 : Fin 1) q)) = fun q => m ((c : Thread nD τ).loc main_arg8) (ix1 q) := by
  have hb : W4 m ρ c (Proc.devRef .tc main_arg8) = m ((c : Thread nD τ).loc main_arg8) :=
    (carryTo4 m ρ c main_arg8 (by decide)).trans (atLaunch m ρ c main_arg8 (by decide))
  have hs : W5 m ρ c (Proc.devRef .tc main_v53) = shapeCast S1x128 (m ((c : Thread nD τ).loc main_arg8)) shapeCasts_S128_S1x128 := by
    refine (stretch2_bias (W4 m ρ c)).trans ?_
    rw [hb]
  rw [hs]
  exact biasRow _
theorem at6_feat : W6 m ρ c (Proc.devRef .tc main_v54_0) = feat2 m c := by
  refine (W6_arr m ρ c 5).trans ((RegionValue.arr2_5 (V5 m ρ) c).trans ?_)
  show layer (W5 m ρ c (Proc.devRef .tc main_v40_0)) (W5 m ρ c (Proc.devRef .tc main_v52)) (W5 m ρ c (Proc.devRef .tc main_arg7))
      (fun q => W5 m ρ c (Proc.devRef .tc main_v53) (ix2 (0 : Fin 1) q)) = _
  rw [in2_feat, in2_agg, in2_w, in2_bias]
  rfl
theorem at6_slab (i : S100000x768.Idx) : W6 m ρ c (Proc.devRef .tc main_v54_1) i
    = if (i 1).val / 128 = 1 then feat2 m c (ix2 (i 0) ⟨(i 1).val % 128, Nat.mod_lt _ (by norm_num)⟩)
      else W5 m ρ c (Proc.devRef .tc main_v54_1) i := by
  refine (congrFun (W6_arr m ρ c 6) i).trans ((RegionValue.arr2_6 (V5 m ρ) c i).trans ?_)
  show (if (i 1).val / 128 = 1 then layer (W5 m ρ c (Proc.devRef .tc main_v40_0)) (W5 m ρ c (Proc.devRef .tc main_v52)) (W5 m ρ c (Proc.devRef .tc main_arg7))
      (fun q => W5 m ρ c (Proc.devRef .tc main_v53) (ix2 (0 : Fin 1) q)) (ix2 (i 0) ⟨(i 1).val % 128, Nat.mod_lt _ (by norm_num)⟩)
      else W5 m ρ c (Proc.devRef .tc main_v54_1) i) = _
  rw [in2_feat, in2_agg, in2_w, in2_bias]
  rfl
theorem in2_slab : W5 m ρ c (Proc.devRef .tc main_v54_1) = W4 m ρ c (Proc.devRef .tc main_v40_1) := stretch2_slab (W4 m ρ c)

/-! ## Region 3 -/

theorem in3_feat : W7 m ρ c (Proc.devRef .tc main_v54_0) = feat2 m c :=
  (keep3 (W6 m ρ c) main_v54_0 (by decide)).trans (at6_feat m ρ c)
theorem in3_agg : W7 m ρ c (Proc.devRef .tc main_v66) = nbr m c (feat2 m c) := by
  refine (stretch3_agg (W6 m ρ c)).trans ?_
  rw [src_at6, dst_at6, at6_feat]
  rfl
theorem in3_w : W7 m ρ c (Proc.devRef .tc main_arg9) = m ((c : Thread nD τ).loc main_arg9) :=
  (carryTo7 m ρ c main_arg9 (by decide)).trans (atLaunch m ρ c main_arg9 (by decide))
theorem in3_bias : (fun q : Fin 128 => W7 m ρ c (Proc.devRef .tc main_v67) (ix2 (0 : Fin 1) q)) = fun q => m ((c : Thread nD τ).loc main_arg10) (ix1 q) := by
  have hb : W6 m ρ c (Proc.devRef .tc main_arg10) = m ((c : Thread nD τ).loc main_arg10) :=
    (carryTo6 m ρ c main_arg10 (by decide)).trans (atLaunch m ρ c main_arg10 (by decide))
  have hs : W7 m ρ c (Proc.devRef .tc main_v67) = shapeCast S1x128 (m ((c : Thread nD τ).loc main_arg10)) shapeCasts_S128_S1x128 := by
    refine (stretch3_bias (W6 m ρ c)).trans ?_
    rw [hb]
  rw [hs]
  exact biasRow _
theorem at8_feat : W8 m ρ c (Proc.devRef .tc main_v68_0) = feat3 m c := by
  refine (W8_arr m ρ c 5).trans ((RegionValue.arr3_5 (V7 m ρ) c).trans ?_)
  show layer (W7 m ρ c (Proc.devRef .tc main_v54_0)) (W7 m ρ c (Proc.devRef .tc main_v66)) (W7 m ρ c (Proc.devRef .tc main_arg9))
      (fun q => W7 m ρ c (Proc.devRef .tc main_v67) (ix2 (0 : Fin 1) q)) = _
  rw [in3_feat, in3_agg, in3_w, in3_bias]
  rfl
theorem at8_slab (i : S100000x768.Idx) : W8 m ρ c (Proc.devRef .tc main_v68_1) i
    = if (i 1).val / 128 = 2 then feat3 m c (ix2 (i 0) ⟨(i 1).val % 128, Nat.mod_lt _ (by norm_num)⟩)
      else W7 m ρ c (Proc.devRef .tc main_v68_1) i := by
  refine (congrFun (W8_arr m ρ c 6) i).trans ((RegionValue.arr3_6 (V7 m ρ) c i).trans ?_)
  show (if (i 1).val / 128 = 2 then layer (W7 m ρ c (Proc.devRef .tc main_v54_0)) (W7 m ρ c (Proc.devRef .tc main_v66)) (W7 m ρ c (Proc.devRef .tc main_arg9))
      (fun q => W7 m ρ c (Proc.devRef .tc main_v67) (ix2 (0 : Fin 1) q)) (ix2 (i 0) ⟨(i 1).val % 128, Nat.mod_lt _ (by norm_num)⟩)
      else W7 m ρ c (Proc.devRef .tc main_v68_1) i) = _
  rw [in3_feat, in3_agg, in3_w, in3_bias]
  rfl
theorem in3_slab : W7 m ρ c (Proc.devRef .tc main_v68_1) = W6 m ρ c (Proc.devRef .tc main_v54_1) := stretch3_slab (W6 m ρ c)

/-! ## Region 4 -/

theorem in4_feat : W9 m ρ c (Proc.devRef .tc main_v68_0) = feat3 m c :=
  (keep4 (W8 m ρ c) main_v68_0 (by decide)).trans (at8_feat m ρ c)
theorem in4_agg : W9 m ρ c (Proc.devRef .tc main_v80) = nbr m c (feat3 m c) := by
  refine (stretch4_agg (W8 m ρ c)).trans ?_
  rw [src_at8, dst_at8, at8_feat]
  rfl
theorem in4_w : W9 m ρ c (Proc.devRef .tc main_arg11) = m ((c : Thread nD τ).loc main_arg11) :=
  (carryTo9 m ρ c main_arg11 (by decide)).trans (atLaunch m ρ c main_arg11 (by decide))
theorem in4_bias : (fun q : Fin 128 => W9 m ρ c (Proc.devRef .tc main_v81) (ix2 (0 : Fin 1) q)) = fun q => m ((c : Thread nD τ).loc main_arg12) (ix1 q) := by
  have hb : W8 m ρ c (Proc.devRef .tc main_arg12) = m ((c : Thread nD τ).loc main_arg12) :=
    (carryTo8 m ρ c main_arg12 (by decide)).trans (atLaunch m ρ c main_arg12 (by decide))
  have hs : W9 m ρ c (Proc.devRef .tc main_v81) = shapeCast S1x128 (m ((c : Thread nD τ).loc main_arg12)) shapeCasts_S128_S1x128 := by
    refine (stretch4_bias (W8 m ρ c)).trans ?_
    rw [hb]
  rw [hs]
  exact biasRow _
theorem at10_feat : W10 m ρ c (Proc.devRef .tc main_v82_0) = feat4 m c := by
  refine (W10_arr m ρ c 5).trans ((RegionValue.arr4_5 (V9 m ρ) c).trans ?_)
  show layer (W9 m ρ c (Proc.devRef .tc main_v68_0)) (W9 m ρ c (Proc.devRef .tc main_v80)) (W9 m ρ c (Proc.devRef .tc main_arg11))
      (fun q => W9 m ρ c (Proc.devRef .tc main_v81) (ix2 (0 : Fin 1) q)) = _
  rw [in4_feat, in4_agg, in4_w, in4_bias]
  rfl
theorem at10_slab (i : S100000x768.Idx) : W10 m ρ c (Proc.devRef .tc main_v82_1) i
    = if (i 1).val / 128 = 3 then feat4 m c (ix2 (i 0) ⟨(i 1).val % 128, Nat.mod_lt _ (by norm_num)⟩)
      else W9 m ρ c (Proc.devRef .tc main_v82_1) i := by
  refine (congrFun (W10_arr m ρ c 6) i).trans ((RegionValue.arr4_6 (V9 m ρ) c i).trans ?_)
  show (if (i 1).val / 128 = 3 then layer (W9 m ρ c (Proc.devRef .tc main_v68_0)) (W9 m ρ c (Proc.devRef .tc main_v80)) (W9 m ρ c (Proc.devRef .tc main_arg11))
      (fun q => W9 m ρ c (Proc.devRef .tc main_v81) (ix2 (0 : Fin 1) q)) (ix2 (i 0) ⟨(i 1).val % 128, Nat.mod_lt _ (by norm_num)⟩)
      else W9 m ρ c (Proc.devRef .tc main_v82_1) i) = _
  rw [in4_feat, in4_agg, in4_w, in4_bias]
  rfl
theorem in4_slab : W9 m ρ c (Proc.devRef .tc main_v82_1) = W8 m ρ c (Proc.devRef .tc main_v68_1) := stretch4_slab (W8 m ρ c)

/-! ## Region 5 -/

theorem in5_feat : W11 m ρ c (Proc.devRef .tc main_v82_0) = feat4 m c :=
  (keep5 (W10 m ρ c) main_v82_0 (by decide)).trans (at10_feat m ρ c)
theorem in5_agg : W11 m ρ c (Proc.devRef .tc main_v94) = nbr m c (feat4 m c) := by
  refine (stretch5_agg (W10 m ρ c)).trans ?_
  rw [src_at10, dst_at10, at10_feat]
  rfl
theorem in5_w : W11 m ρ c (Proc.devRef .tc main_arg13) = m ((c : Thread nD τ).loc main_arg13) :=
  (carryTo11 m ρ c main_arg13 (by decide)).trans (atLaunch m ρ c main_arg13 (by decide))
theorem in5_bias : (fun q : Fin 128 => W11 m ρ c (Proc.devRef .tc main_v95) (ix2 (0 : Fin 1) q)) = fun q => m ((c : Thread nD τ).loc main_arg14) (ix1 q) := by
  have hb : W10 m ρ c (Proc.devRef .tc main_arg14) = m ((c : Thread nD τ).loc main_arg14) :=
    (carryTo10 m ρ c main_arg14 (by decide)).trans (atLaunch m ρ c main_arg14 (by decide))
  have hs : W11 m ρ c (Proc.devRef .tc main_v95) = shapeCast S1x128 (m ((c : Thread nD τ).loc main_arg14)) shapeCasts_S128_S1x128 := by
    refine (stretch5_bias (W10 m ρ c)).trans ?_
    rw [hb]
  rw [hs]
  exact biasRow _
theorem in5_proj : W11 m ρ c (Proc.devRef .tc main_arg15) = m ((c : Thread nD τ).loc main_arg15) :=
  (carryTo11 m ρ c main_arg15 (by decide)).trans (atLaunch m ρ c main_arg15 (by decide))
theorem in5_slab : W11 m ρ c (Proc.devRef .tc main_v96) = W10 m ρ c (Proc.devRef .tc main_v82_1) := stretch5_slab (W10 m ρ c)
theorem at12_slab (i : S100000x768.Idx) : W12 m ρ c (Proc.devRef .tc main_v96) i
    = if 4 ≤ (i 1).val / 128 then
        (if (i 1).val / 128 = 4 then feat5 m c (ix2 (i 0) ⟨(i 1).val % 128, Nat.mod_lt _ (by norm_num)⟩)
         else proj (feat5 m c) (m ((c : Thread nD τ).loc main_arg15)) (ix2 (i 0) ⟨(i 1).val % 128, Nat.mod_lt _ (by norm_num)⟩))
      else W11 m ρ c (Proc.devRef .tc main_v96) i := by
  refine (congrFun (W12_arr m ρ c 6) i).trans ((RegionValue.arr5_6 (V11 m ρ) c i).trans ?_)
  show (if 4 ≤ (i 1).val / 128 then
        (if (i 1).val / 128 = 4 then layer (W11 m ρ c (Proc.devRef .tc main_v82_0)) (W11 m ρ c (Proc.devRef .tc main_v94)) (W11 m ρ c (Proc.devRef .tc main_arg13))
            (fun q => W11 m ρ c (Proc.devRef .tc main_v95) (ix2 (0 : Fin 1) q)) (ix2 (i 0) ⟨(i 1).val % 128, Nat.mod_lt _ (by norm_num)⟩)
         else proj (layer (W11 m ρ c (Proc.devRef .tc main_v82_0)) (W11 m ρ c (Proc.devRef .tc main_v94)) (W11 m ρ c (Proc.devRef .tc main_arg13))
            (fun q => W11 m ρ c (Proc.devRef .tc main_v95) (ix2 (0 : Fin 1) q))) (W11 m ρ c (Proc.devRef .tc main_arg15))
            (ix2 (i 0) ⟨(i 1).val % 128, Nat.mod_lt _ (by norm_num)⟩))
      else W11 m ρ c (Proc.devRef .tc main_v96) i) = _
  rw [in5_feat, in5_agg, in5_w, in5_bias, in5_proj]
  rfl

/-! ## The result -/

/-- THE KERNEL PROGRAM'S RESULT: the network of Spec.lean over the launch contents, with the normalisation in its fused
    form and the neighbour sum as the kernel's host stretches compute it. -/
theorem result_eq : W12 m ρ c (Proc.devRef .tc main_v96)
    = net (nbr m c) (feat0 m c) (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15))
        (fun q => m ((c : Thread nD τ).loc main_arg6) (ix1 q)) (fun q => m ((c : Thread nD τ).loc main_arg8) (ix1 q)) (fun q => m ((c : Thread nD τ).loc main_arg10) (ix1 q))
        (fun q => m ((c : Thread nD τ).loc main_arg12) (ix1 q)) (fun q => m ((c : Thread nD τ).loc main_arg14) (ix1 q)) := by
  funext i
  rw [at12_slab m ρ c i, in5_slab, at10_slab m ρ c i, in4_slab, at8_slab m ρ c i, in3_slab, at6_slab m ρ c i, in2_slab,
    at4_slab m ρ c i]
  exact Cert.GinSpec.slab_of_cases (feat1 m c) (feat2 m c) (feat3 m c) (feat4 m c) (feat5 m c)
    (proj (feat5 m c) (m ((c : Thread nD τ).loc main_arg15))) (W3 m ρ c (Proc.devRef .tc main_v40_1)) i

end Cert.KernelIdeal.KValue

end
-- ==== Proof.RefEvalNorm.lean ====
/-
  The first piece of the reference program, evaluated: what it leaves in the normalised features and in the two
  rows of the edge list.

  The piece's thirty-six operations compute `hp = x · importance`, the column means, the centred array, the column
  means of its squares plus the small word, one over the square root, and then `((hp − μ) · s) · γ + β`; read at
  an index that is `normalised` of `scaled x importance`. Beside them the edge list, a 2 × 1600000 array of node
  numbers, is cut into its two rows, each recast as a vector: the senders and the receivers.
-/
import proofs.«145996_j23708219474067_2_alg».proof.Proof.RefRunP
import proofs.«145996_j23708219474067_2_alg».proof.Proof.Spec
import proofs.«145996_j23708219474067_2_alg».proof.Proof.NormRead
import Idealize.ShloMosaic.Lib.Pipeline.Value
import Idealize.ShloMosaic.Lib.ValueIdx
import Idealize.ShloMosaic.Lib.StableHlo.Run
import Idealize.ShloMosaic.PureOps.Ideal.Laws

noncomputable section

namespace Cert.ReferenceIdeal.RefValue

open Cert.ReferenceIdeal Idealize.ShloMosaic Idealize.ShloMosaic.ValueIdx Idealize.ShloMosaic.TcCoe
  Idealize.SL.Sem Idealize.ShloMosaic.StableHlo

/-- The first row of the edge list, as a vector of 1600000 node numbers. -/
def srcOf (e : IVec S2x1600000 32) : IVec S1600000 32 :=
  shapeCast S1600000 (extractStridedSlice S1x1600000 ![0, 0] e Gen.slices_S2x1600000_S1x1600000_0_0)
    Gen.shapeCasts_S1x1600000_S1600000

/-- The second row of the edge list, as a vector of 1600000 node numbers. -/
def dstOf (e : IVec S2x1600000 32) : IVec S1600000 32 :=
  shapeCast S1600000 (extractStridedSlice S1x1600000 ![1, 0] e Gen.slices_S2x1600000_S1x1600000_1_0)
    Gen.shapeCasts_S1x1600000_S1600000

set_option maxHeartbeats 4000000 in
set_option maxRecDepth 8192 in
/-- After the first piece the normalised features are the textbook normalisation of the scaled features. -/
theorem evalNorm_feat (V : Valuation τ sig (Elt Ideal)) :
    after (ValueP.opsNorm (F := Ideal)) V (Proc.devRef .tc main_v30)
      = Cert.GinSpec.normalised
          (Cert.GinSpec.scaled (V (Proc.devRef .tc main_arg0)) (V (Proc.devRef .tc main_arg1)))
          (fun q => V (Proc.devRef .tc main_arg3) (ix1 q)) (fun q => V (Proc.devRef .tc main_arg4) (ix1 q)) := by
  after_results_simp
  exact Cert.GinSpec.Read.normalised_read _ _ _ _ _ _ _ _ _ _

set_option maxHeartbeats 4000000 in
set_option maxRecDepth 8192 in
/-- After the first piece the senders' vector is the edge list's first row. -/
theorem evalNorm_src (V : Valuation τ sig (Elt Ideal)) :
    after (ValueP.opsNorm (F := Ideal)) V (Proc.devRef .tc main_v1) = srcOf (V (Proc.devRef .tc main_arg2)) := by
  after_results_simp
  rfl

set_option maxHeartbeats 4000000 in
set_option maxRecDepth 8192 in
/-- After the first piece the receivers' vector is the edge list's second row. -/
theorem evalNorm_dst (V : Valuation τ sig (Elt Ideal)) :
    after (ValueP.opsNorm (F := Ideal)) V (Proc.devRef .tc main_v3) = dstOf (V (Proc.devRef .tc main_arg2)) := by
  after_results_simp
  rfl

end Cert.ReferenceIdeal.RefValue

end
-- ==== Proof.RefLayer.lean ====
/-
  The reference's dense steps, read one entry at a time, at the extended reals.

  A product of a 100000 × 128 array with a 128 × 128 matrix, contracted over the left operand's columns and the
  right operand's rows, has at row `r` and column `q` the sum over `k` of  x r k · w k q.  A bias row stretched
  first to 1 × 128 and then down the 100000 rows has at (r, q) the bias's entry q.  A sum and a hyperbolic tangent
  of arrays act entry by entry.  Together: the graph-convolution update and the closing projection, as the
  reference writes them, are the functions `layer` and `proj` of the mathematical description.
-/
import proofs.«145996_j23708219474067_2_alg».proof.ReferenceIdeal
import proofs.«145996_j23708219474067_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

variable [Facts₀]
open Facts₀

/-! ## Where the product reads its operands -/

/-- The left operand is read in the result's row … -/
theorem lhs_row (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by simp [dot_S100000x128_S128x128_S100000x128_1_0_0_1_n_n]),
    dif_pos (show (0 : Fin S100000x128.rank) ∈ dot_S100000x128_S128x128_S100000x128_1_0_0_1_n_n.lhsNonContracting by simp [dot_S100000x128_S128x128_S100000x128_1_0_0_1_n_n])]
  rfl

/-- … at the contracted position as its column. -/
theorem lhs_col (i : S100000x128.Idx) (q : dot_S100000x128_S128x128_S100000x128_1_0_0_1_n_n.contr.Idx) : (dot_S100000x128_S128x128_S100000x128_1_0_0_1_n_n.lhsIdx i q 1).val = (q ⟨0, by rw [DotDims.rank_contr]; exact Nat.one_pos⟩).val :=
  dot_S100000x128_S128x128_S100000x128_1_0_0_1_n_n.lhsIdx_val_of_single rfl i q

/-- The right operand is read at the contracted position as its row … -/
theorem rhs_row (i : S100000x128.Idx) (q : dot_S100000x128_S128x128_S100000x128_1_0_0_1_n_n.contr.Idx) : (dot_S100000x128_S128x128_S100000x128_1_0_0_1_n_n.rhsIdx i q 0).val = (q ⟨0, by rw [DotDims.rank_contr]; exact Nat.one_pos⟩).val :=
  dot_S100000x128_S128x128_S100000x128_1_0_0_1_n_n.rhsIdx_val_of_single rfl i q

/-- … in the result's column. -/
theorem rhs_col (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by simp [dot_S100000x128_S128x128_S100000x128_1_0_0_1_n_n]),
    dif_pos (show (1 : Fin S128x128.rank) ∈ dot_S100000x128_S128x128_S100000x128_1_0_0_1_n_n.rhsNonContracting by simp [dot_S100000x128_S128x128_S100000x128_1_0_0_1_n_n])]
  rfl

/-! ## The operations at an entry -/

/-- The product at row `i 0`, column `i 1`: the sum over `k` of  x (i 0) k · w k (i 1). -/
theorem dot_apply (x : FVec Ideal S100000x128 .f32) (w : FVec Ideal S128x128 .f32) (i : S100000x128.Idx) :
    Host.dotGeneral (F := Ideal) dot_S100000x128_S128x128_S100000x128_1_0_0_1_n_n none x w i = ∑ k : Fin 128, x (ix2 (i 0) k) * w (ix2 k (i 1)) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (i 0) k := funext fun a => Fin.ext (by
    match a with
    | ⟨0, _⟩ => exact lhs_row _ _
    | ⟨1, _⟩ => exact (lhs_col _ _).trans hk)
  have er : dot_S100000x128_S128x128_S100000x128_1_0_0_1_n_n.rhsIdx i ((contrEquiv1 dot_S100000x128_S128x128_S100000x128_1_0_0_1_n_n 128 rfl rfl).symm k) = ix2 k (i 1) := funext fun a => Fin.ext (by
    match a with
    | ⟨0, _⟩ => exact (rhs_row _ _).trans hk
    | ⟨1, _⟩ => exact rhs_col _ _)
  rw [el, er]
  rfl

/-- The bias row stretched over the rows: at (r, q) it is the bias's entry q. -/
theorem bias_apply (b : FVec Ideal S128 .f32) (i : S100000x128.Idx) :
    broadcastInDim S100000x128 ![0, 1] bcast_S1x128_S100000x128_0_1 (broadcastInDim S1x128 ![1] bcast_S128_S1x128_1 b) i
      = b (ix1 (i 1)) := by
  rw [broadcastInDim_apply (![0, 1] : Fin 2 → Fin S100000x128.rank) bcast_S1x128_S100000x128_0_1 _ i
      (ix2 (0 : Fin 1) (i 1) : S1x128.Idx)
      (fun a => by match a with | ⟨0, _⟩ => rfl | ⟨1, _⟩ => rfl)]
  exact broadcastInDim_apply (![1] : Fin 1 → Fin S1x128.rank) bcast_S128_S1x128_1 b (ix2 (0 : Fin 1) (i 1) : S1x128.Idx) (ix1 (i 1) : S128.Idx)
    (fun a => by match a with | ⟨0, _⟩ => rfl)

/-- The hyperbolic tangent of an array, at an entry. -/
theorem tanh_apply {s : Shape} {φ : FTy} (x : FVec Ideal s φ) (i : s.Idx) :
    Host.tanh (F := Ideal) x i = Ideal.tanh (x i) := rfl

/-! ## The two dense steps -/

/-- One graph-convolution update as the reference writes it — tanh of ((h + agg) · W + the bias row stretched over
    the rows) — is the update of the mathematical description. -/
theorem layer_eq (h agg : FVec Ideal S100000x128 .f32) (W : FVec Ideal S128x128 .f32) (b : FVec Ideal S128 .f32) :
    Host.tanh (F := Ideal) (addf (Host.dotGeneral (F := Ideal) dot_S100000x128_S128x128_S100000x128_1_0_0_1_n_n none (addf h agg) W)
        (broadcastInDim S100000x128 ![0, 1] bcast_S1x128_S100000x128_0_1
          (broadcastInDim S1x128 ![1] bcast_S128_S1x128_1 b)))
      = Cert.GinSpec.layer h agg W (fun q => b (ix1 q)) := by
  funext i
  rw [tanh_apply, addf_apply, dot_apply, bias_apply]
  rfl

/-- The closing projection as the reference writes it — tanh of h · W — is the projection of the mathematical
    description. -/
theorem proj_eq (h : FVec Ideal S100000x128 .f32) (W : FVec Ideal S128x128 .f32) :
    Host.tanh (F := Ideal) (Host.dotGeneral (F := Ideal) dot_S100000x128_S128x128_S100000x128_1_0_0_1_n_n none h W) = Cert.GinSpec.proj h W := by
  funext i
  rw [tanh_apply, dot_apply]
  rfl

end Cert.ReferenceIdeal.RefValue

end
-- ==== Proof.RefConcat.lean ====
/-
  The reference's closing concatenation, read one entry at a time.

  Six 100000 × 128 arrays laid side by side along the columns give a 100000 × 768 array whose column `c` is column
  `c mod 128` of array number `c / 128`, the row unchanged: all six pieces have the same extent 128 along the
  axis, so the piece holding a column and the column's place inside it are the quotient and the remainder.
-/
import proofs.«145996_j23708219474067_2_alg».proof.ReferenceIdeal
import proofs.«145996_j23708219474067_2_alg».proof.Proof.Spec
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx

variable [Facts₀]
open Facts₀

/-- The six arrays side by side, as the reference writes them, are the slab of the mathematical description:
    entry (r, c) is entry (r, c mod 128) of array number c / 128. -/
theorem concat_eq (u0 u1 u2 u3 u4 u5 : FVec Ideal S100000x128 .f32) :
    concatenate S100000x768 1
        [⟨S100000x128, u0⟩, ⟨S100000x128, u1⟩, ⟨S100000x128, u2⟩, ⟨S100000x128, u3⟩, ⟨S100000x128, u4⟩, ⟨S100000x128, u5⟩]
        concatenates_S100000x128_S100000x128_S100000x128_S100000x128_S100000x128_S100000x128_S100000x768_d1
      = Cert.GinSpec.slab ![u0, u1, u2, u3, u4, u5] := by
  funext j
  have hj := idx2_lt1 j
  -- the literal list of six pieces is the list of the family `![u0, …, u5]` over its six numbers
  show concatenate S100000x768 1 (List.ofFn fun n : Fin 6 =>
      (⟨S100000x128, (![u0, u1, u2, u3, u4, u5] : Fin 6 → S100000x128.Idx → EReal) n⟩ : (s : Shape) × (s.Idx → EReal))) _ j = _
  exact concatenate_ofFn_apply (t := S100000x768) (s₁ := S100000x128) (1 : Fin 2)
    (![u0, u1, u2, u3, u4, u5] : Fin 6 → S100000x128.Idx → EReal) _ rfl 128 rfl j
    ⟨(j 1).val / 128, by omega⟩ rfl
    (ix2 (j 0) ⟨(j 1).val % 128, Nat.mod_lt _ (by norm_num)⟩) rfl
    (fun b hb => by match b with | ⟨0, _⟩ => rfl | ⟨1, _⟩ => exact absurd rfl hb)

end Cert.ReferenceIdeal.RefValue

end
-- ==== Proof.RefAgg.lean ====
/-
  The reference's neighbour sum as one function of the edge list and the node features.

  The graph has 1600000 edges, edge `e` running from node `src e` to node `dst e`. The neighbour sum of a
  100000 × 128 feature array `h` starts from the all-zero array and, for every edge, adds row `src e` of `h`
  (the source number wrapped as Python wraps a negative index) into row `dst e`: a gather of the source rows
  followed by a scatter that accumulates them at the destination rows.
-/
import proofs.«145996_j23708219474067_2_alg».proof.ReferenceIdeal
import Idealize.ShloMosaic.PureOps.Ideal

noncomputable section

namespace Cert.ReferenceIdeal.RefValue

open Cert.ReferenceIdeal Idealize.ShloMosaic

variable [Facts₀]
open Facts₀

/-- The source node numbers with Python's wrap-around: a negative number counts from the end, so 100000 is added to it;
    any other number is kept. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The neighbour sum: the zero array with, for every edge, the features' row at the edge's (wrapped) source added
    into the row of the edge's destination. -/
def aggR (src dst : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (wrapIdx src)))

end Cert.ReferenceIdeal.RefValue

end
-- ==== Proof.RefEvalLayer.lean ====
/-
  The reference's six dense pieces, each evaluated on its own from arbitrary buffer contents.

  An update piece reads the current features, the edge list's two rows, a weight matrix and a bias; it wraps the
  sources, gathers, scatters, adds the neighbour sums to the features, multiplies by the weights, adds the bias row
  and takes the hyperbolic tangent. Read through, the buffer it ends in holds the update of the mathematical
  description applied to the features and their neighbour sum. The closing piece multiplies the last features by
  the projection's weights, takes the hyperbolic tangent, and lays the five updates' results and this one side by
  side: the slab of the mathematical description.
-/
import proofs.«145996_j23708219474067_2_alg».proof.Proof.RefRunP
import proofs.«145996_j23708219474067_2_alg».proof.Proof.RefLayer
import proofs.«145996_j23708219474067_2_alg».proof.Proof.RefConcat
import proofs.«145996_j23708219474067_2_alg».proof.Proof.RefAgg

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo Idealize.ShloMosaic.ValueIdx

variable (V : Valuation τ sig (Elt Ideal))

set_option maxHeartbeats 4000000 in
/-- The first update piece leaves, in its result buffer, the update of its input features and their neighbour sum. -/
theorem evalL1 : after (ValueP.opsL1 (F := Ideal)) V (Proc.devRef .tc main_v46)
    = Cert.GinSpec.layer (V (Proc.devRef .tc main_v30))
        (aggR (V (Proc.devRef .tc main_v1)) (V (Proc.devRef .tc main_v3)) (V (Proc.devRef .tc main_v30)))
        (V (Proc.devRef .tc main_arg5)) (fun q => V (Proc.devRef .tc main_arg6) (ix1 q)) := by
  after_results_simp
  exact layer_eq _ _ _ _

set_option maxHeartbeats 4000000 in
/-- The second update piece leaves, in its result buffer, the update of its input features and their neighbour sum. -/
theorem evalL2 : after (ValueP.opsL2 (F := Ideal)) V (Proc.devRef .tc main_v62)
    = Cert.GinSpec.layer (V (Proc.devRef .tc main_v46))
        (aggR (V (Proc.devRef .tc main_v1)) (V (Proc.devRef .tc main_v3)) (V (Proc.devRef .tc main_v46)))
        (V (Proc.devRef .tc main_arg7)) (fun q => V (Proc.devRef .tc main_arg8) (ix1 q)) := by
  after_results_simp
  exact layer_eq _ _ _ _

set_option maxHeartbeats 4000000 in
/-- The third update piece leaves, in its result buffer, the update of its input features and their neighbour sum. -/
theorem evalL3 : after (ValueP.opsL3 (F := Ideal)) V (Proc.devRef .tc main_v78)
    = Cert.GinSpec.layer (V (Proc.devRef .tc main_v62))
        (aggR (V (Proc.devRef .tc main_v1)) (V (Proc.devRef .tc main_v3)) (V (Proc.devRef .tc main_v62)))
        (V (Proc.devRef .tc main_arg9)) (fun q => V (Proc.devRef .tc main_arg10) (ix1 q)) := by
  after_results_simp
  exact layer_eq _ _ _ _

set_option maxHeartbeats 4000000 in
/-- The fourth update piece leaves, in its result buffer, the update of its input features and their neighbour sum. -/
theorem evalL4 : after (ValueP.opsL4 (F := Ideal)) V (Proc.devRef .tc main_v94)
    = Cert.GinSpec.layer (V (Proc.devRef .tc main_v78))
        (aggR (V (Proc.devRef .tc main_v1)) (V (Proc.devRef .tc main_v3)) (V (Proc.devRef .tc main_v78)))
        (V (Proc.devRef .tc main_arg11)) (fun q => V (Proc.devRef .tc main_arg12) (ix1 q)) := by
  after_results_simp
  exact layer_eq _ _ _ _

set_option maxHeartbeats 4000000 in
/-- The fifth update piece leaves, in its result buffer, the update of its input features and their neighbour sum. -/
theorem evalL5 : after (ValueP.opsL5 (F := Ideal)) V (Proc.devRef .tc main_v110)
    = Cert.GinSpec.layer (V (Proc.devRef .tc main_v94))
        (aggR (V (Proc.devRef .tc main_v1)) (V (Proc.devRef .tc main_v3)) (V (Proc.devRef .tc main_v94)))
        (V (Proc.devRef .tc main_arg13)) (fun q => V (Proc.devRef .tc main_arg14) (ix1 q)) := by
  after_results_simp
  exact layer_eq _ _ _ _

/-- A six-operand operation's result with each operand's contents at its own buffer. -/
theorem nary6_result' {x0 x1 x2 x3 x4 x5 y : Ref sig .tc}
    (f : ((k : Fin 6) → ((![x0, x1, x2, x3, x4, x5] : Fin 6 → Ref sig .tc) k).ty.Contents (Elt Ideal)) → y.ty.Contents (Elt Ideal))
    (hxs hy) (F : Valuation τ sig (Elt Ideal)) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

set_option maxHeartbeats 4000000 in
/-- The closing piece leaves, in the result buffer, the five updates' results and the projection of the last side by
    side. -/
theorem evalTail : after (ValueP.opsTail (F := Ideal)) V (Proc.devRef .tc main_v113)
    = Cert.GinSpec.slab ![(V (Proc.devRef .tc main_v46)), (V (Proc.devRef .tc main_v62)), (V (Proc.devRef .tc main_v78)),
        (V (Proc.devRef .tc main_v94)), (V (Proc.devRef .tc main_v110)),
        Cert.GinSpec.proj (V (Proc.devRef .tc main_v110)) (V (Proc.devRef .tc main_arg15))] := by
  simp (disch := decide) only [after_cons, after_nil, nary6_result', unary_result', binary_result',
    unary_result_ne', binary_result_ne']
  rw [← proj_eq, ← concat_eq]
  rfl

end Cert.ReferenceIdeal.RefValue

end
-- ==== Proof.RefKeep.lean ====
/-
  Which buffers a piece of the reference program leaves alone.

  The reference is a straight line of host operations, read here in seven consecutive pieces: the normalisation
  (with the edge list's two rows), the five updates, and the closing projection with the concatenation. A piece
  changes exactly the buffers its operations write, so a buffer outside that list keeps its contents across the
  piece. This lets a long-lived buffer — an argument, the edge endpoints, an earlier update's result — be followed
  from the piece that wrote it to the piece that reads it.
-/
import proofs.«145996_j23708219474067_2_alg».proof.Proof.RefRunP
import Idealize.ShloMosaic.PureOps.Ideal

set_option maxRecDepth 16384

noncomputable section

namespace Cert.ReferenceIdeal.RefValue

open Cert.ReferenceIdeal
open Idealize.ShloMosaic Idealize.ShloMosaic.TcCoe Idealize.SL.Sem

/-- The buffers written by the normalisation and the edge list's two rows. -/
def writtenNorm : List (Ref sig .tc) := [main_v0, main_v1, main_v2, main_v3, main_v4, main_v5, main_cst, main_v6, main_cst_0, main_v7, main_v8, main_v9, main_v10, main_v11, main_v12, main_cst_1, main_v13, main_cst_2, main_v14, main_v15, main_v16, main_v17, main_v18, main_cst_3, main_v19, main_v20, main_v21, main_v22, main_v23, main_v24, main_v25, main_v26, main_v27, main_v28, main_v29, main_v30]

/-- A buffer that piece does not write keeps its contents across it. -/
theorem keepNorm (V : Valuation τ sig (Elt Ideal)) (r : Ref sig .tc) (hr : r ∉ writtenNorm) :
    StableHlo.after (ValueP.opsNorm (F := Ideal)) V (Proc.devRef .tc r) = V (Proc.devRef .tc r) :=
  StableHlo.after_of_forall_not_mem (b := Proc.devRef .tc r) _ _ (List.forall_iff_forall_mem.mp (by
    simp only [ValueP.opsNorm, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

/-- The buffers written by the first update. -/
def writtenL1 : List (Ref sig .tc) := [main_c, main_v31, main_v32, main_c_4, main_v33, main_v34, main_v35, main_v36, main_v37, main_cst_5, main_v38, main_v39, main_v40, main_v41, main_v42, main_v43, main_v44, main_v45, main_v46]

/-- A buffer that piece does not write keeps its contents across it. -/
theorem keepL1 (V : Valuation τ sig (Elt Ideal)) (r : Ref sig .tc) (hr : r ∉ writtenL1) :
    StableHlo.after (ValueP.opsL1 (F := Ideal)) V (Proc.devRef .tc r) = V (Proc.devRef .tc r) :=
  StableHlo.after_of_forall_not_mem (b := Proc.devRef .tc r) _ _ (List.forall_iff_forall_mem.mp (by
    simp only [ValueP.opsL1, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

/-- The buffers written by the second update. -/
def writtenL2 : List (Ref sig .tc) := [main_c_6, main_v47, main_v48, main_c_7, main_v49, main_v50, main_v51, main_v52, main_v53, main_cst_8, main_v54, main_v55, main_v56, main_v57, main_v58, main_v59, main_v60, main_v61, main_v62]

/-- A buffer that piece does not write keeps its contents across it. -/
theorem keepL2 (V : Valuation τ sig (Elt Ideal)) (r : Ref sig .tc) (hr : r ∉ writtenL2) :
    StableHlo.after (ValueP.opsL2 (F := Ideal)) V (Proc.devRef .tc r) = V (Proc.devRef .tc r) :=
  StableHlo.after_of_forall_not_mem (b := Proc.devRef .tc r) _ _ (List.forall_iff_forall_mem.mp (by
    simp only [ValueP.opsL2, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

/-- The buffers written by the third update. -/
def writtenL3 : List (Ref sig .tc) := [main_c_9, main_v63, main_v64, main_c_10, main_v65, main_v66, main_v67, main_v68, main_v69, main_cst_11, main_v70, main_v71, main_v72, main_v73, main_v74, main_v75, main_v76, main_v77, main_v78]

/-- A buffer that piece does not write keeps its contents across it. -/
theorem keepL3 (V : Valuation τ sig (Elt Ideal)) (r : Ref sig .tc) (hr : r ∉ writtenL3) :
    StableHlo.after (ValueP.opsL3 (F := Ideal)) V (Proc.devRef .tc r) = V (Proc.devRef .tc r) :=
  StableHlo.after_of_forall_not_mem (b := Proc.devRef .tc r) _ _ (List.forall_iff_forall_mem.mp (by
    simp only [ValueP.opsL3, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

/-- The buffers written by the fourth update. -/
def writtenL4 : List (Ref sig .tc) := [main_c_12, main_v79, main_v80, main_c_13, main_v81, main_v82, main_v83, main_v84, main_v85, main_cst_14, main_v86, main_v87, main_v88, main_v89, main_v90, main_v91, main_v92, main_v93, main_v94]

/-- A buffer that piece does not write keeps its contents across it. -/
theorem keepL4 (V : Valuation τ sig (Elt Ideal)) (r : Ref sig .tc) (hr : r ∉ writtenL4) :
    StableHlo.after (ValueP.opsL4 (F := Ideal)) V (Proc.devRef .tc r) = V (Proc.devRef .tc r) :=
  StableHlo.after_of_forall_not_mem (b := Proc.devRef .tc r) _ _ (List.forall_iff_forall_mem.mp (by
    simp only [ValueP.opsL4, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

/-- The buffers written by the fifth update. -/
def writtenL5 : List (Ref sig .tc) := [main_c_15, main_v95, main_v96, main_c_16, main_v97, main_v98, main_v99, main_v100, main_v101, main_cst_17, main_v102, main_v103, main_v104, main_v105, main_v106, main_v107, main_v108, main_v109, main_v110]

/-- A buffer that piece does not write keeps its contents across it. -/
theorem keepL5 (V : Valuation τ sig (Elt Ideal)) (r : Ref sig .tc) (hr : r ∉ writtenL5) :
    StableHlo.after (ValueP.opsL5 (F := Ideal)) V (Proc.devRef .tc r) = V (Proc.devRef .tc r) :=
  StableHlo.after_of_forall_not_mem (b := Proc.devRef .tc r) _ _ (List.forall_iff_forall_mem.mp (by
    simp only [ValueP.opsL5, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

/-- The buffers written by the closing projection and the concatenation. -/
def writtenTail : List (Ref sig .tc) := [main_v111, main_v112, main_v113]

/-- A buffer that piece does not write keeps its contents across it. -/
theorem keepTail (V : Valuation τ sig (Elt Ideal)) (r : Ref sig .tc) (hr : r ∉ writtenTail) :
    StableHlo.after (ValueP.opsTail (F := Ideal)) V (Proc.devRef .tc r) = V (Proc.devRef .tc r) :=
  StableHlo.after_of_forall_not_mem (b := Proc.devRef .tc r) _ _ (List.forall_iff_forall_mem.mp (by
    simp only [ValueP.opsTail, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (fun e => by subst e; exact hr (by decide))))

end Cert.ReferenceIdeal.RefValue

end
-- ==== Proof.RefEval.lean ====
/-
  The reference program's result as the specification's network.

  The reference is a straight line of 134 array operations. Cut into seven consecutive pieces — the normalisation with
  the edge list's two rows, five graph-convolution updates, and the closing projection with the concatenation — each
  piece reads only buffers that earlier pieces wrote or that were there at the launch, and writes buffers of its own.
  Running a concatenation of lists is running them one after another, so the contents after the whole line are the
  last piece applied to what the first six leave. A buffer keeps its contents across every piece that does not write
  it: the arguments are never written, the edge endpoints are written once by the first piece and read by every update,
  and each update's features stay where they are until the concatenation reads them. Following each buffer back to the
  piece that wrote it turns the line's result into five nested updates of the normalised features, each with the
  neighbour sum over the launch's edge list, laid side by side with the projection of the last: the network.
-/
import proofs.«145996_j23708219474067_2_alg».proof.Proof.RefRunP
import proofs.«145996_j23708219474067_2_alg».proof.Proof.RefEvalNorm
import proofs.«145996_j23708219474067_2_alg».proof.Proof.RefEvalLayer
import proofs.«145996_j23708219474067_2_alg».proof.Proof.RefKeep
import proofs.«145996_j23708219474067_2_alg».proof.Proof.RefAgg
import proofs.«145996_j23708219474067_2_alg».proof.Proof.Spec
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

variable (V0 : Valuation τ sig (Elt Ideal))

/-- Operations run one list after another are the concatenated list run once. -/
theorem after_append (A B : List (HloOp τ sig (Elt Ideal))) (V : Valuation τ sig (Elt Ideal)) :
    after (A ++ B) V = after B (after A V) := by
  induction A generalizing V with
  | nil => rfl
  | cons op A ih => exact ih (op.result V)

/-! ## The buffer contents after each piece -/

/-- After the normalisation. -/
def st1 : Valuation τ sig (Elt Ideal) := after (ValueP.opsNorm (F := Ideal)) V0
/-- After the first update. -/
def st2 : Valuation τ sig (Elt Ideal) := after (ValueP.opsL1 (F := Ideal)) (st1 V0)
/-- After the second update. -/
def st3 : Valuation τ sig (Elt Ideal) := after (ValueP.opsL2 (F := Ideal)) (st2 V0)
/-- After the third update. -/
def st4 : Valuation τ sig (Elt Ideal) := after (ValueP.opsL3 (F := Ideal)) (st3 V0)
/-- After the fourth update. -/
def st5 : Valuation τ sig (Elt Ideal) := after (ValueP.opsL4 (F := Ideal)) (st4 V0)
/-- After the fifth update. -/
def st6 : Valuation τ sig (Elt Ideal) := after (ValueP.opsL5 (F := Ideal)) (st5 V0)

/-- The whole program is its last piece run from what the first six leave. -/
theorem after_ops : after (ValueP.ops (F := Ideal)) V0 = after (ValueP.opsTail (F := Ideal)) (st6 V0) := by
  rw [ValueP.ops_split, after_append, after_append, after_append, after_append, after_append, after_append]
  rfl

/-! ## A buffer no piece has written yet still holds its launch contents -/

theorem launch_st1 (r : Ref sig .tc) (h0 : r ∉ writtenNorm) : st1 V0 (Proc.devRef .tc r) = V0 (Proc.devRef .tc r) :=
  keepNorm V0 r h0
theorem launch_st2 (r : Ref sig .tc) (h0 : r ∉ writtenNorm) (h1 : r ∉ writtenL1) :
    st2 V0 (Proc.devRef .tc r) = V0 (Proc.devRef .tc r) := (keepL1 (st1 V0) r h1).trans (launch_st1 V0 r h0)
theorem launch_st3 (r : Ref sig .tc) (h0 : r ∉ writtenNorm) (h1 : r ∉ writtenL1) (h2 : r ∉ writtenL2) :
    st3 V0 (Proc.devRef .tc r) = V0 (Proc.devRef .tc r) := (keepL2 (st2 V0) r h2).trans (launch_st2 V0 r h0 h1)
theorem launch_st4 (r : Ref sig .tc) (h0 : r ∉ writtenNorm) (h1 : r ∉ writtenL1) (h2 : r ∉ writtenL2) (h3 : r ∉ writtenL3) :
    st4 V0 (Proc.devRef .tc r) = V0 (Proc.devRef .tc r) := (keepL3 (st3 V0) r h3).trans (launch_st3 V0 r h0 h1 h2)
theorem launch_st5 (r : Ref sig .tc) (h0 : r ∉ writtenNorm) (h1 : r ∉ writtenL1) (h2 : r ∉ writtenL2) (h3 : r ∉ writtenL3)
    (h4 : r ∉ writtenL4) : st5 V0 (Proc.devRef .tc r) = V0 (Proc.devRef .tc r) :=
  (keepL4 (st4 V0) r h4).trans (launch_st4 V0 r h0 h1 h2 h3)
theorem launch_st6 (r : Ref sig .tc) (h0 : r ∉ writtenNorm) (h1 : r ∉ writtenL1) (h2 : r ∉ writtenL2) (h3 : r ∉ writtenL3)
    (h4 : r ∉ writtenL4) (h5 : r ∉ writtenL5) : st6 V0 (Proc.devRef .tc r) = V0 (Proc.devRef .tc r) :=
  (keepL5 (st5 V0) r h5).trans (launch_st5 V0 r h0 h1 h2 h3 h4)

/-- A buffer none of the seven pieces writes ends as launched. -/
theorem ref_args_of (r : Ref sig .tc) (h0 : r ∉ writtenNorm) (h1 : r ∉ writtenL1) (h2 : r ∉ writtenL2) (h3 : r ∉ writtenL3)
    (h4 : r ∉ writtenL4) (h5 : r ∉ writtenL5) (h6 : r ∉ writtenTail) :
    after (ValueP.ops (F := Ideal)) V0 (Proc.devRef .tc r) = V0 (Proc.devRef .tc r) := by
  rw [after_ops]
  exact (keepTail (st6 V0) r h6).trans (launch_st6 V0 r h0 h1 h2 h3 h4 h5)

/-- The same with the seven lists of written buffers joined into one. -/
theorem ref_args (r : Ref sig .tc)
    (hr : r ∉ writtenNorm ++ writtenL1 ++ writtenL2 ++ writtenL3 ++ writtenL4 ++ writtenL5 ++ writtenTail) :
    after (ValueP.ops (F := Ideal)) V0 (Proc.devRef .tc r) = V0 (Proc.devRef .tc r) := by
  simp only [List.mem_append, not_or] at hr
  obtain ⟨⟨⟨⟨⟨⟨h0, h1⟩, h2⟩, h3⟩, h4⟩, h5⟩, h6⟩ := hr
  exact ref_args_of V0 r h0 h1 h2 h3 h4 h5 h6

/-! ## The edge endpoints, written by the first piece, are read by every update -/

/-- The edges' source nodes as the launch's edge list gives them. -/
abbrev srcs : IVec S1600000 32 := srcOf (V0 (Proc.devRef .tc main_arg2))
/-- The edges' destination nodes. -/
abbrev dsts : IVec S1600000 32 := dstOf (V0 (Proc.devRef .tc main_arg2))

theorem src_st1 : st1 V0 (Proc.devRef .tc main_v1) = srcs V0 := evalNorm_src V0
theorem src_st2 : st2 V0 (Proc.devRef .tc main_v1) = srcs V0 := (keepL1 (st1 V0) main_v1 (by decide)).trans (src_st1 V0)
theorem src_st3 : st3 V0 (Proc.devRef .tc main_v1) = srcs V0 := (keepL2 (st2 V0) main_v1 (by decide)).trans (src_st2 V0)
theorem src_st4 : st4 V0 (Proc.devRef .tc main_v1) = srcs V0 := (keepL3 (st3 V0) main_v1 (by decide)).trans (src_st3 V0)
theorem src_st5 : st5 V0 (Proc.devRef .tc main_v1) = srcs V0 := (keepL4 (st4 V0) main_v1 (by decide)).trans (src_st4 V0)

theorem dst_st1 : st1 V0 (Proc.devRef .tc main_v3) = dsts V0 := evalNorm_dst V0
theorem dst_st2 : st2 V0 (Proc.devRef .tc main_v3) = dsts V0 := (keepL1 (st1 V0) main_v3 (by decide)).trans (dst_st1 V0)
theorem dst_st3 : st3 V0 (Proc.devRef .tc main_v3) = dsts V0 := (keepL2 (st2 V0) main_v3 (by decide)).trans (dst_st2 V0)
theorem dst_st4 : st4 V0 (Proc.devRef .tc main_v3) = dsts V0 := (keepL3 (st3 V0) main_v3 (by decide)).trans (dst_st3 V0)
theorem dst_st5 : st5 V0 (Proc.devRef .tc main_v3) = dsts V0 := (keepL4 (st4 V0) main_v3 (by decide)).trans (dst_st4 V0)

/-! ## The features after each piece -/

/-- The normalised features of the launch's arguments. -/
abbrev feat0 : Cert.GinSpec.Sx.Idx → EReal :=
  Cert.GinSpec.normalised (Cert.GinSpec.scaled (V0 (Proc.devRef .tc main_arg0)) (V0 (Proc.devRef .tc main_arg1)))
    (fun q => V0 (Proc.devRef .tc main_arg3) (ix1 q)) (fun q => V0 (Proc.devRef .tc main_arg4) (ix1 q))
/-- The neighbour sum over the launch's edge list. -/
abbrev nbr : (Cert.GinSpec.Sx.Idx → EReal) → (Cert.GinSpec.Sx.Idx → EReal) := aggR (srcs V0) (dsts V0)
/-- The features after one, two, … five updates. -/
def feat1 : Cert.GinSpec.Sx.Idx → EReal :=
  Cert.GinSpec.layer (feat0 V0) (nbr V0 (feat0 V0)) (V0 (Proc.devRef .tc main_arg5)) (fun q => V0 (Proc.devRef .tc main_arg6) (ix1 q))
def feat2 : Cert.GinSpec.Sx.Idx → EReal :=
  Cert.GinSpec.layer (feat1 V0) (nbr V0 (feat1 V0)) (V0 (Proc.devRef .tc main_arg7)) (fun q => V0 (Proc.devRef .tc main_arg8) (ix1 q))
def feat3 : Cert.GinSpec.Sx.Idx → EReal :=
  Cert.GinSpec.layer (feat2 V0) (nbr V0 (feat2 V0)) (V0 (Proc.devRef .tc main_arg9)) (fun q => V0 (Proc.devRef .tc main_arg10) (ix1 q))
def feat4 : Cert.GinSpec.Sx.Idx → EReal :=
  Cert.GinSpec.layer (feat3 V0) (nbr V0 (feat3 V0)) (V0 (Proc.devRef .tc main_arg11)) (fun q => V0 (Proc.devRef .tc main_arg12) (ix1 q))
def feat5 : Cert.GinSpec.Sx.Idx → EReal :=
  Cert.GinSpec.layer (feat4 V0) (nbr V0 (feat4 V0)) (V0 (Proc.devRef .tc main_arg13)) (fun q => V0 (Proc.devRef .tc main_arg14) (ix1 q))

theorem feat_st1 : st1 V0 (Proc.devRef .tc main_v30) = feat0 V0 := evalNorm_feat V0

theorem feat_st2 : st2 V0 (Proc.devRef .tc main_v46) = feat1 V0 := by
  refine (evalL1 (st1 V0)).trans ?_
  rw [feat_st1, src_st1, dst_st1, launch_st1 V0 main_arg5 (by decide), launch_st1 V0 main_arg6 (by decide)]
  rfl

theorem feat_st3 : st3 V0 (Proc.devRef .tc main_v62) = feat2 V0 := by
  refine (evalL2 (st2 V0)).trans ?_
  rw [feat_st2, src_st2, dst_st2, launch_st2 V0 main_arg7 (by decide) (by decide), launch_st2 V0 main_arg8 (by decide) (by decide)]
  rfl

theorem feat_st4 : st4 V0 (Proc.devRef .tc main_v78) = feat3 V0 := by
  refine (evalL3 (st3 V0)).trans ?_
  rw [feat_st3, src_st3, dst_st3, launch_st3 V0 main_arg9 (by decide) (by decide) (by decide),
    launch_st3 V0 main_arg10 (by decide) (by decide) (by decide)]
  rfl

theorem feat_st5 : st5 V0 (Proc.devRef .tc main_v94) = feat4 V0 := by
  refine (evalL4 (st4 V0)).trans ?_
  rw [feat_st4, src_st4, dst_st4, launch_st4 V0 main_arg11 (by decide) (by decide) (by decide) (by decide),
    launch_st4 V0 main_arg12 (by decide) (by decide) (by decide) (by decide)]
  rfl

theorem feat_st6 : st6 V0 (Proc.devRef .tc main_v110) = feat5 V0 := by
  refine (evalL5 (st5 V0)).trans ?_
  rw [feat_st5, src_st5, dst_st5, launch_st5 V0 main_arg13 (by decide) (by decide) (by decide) (by decide) (by decide),
    launch_st5 V0 main_arg14 (by decide) (by decide) (by decide) (by decide) (by decide)]
  rfl

/-! ## Each update's result is still there when the last piece reads it -/

theorem feat1_st6 : st6 V0 (Proc.devRef .tc main_v46) = feat1 V0 :=
  (keepL5 (st5 V0) main_v46 (by decide)).trans ((keepL4 (st4 V0) main_v46 (by decide)).trans
    ((keepL3 (st3 V0) main_v46 (by decide)).trans ((keepL2 (st2 V0) main_v46 (by decide)).trans (feat_st2 V0))))
theorem feat2_st6 : st6 V0 (Proc.devRef .tc main_v62) = feat2 V0 :=
  (keepL5 (st5 V0) main_v62 (by decide)).trans ((keepL4 (st4 V0) main_v62 (by decide)).trans
    ((keepL3 (st3 V0) main_v62 (by decide)).trans (feat_st3 V0)))
theorem feat3_st6 : st6 V0 (Proc.devRef .tc main_v78) = feat3 V0 :=
  (keepL5 (st5 V0) main_v78 (by decide)).trans ((keepL4 (st4 V0) main_v78 (by decide)).trans (feat_st4 V0))
theorem feat4_st6 : st6 V0 (Proc.devRef .tc main_v94) = feat4 V0 :=
  (keepL5 (st5 V0) main_v94 (by decide)).trans (feat_st5 V0)

/-! ## The reference's result -/

/-- THE REFERENCE'S RESULT BUFFER after all 134 operations, from any contents: the network of the specification over
    the neighbour sum of the launch's edge list, from the normalised features of the launch's arguments. -/
theorem ref_value :
    after (ValueP.ops (F := Ideal)) V0 (Proc.devRef .tc main_v113)
      = Cert.GinSpec.net (aggR (srcOf (V0 (Proc.devRef .tc main_arg2))) (dstOf (V0 (Proc.devRef .tc main_arg2))))
      (Cert.GinSpec.normalised (Cert.GinSpec.scaled (V0 (Proc.devRef .tc main_arg0)) (V0 (Proc.devRef .tc main_arg1)))
        (fun q => V0 (Proc.devRef .tc main_arg3) (ix1 q)) (fun q => V0 (Proc.devRef .tc main_arg4) (ix1 q)))
      (V0 (Proc.devRef .tc main_arg5)) (V0 (Proc.devRef .tc main_arg7)) (V0 (Proc.devRef .tc main_arg9)) (V0 (Proc.devRef .tc main_arg11)) (V0 (Proc.devRef .tc main_arg13)) (V0 (Proc.devRef .tc main_arg15))
      (fun q => V0 (Proc.devRef .tc main_arg6) (ix1 q)) (fun q => V0 (Proc.devRef .tc main_arg8) (ix1 q)) (fun q => V0 (Proc.devRef .tc main_arg10) (ix1 q))
      (fun q => V0 (Proc.devRef .tc main_arg12) (ix1 q)) (fun q => V0 (Proc.devRef .tc main_arg14) (ix1 q)) := by
  rw [after_ops]
  refine (evalTail (st6 V0)).trans ?_
  rw [feat1_st6, feat2_st6, feat3_st6, feat4_st6, feat_st6,
    launch_st6 V0 main_arg15 (by decide) (by decide) (by decide) (by decide) (by decide) (by decide)]
  rfl

/-- THE REFERENCE'S RUN, read: its result at the specification's network of the launch's arguments, its sixteen
    arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v113)
        = Cert.GinSpec.net (aggR (srcOf (m ((c.tc : Thread nD τ).loc main_arg2))) (dstOf (m ((c.tc : Thread nD τ).loc main_arg2))))
      (Cert.GinSpec.normalised (Cert.GinSpec.scaled (m ((c.tc : Thread nD τ).loc main_arg0)) (m ((c.tc : Thread nD τ).loc main_arg1)))
        (fun q => m ((c.tc : Thread nD τ).loc main_arg3) (ix1 q)) (fun q => m ((c.tc : Thread nD τ).loc main_arg4) (ix1 q)))
      (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15))
      (fun q => m ((c.tc : Thread nD τ).loc main_arg6) (ix1 q)) (fun q => m ((c.tc : Thread nD τ).loc main_arg8) (ix1 q)) (fun q => m ((c.tc : Thread nD τ).loc main_arg10) (ix1 q))
      (fun q => m ((c.tc : Thread nD τ).loc main_arg12) (ix1 q)) (fun q => m ((c.tc : Thread nD τ).loc main_arg14) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun r h c =>
    ⟨(h c main_v113).trans (ref_value (launchContents m c)),
     (h c main_arg0).trans (ref_args_of (launchContents m c) main_arg0 (by decide) (by decide) (by decide) (by decide) (by decide) (by decide) (by decide)),
     (h c main_arg1).trans (ref_args_of (launchContents m c) main_arg1 (by decide) (by decide) (by decide) (by decide) (by decide) (by decide) (by decide)),
     (h c main_arg2).trans (ref_args_of (launchContents m c) main_arg2 (by decide) (by decide) (by decide) (by decide) (by decide) (by decide) (by decide)),
     (h c main_arg3).trans (ref_args_of (launchContents m c) main_arg3 (by decide) (by decide) (by decide) (by decide) (by decide) (by decide) (by decide)),
     (h c main_arg4).trans (ref_args_of (launchContents m c) main_arg4 (by decide) (by decide) (by decide) (by decide) (by decide) (by decide) (by decide)),
     (h c main_arg5).trans (ref_args_of (launchContents m c) main_arg5 (by decide) (by decide) (by decide) (by decide) (by decide) (by decide) (by decide)),
     (h c main_arg6).trans (ref_args_of (launchContents m c) main_arg6 (by decide) (by decide) (by decide) (by decide) (by decide) (by decide) (by decide)),
     (h c main_arg7).trans (ref_args_of (launchContents m c) main_arg7 (by decide) (by decide) (by decide) (by decide) (by decide) (by decide) (by decide)),
     (h c main_arg8).trans (ref_args_of (launchContents m c) main_arg8 (by decide) (by decide) (by decide) (by decide) (by decide) (by decide) (by decide)),
     (h c main_arg9).trans (ref_args_of (launchContents m c) main_arg9 (by decide) (by decide) (by decide) (by decide) (by decide) (by decide) (by decide)),
     (h c main_arg10).trans (ref_args_of (launchContents m c) main_arg10 (by decide) (by decide) (by decide) (by decide) (by decide) (by decide) (by decide)),
     (h c main_arg11).trans (ref_args_of (launchContents m c) main_arg11 (by decide) (by decide) (by decide) (by decide) (by decide) (by decide) (by decide)),
     (h c main_arg12).trans (ref_args_of (launchContents m c) main_arg12 (by decide) (by decide) (by decide) (by decide) (by decide) (by decide) (by decide)),
     (h c main_arg13).trans (ref_args_of (launchContents m c) main_arg13 (by decide) (by decide) (by decide) (by decide) (by decide) (by decide) (by decide)),
     (h c main_arg14).trans (ref_args_of (launchContents m c) main_arg14 (by decide) (by decide) (by decide) (by decide) (by decide) (by decide) (by decide)),
     (h c main_arg15).trans (ref_args_of (launchContents m c) main_arg15 (by decide) (by decide) (by decide) (by decide) (by decide) (by decide) (by decide))⟩)
    (ValueP.run (F := Ideal) m ρ)

end Cert.ReferenceIdeal.RefValue

end
-- ==== Proof.AggBridge.lean ====
/-
  The two programs compute one neighbour sum.

  Both gather the features' rows at the edges' (wrapped) sources and accumulate them at the edges' destinations,
  under the same dimension numbers and over the same shapes; the kernel program alone narrows the features to
  bfloat16 before the gather and widens the gathered rows after it. At the exact extended reals a float of any
  format is an extended real and a change of format returns its argument, so the narrowing and the widening drop
  out and the two functions are the same, entry by entry and by definition.
-/
import proofs.«145996_j23708219474067_2_alg».proof.Proof.KAgg
import proofs.«145996_j23708219474067_2_alg».proof.Proof.RefAgg

noncomputable section

namespace Cert.GinBridge

open Idealize.ShloMosaic

variable [Cert.KernelIdeal.Facts₀] [Cert.ReferenceIdeal.Facts₀]

/-- The wrapped source numbers are the same function in both programs. -/
theorem wrapIdx_eq (src : IVec Cert.ReferenceIdeal.S1600000 32) :
    Cert.KernelIdeal.KValue.wrapIdx src = Cert.ReferenceIdeal.RefValue.wrapIdx src := rfl

/-- The gather's dimension numbers are the same record in both programs. -/
theorem gather_eq :
    Cert.KernelIdeal.gather_S100000x128_S1600000x1_S1600000x128_1_0_n_n_0_1_1128 = Cert.ReferenceIdeal.gather_S100000x128_S1600000x1_S1600000x128_1_0_n_n_0_1_1128 := rfl

/-- The scatter's dimension numbers are the same record in both programs. -/
theorem scatter_eq :
    Cert.KernelIdeal.scatter_S100000x128_S1600000x1_S1600000x128_1_0_0_1 = Cert.ReferenceIdeal.scatter_S100000x128_S1600000x1_S1600000x128_1_0_0_1 := rfl

/-- Narrowing to bfloat16, gathering and widening back is, on exact extended reals, just gathering. -/
theorem gather_roundtrip (h : FVec Ideal Cert.ReferenceIdeal.S100000x128 .f32)
    (idx : IVec Cert.ReferenceIdeal.S1600000x1 32) :
    extf (F := Ideal) .f32
        (Host.gather Cert.KernelIdeal.gather_S100000x128_S1600000x1_S1600000x128_1_0_n_n_0_1_1128
          (truncf (F := Ideal) .bf16 h Cert.KernelIdeal.Facts₀.bitsLt_bf16_f32) idx)
        Cert.KernelIdeal.Facts₀.bitsLt_bf16_f32
      = Host.gather Cert.ReferenceIdeal.gather_S100000x128_S1600000x1_S1600000x128_1_0_n_n_0_1_1128 h idx := rfl

/-- The kernel program's neighbour sum is the reference's. -/
theorem agg_eq (src dst : IVec Cert.ReferenceIdeal.S1600000 32) (h : FVec Ideal Cert.ReferenceIdeal.S100000x128 .f32) :
    Cert.KernelIdeal.KValue.aggK src dst h = Cert.ReferenceIdeal.RefValue.aggR src dst h := by
  unfold Cert.KernelIdeal.KValue.aggK Cert.ReferenceIdeal.RefValue.aggR
  rw [gather_roundtrip, wrapIdx_eq, scatter_eq]

end Cert.GinBridge

end
-- ==== Proof.Consts.lean ====
/-
  The three float words the normalisation spells, as the extended reals they denote: the zero a column sum starts
  from, the node count 100000 a column sum is divided by, and the small positive ε added to a variance
  (the binary value nearest to one hundred-thousandth, (2^23 + 2606508) · 2^(-40)).
-/
import Idealize.ShloMosaic.PureOps.Ideal

noncomputable section

namespace Cert.GinConsts

open Idealize.ShloMosaic

/-- The zero word denotes `0`. -/
theorem ofBits_zero : Ideal.ofBits .f32 0x00000000#32 = 0 := by
  simp [Ideal.ofBits, Ideal.ieee]

/-- The word for the node count denotes the real `100000`. -/
theorem ofBits_count : Ideal.ofBits .f32 0x47C35000#32 = ((100000 : ℝ) : EReal) := by
  simp [Ideal.ofBits, Ideal.ieee, -EReal.coe_mul]; norm_num

/-- The word for ε denotes a positive real. -/
theorem ofBits_eps : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

end Cert.GinConsts

end
-- ==== Proof.NormAlgebra.lean ====
/-
  The fused form of the normalisation equals the textbook form when the data are real numbers.

  With every entry of `a`, `γ`, `β` real: a column's mean is the real sum over its 100000 entries divided by
  100000; the variance is a mean of squares, hence a nonnegative real; adding the positive ε makes it positive,
  so one over its square root is again a real `s`. Then, in ℝ,
      a · (γ · s) + (β − (μ · γ) · s)  =  ((a − μ) · s) · γ + β
  by distributivity — the one law here that would fail at an infinity, which is why reality of the data is used.
-/
import proofs.«145996_j23708219474067_2_alg».proof.Proof.Spec
import proofs.«145996_j23708219474067_2_alg».proof.Proof.Consts

noncomputable section

namespace Cert.GinSpec

open Idealize.ShloMosaic Idealize.ShloMosaic.ValueIdx
open scoped BigOperators

/-- A finite sum of reals, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The mean of a column whose entries are the reals `F r` is the real sum divided by 100000. -/
theorem colMean_of_real (a : Sx.Idx → EReal) (q : Fin 128) (F : Fin 100000 → ℝ)
    (h : ∀ r : Fin 100000, a (ix2 r q) = (F r : EReal)) :
    colMean a q = (((∑ r : Fin 100000, F r) * (1 / 100000) : ℝ) : EReal) := by
  unfold colMean
  rw [Finset.sum_congr rfl (fun r _ => h r), GinConsts.ofBits_zero, GinConsts.ofBits_count, zero_add, coe_sum,
    Ideal.div_coe (by norm_num : (100000 : ℝ) ≠ 0), ← EReal.coe_mul]

/-- The real mean of column `q` of a real array. -/
def meanR (f : Sx.Idx → ℝ) (q : Fin 128) : ℝ := (∑ r : Fin 100000, f (ix2 r q)) * (1 / 100000)

/-- The squared deviation of entry (r, q) from its column's mean. -/
def devSqR (f : Sx.Idx → ℝ) (q : Fin 128) (r : Fin 100000) : ℝ :=
  (f (ix2 r q) - meanR f q) * (f (ix2 r q) - meanR f q)

/-- The real variance of column `q`: the mean of the squared deviations. -/
def varR (f : Sx.Idx → ℝ) (q : Fin 128) : ℝ := (∑ r : Fin 100000, devSqR f q r) * (1 / 100000)

theorem varR_nonneg (f : Sx.Idx → ℝ) (q : Fin 128) : 0 ≤ varR f q :=
  mul_nonneg (Finset.sum_nonneg fun r _ => mul_self_nonneg _) (by norm_num)

/-- The mean of a column of reals is the real mean. -/
theorem colMean_coe (f : Sx.Idx → ℝ) (q : Fin 128) :
    colMean (fun i => (f i : EReal)) q = (meanR f q : EReal) :=
  colMean_of_real _ q (fun r => f (ix2 r q)) fun _ => rfl

/-- The mean of the squared deviations of a column of reals is the real variance. -/
theorem colMean_sq_coe (f : Sx.Idx → ℝ) (q : Fin 128) :
    colMean (fun j => centred (fun i => (f i : EReal)) j * centred (fun i => (f i : EReal)) j) q
      = (varR f q : EReal) := by
  refine colMean_of_real _ q (devSqR f q) fun r => ?_
  show ((f (ix2 r q) : EReal) - colMean (fun i => (f i : EReal)) q)
      * ((f (ix2 r q) : EReal) - colMean (fun i => (f i : EReal)) q) = _
  rw [colMean_coe, ← EReal.coe_sub, ← EReal.coe_mul]
  rfl

/-- One over the root of (variance + ε) of a real column is a real. -/
theorem invStd_coe (f : Sx.Idx → ℝ) (q : Fin 128) :
    ∃ s : ℝ, invStd (fun i => (f i : EReal)) q = (s : EReal) := by
  obtain ⟨e, he, hε⟩ := GinConsts.ofBits_eps
  have hpos : 0 < varR f q + e := add_pos_of_nonneg_of_pos (varR_nonneg f q) he
  refine ⟨(Real.sqrt (varR f q + e))⁻¹, ?_⟩
  unfold invStd
  rw [colMean_sq_coe, hε, ← EReal.coe_add, Ideal.rsqrt_coe, if_neg (not_lt.2 hpos.le), if_neg hpos.ne']

/-- THE LAW: on real data the fused multiply-add form of the normalisation is the textbook form. -/
theorem fused_eq_normalised (a : Sx.Idx → EReal) (γ β : Fin 128 → EReal)
    (ha : ∀ i, ∃ r : ℝ, a i = (r : EReal)) (hγ : ∀ q, ∃ r : ℝ, γ q = (r : EReal))
    (hβ : ∀ q, ∃ r : ℝ, β q = (r : EReal)) :
    fused a (fusedScale a γ) (fusedShift a γ β) = normalised a γ β := by
  choose f hf using ha
  choose g hg using hγ
  choose b hb using hβ
  obtain rfl : a = fun i => (f i : EReal) := funext hf
  funext i
  obtain ⟨p, q, rfl⟩ : ∃ (p : Fin 100000) (q : Fin 128), i = ix2 p q := ⟨i 0, i 1, eq_ix2 i⟩
  obtain ⟨s, hs⟩ := invStd_coe f q
  show (f (ix2 p q) : EReal) * (γ q * invStd (fun i => (f i : EReal)) q)
        + (β q - colMean (fun i => (f i : EReal)) q * γ q * invStd (fun i => (f i : EReal)) q)
      = ((f (ix2 p q) : EReal) - colMean (fun i => (f i : EReal)) q) * invStd (fun i => (f i : EReal)) q * γ q + β q
  rw [hs, colMean_coe, hg, hb]
  norm_cast
  ring

end Cert.GinSpec

end
-- ==== Proof.Finite.lean ====
/-
  The precondition says, array by array, that every entry's absolute value is below the word for +∞. On the
  extended reals that word is ⊤, the absolute value of an entry is the larger of it and its negation, and an
  extended real whose absolute value is below ⊤ is neither ⊤ nor ⊥: it is a real number. Here that reading is
  carried out for the four arrays the normalisation uses: the features, the importances, and the scale and
  offset vectors.
-/
import proofs.«145996_j23708219474067_2_alg».proof.Defs
import proofs.«145996_j23708219474067_2_alg».proof.Proof.Gen.Pre_finite_inputs
import Idealize.ShloMosaic.Lib.Pipeline.Value
import Idealize.ShloMosaic.Lib.ValueIdx
import Idealize.ShloMosaic.Lib.ReduceAll
import Idealize.ShloMosaic.PureOps.Ideal.Laws

noncomputable section

namespace Cert.KernelIdeal.Finite

open Idealize.ShloMosaic Idealize.ShloMosaic.ValueIdx Idealize.SL.Sem

/-- The shape of a single number has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- One array's part of the precondition: if comparing every absolute value with +∞ and taking the conjunction
    over the whole array gives 1, every entry is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) :
    ∃ r : ℝ, x i = (r : EReal) :=
  real_of_abs_lt (x i) (Host.reduce_andi_all _ _ hr hu ix0 e i)

/-- The left conjunct of a conjunction of truth words that came out 1. -/
theorem andl {a b : BitVec 1} (h : IntOp.andi a b = 1#1) : a = 1#1 := (IntOp.andi_eq_one.1 h).1
/-- The right conjunct of a conjunction of truth words that came out 1. -/
theorem andr {a b : BitVec 1} (h : IntOp.andi a b = 1#1) : b = 1#1 := (IntOp.andi_eq_one.1 h).2

/-- Under the precondition, on every device, the features, the importances, the scale vector and the offset vector
    hold real numbers only. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at e
  -- the conjunction is nested to the left: peel the eleven later arrays off, then split the first four
  have e18 := andl (andl (andl (andl (andl (andl (andl (andl (andl (andl (andl e))))))))))
  have e13 := andl e18
  have e8 := andl e13
  exact ⟨all_real _ _ _ _ (andl e8), all_real _ _ _ _ (andr e8), all_real _ _ _ _ (andr e13), all_real _ _ _ _ (andr e18)⟩

end Cert.KernelIdeal.Finite

end
-- ==== Proof.lean ====
/-
  The certificate: a six-kernel graph network (batch normalisation, five graph-convolution updates, a closing
  projection, the six results side by side) computes, on exact extended reals, the same 100000 × 768 array as its
  plain reference, whenever the inputs are finite.

  Both programs are shown to compute the network of Proof/Spec.lean over their launch contents. The reference does
  so operation by operation (Proof/RefEval*.lean over the run of its host operations); the kernel program does so
  through its twelve segments (Proof/KChain.lean over the run of Proof/KRun.lean), each grid region leaving in its
  output arrays the update of the arrays it found (Proof/KRegion*.lean). Two things differ between them. The kernel
  narrows features to bfloat16 around the neighbour gather and around the matrix products, which on exact reals is
  the identity (Proof/AggBridge.lean). And the kernel normalises in the fused form a·(γ·s) + (β − (μ·γ)·s) where the
  reference computes ((a − μ)·s)·γ + β; these agree by distributivity, which needs the entries to be real numbers —
  that is where the precondition is used (Proof/Finite.lean, Proof/NormAlgebra.lean).

  The three frame claims are the frame certificates of the two kernel programs and the reference's run with its
  result forgotten; the idealized kernel is the printed kernel read at exact reals with no rewrite, so nothing is
  owed for it.
-/
import proofs.«145996_j23708219474067_2_alg».proof.Defs
import proofs.«145996_j23708219474067_2_alg».proof.Proof.Gen.Kernel
import proofs.«145996_j23708219474067_2_alg».proof.Proof.Gen.Kernel.Skeleton
import proofs.«145996_j23708219474067_2_alg».proof.Proof.Gen.Kernel.Launch
import proofs.«145996_j23708219474067_2_alg».proof.Proof.Gen.Kernel.Points
import proofs.«145996_j23708219474067_2_alg».proof.Proof.Gen.Kernel.Frame
import proofs.«145996_j23708219474067_2_alg».proof.Proof.Gen.KernelIdeal
import proofs.«145996_j23708219474067_2_alg».proof.Proof.Gen.KernelIdeal.Skeleton
import proofs.«145996_j23708219474067_2_alg».proof.Proof.Gen.KernelIdeal.Launch
import proofs.«145996_j23708219474067_2_alg».proof.Proof.Gen.KernelIdeal.Points
import proofs.«145996_j23708219474067_2_alg».proof.Proof.Gen.KernelIdeal.Frame
import proofs.«145996_j23708219474067_2_alg».proof.Proof.Gen.ReferenceIdeal
import proofs.«145996_j23708219474067_2_alg».proof.Proof.Gen.Pre_finite_inputs
import proofs.«145996_j23708219474067_2_alg».proof.Proof.KRun
import proofs.«145996_j23708219474067_2_alg».proof.Proof.KChain
import proofs.«145996_j23708219474067_2_alg».proof.Proof.RefEval
import proofs.«145996_j23708219474067_2_alg».proof.Proof.AggBridge
import proofs.«145996_j23708219474067_2_alg».proof.Proof.NormAlgebra
import proofs.«145996_j23708219474067_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- A product of two real numbers, taken in the extended reals, is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- At exact reals the idealized kernel and the idealized reference, run from memories that agree on the arguments,
    end with the same result array: both compute the network of Proof/Spec.lean over those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W12 m ρ c (Proc.devRef .tc Cert.KernelIdeal.main_v96),
    Cert.KernelIdeal.KValue.run_named m ρ, ?_⟩
  refine (θ_run Cert.ReferenceIdeal.defs _ _).mono (fun _ h c => ⟨(h c).1.trans ?_, (h c).2⟩)
    (Cert.ReferenceIdeal.RefValue.ref_run m' ρ')
  obtain ⟨e0, e1, e2, e3, e4, e5, e6, e7, e8, e9, e10, e11, e12, e13, e14, e15⟩ := hagree c
  obtain ⟨rx, rimp, rg, rb⟩ := Cert.KernelIdeal.Finite.real_of_pre m hpre c
  rw [e0, e1, e2, e3, e4, e5, e6, e7, e8, e9, e10, e11, e12, e13, e14, e15]
  refine Eq.trans ?_ (Cert.KernelIdeal.KValue.result_eq m ρ c).symm
  -- the neighbour sums are one function
  have hA : Cert.ReferenceIdeal.RefValue.aggR
        (Cert.ReferenceIdeal.RefValue.srcOf (m ((c.tc : Thread Cert.KernelIdeal.nD Cert.KernelIdeal.τ).loc Cert.KernelIdeal.main_arg2)))
        (Cert.ReferenceIdeal.RefValue.dstOf (m ((c.tc : Thread Cert.KernelIdeal.nD Cert.KernelIdeal.τ).loc Cert.KernelIdeal.main_arg2)))
      = Cert.KernelIdeal.KValue.nbr m c :=
    funext fun h => (Cert.GinBridge.agg_eq _ _ h).symm
  -- on real data the fused normalisation is the textbook one
  have hN : Cert.GinSpec.normalised (Cert.KernelIdeal.KValue.scaledX m c) (Cert.KernelIdeal.KValue.gam m c)
        (Cert.KernelIdeal.KValue.bet m c) = Cert.KernelIdeal.KValue.feat0 m c :=
    (Cert.GinSpec.fused_eq_normalised _ _ _ (fun i => real_mul (rx i) (rimp _)) (fun q => rg _) (fun q => rb _)).symm
  rw [hA]
  exact congrArg (fun h0 => Cert.GinSpec.net (Cert.KernelIdeal.KValue.nbr m c) h0 _ _ _ _ _ _ _ _ _ _ _) hN

/-- Everything the certificate claims. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.ref_run m ρ),
  trivial,
  algebraic⟩

end Cert.Proof

end
